-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)) (v3 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x3200000 : Shape := ⟨2, ![2, 3200000]⟩
abbrev S3200000x16 : Shape := ⟨2, ![3200000, 16]⟩
abbrev S3200000 : Shape := ⟨1, ![3200000]⟩
abbrev S80x32 : Shape := ⟨2, ![80, 32]⟩
abbrev S32 : Shape := ⟨1, ![32]⟩
abbrev S32x32 : Shape := ⟨2, ![32, 32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S3200000x16 : S_.BroadcastsInDim S3200000x16 (![] : Fin 0 → Fin S3200000x16.rank)
  reducesTo_S3200000x16_S_d0_1 : S3200000x16.ReducesTo [0, 1] S_
  bcast_S_S3200000 : S_.BroadcastsInDim S3200000 (![] : Fin 0 → Fin S3200000.rank)
  reducesTo_S3200000_S_d0 : S3200000.ReducesTo [0] S_
  bcast_S_S80x32 : S_.BroadcastsInDim S80x32 (![] : Fin 0 → Fin S80x32.rank)
  reducesTo_S80x32_S_d0_1 : S80x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg8 : FVec F S32 .f32) (main_arg9 : FVec F S32 .f32) (main_arg10 : FVec F S32x32 .f32) (main_arg11 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg10
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg5 : FVec F S32 .f32) (main_arg6 : FVec F S80x32 .f32) (main_arg7 : FVec F S32 .f32) (main_arg8 : FVec F S32 .f32) (main_arg9 : FVec F S32 .f32) (main_arg10 : FVec F S32x32 .f32) (main_arg11 : FVec F S32 .f32) (main_v13 : IVec S_ 1) (main_v16 : IVec S80x32 1) : IVec S_ 1 :=
  let main_c_5 : IVec S_ 1 := constantI S_ 1 1#1
  let main_v17 : IVec S_ 1 := (fun x v => Host.reduce IntOp.andi x v reducesTo_S80x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S80x32 .f32 := Host.absf main_arg6
  let main_cst_8 : FVec F S_ .f32 := constant S_ .f32 0x7F800000#32
  let main_v25 : FVec F S80x32 .f32 := broadcastInDim S80x32 ![] bcast_S_S80x32 main_cst_8
  let main_v26 : IVec S80x32 1 := cmpf .olt main_v24 main_v25
  let main_c_9 : IVec S_ 1 := constantI S_ 1 1#1
  let main_v27 : IVec S_ 1 := (fun x v => Host.reduce IntOp.andi x v reducesTo_S80x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x32 .f32) (main_arg1 : IVec S2x3200000 32) (main_arg2 : FVec F S3200000x16 .f32) (main_arg3 : FVec F S3200000 .f32) (main_arg4 : FVec F S80x32 .f32) (main_arg5 : FVec F S32 .f32) (main_arg6 : FVec F S80x32 .f32) (main_arg7 : FVec F S32 .f32) (main_arg8 : FVec F S32 .f32) (main_arg9 : FVec F S32 .f32) (main_arg10 : FVec F S32x32 .f32) (main_arg11 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S3200000x16 .f32 := Host.absf main_arg2
  let main_cst_0 : FVec F S_ .f32 := constant S_ .f32 0x7F800000#32
  let main_v5 : FVec F S3200000x16 .f32 := broadcastInDim S3200000x16 ![] bcast_S_S3200000x16 main_cst_0
  let main_v6 : IVec S3200000x16 1 := cmpf .olt main_v4 main_v5
  let main_c_1 : IVec S_ 1 := constantI S_ 1 1#1
  let main_v7 : IVec S_ 1 := (fun x v => Host.reduce IntOp.andi x v reducesTo_S3200000x16_S_d0_1 h_S_) main_v6 main_c_1
  let main_v8 : IVec S_ 1 := andi main_v3 main_v7
  let main_v9 : FVec F S3200000 .f32 := Host.absf main_arg3
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  let main_v14 : FVec F S80x32 .f32 := Host.absf main_arg4
  let main_cst_4 : FVec F S_ .f32 := constant S_ .f32 0x7F800000#32
  let main_v15 : FVec F S80x32 .f32 := broadcastInDim S80x32 ![] bcast_S_S80x32 main_cst_4
  let main_v16 : IVec S80x32 1 := cmpf .olt main_v14 main_v15
  fn_part1 (F := F) main_arg5 main_arg6 main_arg7 main_arg8 main_arg9 main_arg10 main_arg11 main_v13 main_v16
-- ==== Kernel.lean ====
abbrev S100000x32 : Shape := ⟨2, ![100000, 32]⟩
abbrev S2x3200000 : Shape := ⟨2, ![2, 3200000]⟩
abbrev S3200000x16 : Shape := ⟨2, ![3200000, 16]⟩
abbrev S3200000 : Shape := ⟨1, ![3200000]⟩
abbrev S80x32 : Shape := ⟨2, ![80, 32]⟩
abbrev S32 : Shape := ⟨1, ![32]⟩
abbrev S32x32 : Shape := ⟨2, ![32, 32]⟩
abbrev S1x3200000 : Shape := ⟨2, ![1, 3200000]⟩
abbrev S_ : Shape := ⟨0, ![]⟩
abbrev S3200000x1 : Shape := ⟨2, ![3200000, 1]⟩
abbrev S3200000x32 : Shape := ⟨2, ![3200000, 32]⟩
abbrev S16x32 : Shape := ⟨2, ![16, 32]⟩
abbrev S1x32 : Shape := ⟨2, ![1, 32]⟩
abbrev S6400x32 : Shape := ⟨2, ![6400, 32]⟩
abbrev S6400x16 : Shape := ⟨2, ![6400, 16]⟩
abbrev S6400x1 : Shape := ⟨2, ![6400, 1]⟩
abbrev S5000x32 : Shape := ⟨2, ![5000, 32]⟩
abbrev S5000 : Shape := ⟨1, ![5000]⟩
abbrev S5000x1 : Shape := ⟨2, ![5000, 1]⟩

abbrev nBuf : Space → Nat
  | .hbm => 53
  | .vmem => 28
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S3200000x16, .f32⟩
  | .hbm, ⟨3, _⟩ => ⟨S3200000, .f32⟩
  | .hbm, ⟨4, _⟩ => ⟨S80x32, .f32⟩
  | .hbm, ⟨5, _⟩ => ⟨S32, .f32⟩
  | .hbm, ⟨6, _⟩ => ⟨S80x32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S100000x32, .bf16⟩
  | .hbm, ⟨17, _⟩ => ⟨S_, .i32⟩
  | .hbm, ⟨18, _⟩ => ⟨S3200000, .i32⟩
  | .hbm, ⟨19, _⟩ => ⟨S3200000, .i1⟩
  | .hbm, ⟨20, _⟩ => ⟨S_, .i32⟩
  | .hbm, ⟨21, _⟩ => ⟨S3200000, .i32⟩
  | .hbm, ⟨22, _⟩ => ⟨S3200000, .i32⟩
  | .hbm, ⟨23, _⟩ => ⟨S3200000, .i32⟩
  | .hbm, ⟨24, _⟩ => ⟨S3200000x1, .i32⟩
  | .hbm, ⟨25, _⟩ => ⟨S3200000x32, .bf16⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000x32, .bf16⟩
  | .hbm, ⟨35, _⟩ => ⟨S3200000x1, .f32⟩
  | .hbm, ⟨36, _⟩ => ⟨S32x32, .f32⟩
  | .hbm, ⟨37, _⟩ => ⟨S32x32, .f32⟩
  | .hbm, ⟨38, _⟩ => ⟨S16x32, .f32⟩
  | .hbm, ⟨39, _⟩ => ⟨S1x32, .f32⟩
  | .hbm, ⟨40, _⟩ => ⟨S32x32, .f32⟩
  | .hbm, ⟨41, _⟩ => ⟨S32x32, .f32⟩
  | .hbm, ⟨42, _⟩ => ⟨S16x32, .f32⟩
  | .hbm, ⟨43, _⟩ => ⟨S1x32, .f32⟩
  | .hbm, ⟨44, _⟩ => ⟨S3200000x32, .f32⟩
  | .hbm, ⟨45, _⟩ => ⟨S_, .f32⟩
  | .hbm, ⟨46, _⟩ => ⟨S100000x32, .f32⟩
  | .hbm, ⟨47, _⟩ => ⟨S3200000x1, .i32⟩
  | .hbm, ⟨48, _⟩ => ⟨S100000x32, .f32⟩
  | .hbm, ⟨49, _⟩ => ⟨S1x32, .f32⟩
  | .hbm, ⟨50, _⟩ => ⟨S1x32, .f32⟩
  | .hbm, ⟨51, _⟩ => ⟨S1x32, .f32⟩
  | .hbm, ⟨52, _⟩ => ⟨S100000x32, .f32⟩
  | .local _ .vmem, ⟨0, _⟩ => ⟨S6400x32, .bf16⟩
  | .local _ .vmem, ⟨1, _⟩ => ⟨S6400x32, .bf16⟩
  | .local _ .vmem, ⟨2, _⟩ => ⟨S6400x32, .bf16⟩
  | .local _ .vmem, ⟨3, _⟩ => ⟨S6400x32, .bf16⟩
  | .local _ .vmem, ⟨4, _⟩ => ⟨S6400x16, .f32⟩
  | .local _ .vmem, ⟨5, _⟩ => ⟨S6400x16, .f32⟩
  | .local _ .vmem, ⟨6, _⟩ => ⟨S6400x1, .f32⟩
  | .local _ .vmem, ⟨7, _⟩ => ⟨S6400x1, .f32⟩
  | .local _ .vmem, ⟨8, _⟩ => ⟨S32x32, .f32⟩
  | .local _ .vmem, ⟨9, _⟩ => ⟨S32x32, .f32⟩
  | .local _ .vmem, ⟨10, _⟩ => ⟨S16x32, .f32⟩
  | .local _ .vmem, ⟨11, _⟩ => ⟨S1x32, .f32⟩
  | .local _ .vmem, ⟨12, _⟩ => ⟨S32x32, .f32⟩
  | .local _ .vmem, ⟨13, _⟩ => ⟨S32x32, .f32⟩
  | .local _ .vmem, ⟨14, _⟩ => ⟨S16x32, .f32⟩
  | .local _ .vmem, ⟨15, _⟩ => ⟨S1x32, .f32⟩
  | .local _ .vmem, ⟨16, _⟩ => ⟨S6400x32, .f32⟩
  | .local _ .vmem, ⟨17, _⟩ => ⟨S6400x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S1x32, .f32⟩
  | .local _ .vmem, ⟨23, _⟩ => ⟨S1x32, .f32⟩
  | .local _ .vmem, ⟨24, _⟩ => ⟨S32x32, .f32⟩
  | .local _ .vmem, ⟨25, _⟩ => ⟨S1x32, .f32⟩
  | .local _ .vmem, ⟨26, _⟩ => ⟨S5000x32, .f32⟩
  | .local _ .vmem, ⟨27, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6400x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S6400x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bitsLt_bf16_f32 : FTy.bits .bf16 < FTy.bits .f32
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S3200000_S3200000x1 : S3200000.ShapeCasts S3200000x1
  slices_S80x32_S32x32_0_0 : S80x32.Slices ![0, 0] S32x32
  slices_S80x32_S32x32_32_0 : S80x32.Slices ![32, 0] S32x32
  slices_S80x32_S16x32_64_0 : S80x32.Slices ![64, 0] S16x32
  shapeCasts_S32_S1x32 : S32.ShapeCasts S1x32
  inb_S6400x32_S6400x32_0_0 : ∀ a, (![0, 0] : Fin 2 → Nat) a + S6400x32.size a ≤ S6400x32.size a
  h_S6400x32 : 0 < S6400x32.numel
  shapeCasts_S6400x32_S6400x32 : S6400x32.ShapeCasts S6400x32
  inb_S6400x16_S6400x16_0_0 : ∀ a, (![0, 0] : Fin 2 → Nat) a + S6400x16.size a ≤ S6400x16.size a
  h_S6400x16 : 0 < S6400x16.numel
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S6400x32 : S1x32.Broadcasts S6400x32
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x32 : S6400x1.Broadcasts S6400x32
  bcast_S_S100000x32 : S_.BroadcastsInDim S100000x32 (![] : Fin 0 → Fin S100000x32.rank)
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  reduces_S5000x32_S5000 : S5000x32.Reduces [1] S5000
  shapeCasts_S5000_S5000x1 : S5000.ShapeCasts S5000x1
  broadcasts_S5000x1_S5000x32 : S5000x1.Broadcasts S5000x32
  broadcasts_S1x32_S5000x32 : S1x32.Broadcasts S5000x32
  gather_S100000x32_S3200000x1_S3200000x32_1_0_n_n_0_1_132_wf : GatherDims.WF S100000x32 S3200000x1 S3200000x32 [1] [0] [] [0] [] 1 ![1, 32]
  dot_S6400x32_S32x32_S6400x32_1_0_0_1_n_n_wf : DotDims.WF S6400x32 S32x32 S6400x32 [1] [0] [0] [1] [] []
  dot_S6400x16_S16x32_S6400x32_1_0_0_1_n_n_wf : DotDims.WF S6400x16 S16x32 S6400x32 [1] [0] [0] [1] [] []
  scatter_S100000x32_S3200000x1_S3200000x32_1_0_0_1_wf : ScatterDims.WF S100000x32 S3200000x1 S3200000x32 [1] [0] [0] 1
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x32.size a ≤ S3200000x32.size a
  hwx0_0 : ∀ i : grid0.Coords, EltTy.bits .bf16 = 32 ∨ (Rect.block (s := S3200000x32) S6400x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x32.size a ≤ S3200000x32.size a
  hwx0_1 : ∀ i : grid0.Coords, EltTy.bits .bf16 = 32 ∨ (Rect.block (s := S3200000x32) S6400x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x16.size a ≤ S3200000x16.size a
  hwx0_2 : ∀ i : grid0.Coords, EltTy.bits .f32 = 32 ∨ (Rect.block (s := S3200000x16) S6400x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x1.size a ≤ S3200000x1.size a
  hwx0_3 : ∀ i : grid0.Coords, EltTy.bits .f32 = 32 ∨ (Rect.block (s := S3200000x1) S6400x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x32.size a ≤ S16x32.size a
  hwx0_6 : ∀ i : grid0.Coords, EltTy.bits .f32 = 32 ∨ (Rect.block (s := S16x32) S16x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x32.size a ≤ S32x32.size a
  hwx0_8 : ∀ i : grid0.Coords, EltTy.bits .f32 = 32 ∨ (Rect.block (s := S32x32) S32x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x32.size a ≤ S32x32.size a
  hwx0_9 : ∀ i : grid0.Coords, EltTy.bits .f32 = 32 ∨ (Rect.block (s := S32x32) S32x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x32.size a ≤ S16x32.size a
  hwx0_10 : ∀ i : grid0.Coords, EltTy.bits .f32 = 32 ∨ (Rect.block (s := S16x32) S16x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S6400x32.size a ≤ S3200000x32.size a
  hwx0_12 : ∀ i : grid0.Coords, EltTy.bits .f32 = 32 ∨ (Rect.block (s := S3200000x32) S6400x32.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x32.size a ≤ S100000x32.size a
  hwx1_6 : ∀ i : grid1.Coords, EltTy.bits .f32 = 32 ∨ (Rect.block (s := S100000x32) S5000x32.size (cc1_transform_6 i) (hinb1_6 i)).WholeWords (EltTy.packing .f32)

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def dot_S6400x32_S32x32_S6400x32_1_0_0_1_n_n : DotDims S6400x32 S32x32 S6400x32 where
  lhsContracting := [1]
  rhsContracting := [0]
  lhsNonContracting := [0]
  rhsNonContracting := [1]
  lhsBatch := []
  rhsBatch := []
  wf := dot_S6400x32_S32x32_S6400x32_1_0_0_1_n_n_wf
def dot_S6400x16_S16x32_S6400x32_1_0_0_1_n_n : DotDims S6400x16 S16x32 S6400x32 where
  lhsContracting := [1]
  rhsContracting := [0]
  lhsNonContracting := [0]
  rhsNonContracting := [1]
  lhsBatch := []
  rhsBatch := []
  wf := dot_S6400x16_S16x32_S6400x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_v11) S6400x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S6400x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6400x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S6400x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S16x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S32x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S32x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26) S16x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v27) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v28) S6400x32.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v31) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S5000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x3200000 : Shape := ⟨2, ![2, 3200000]⟩
abbrev S3200000x16 : Shape := ⟨2, ![3200000, 16]⟩
abbrev S3200000 : Shape := ⟨1, ![3200000]⟩
abbrev S80x32 : Shape := ⟨2, ![80, 32]⟩
abbrev S32 : Shape := ⟨1, ![32]⟩
abbrev S32x32 : Shape := ⟨2, ![32, 32]⟩
abbrev S1x3200000 : Shape := ⟨2, ![1, 3200000]⟩
abbrev S_ : Shape := ⟨0, ![]⟩
abbrev S3200000x1 : Shape := ⟨2, ![3200000, 1]⟩
abbrev S3200000x32 : Shape := ⟨2, ![3200000, 32]⟩
abbrev S3200000x80 : Shape := ⟨2, ![3200000, 80]⟩
abbrev S1x32 : Shape := ⟨2, ![1, 32]⟩
abbrev S100000 : Shape := ⟨1, ![100000]⟩
abbrev S100000x1 : Shape := ⟨2, ![100000, 1]⟩

abbrev nBuf : Space → Nat
  | .hbm => 138
  | .vmem => 0
  | .smem => 0
  | _ => 0

abbrev hbmTy0_0 (i : Nat) : BufTy := match i % 128 with
  | 0 => ⟨S100000x32, .f32⟩
  | 1 => ⟨S2x3200000, .i32⟩
  | 2 => ⟨S3200000x16, .f32⟩
  | 3 => ⟨S3200000, .f32⟩
  | 4 => ⟨S80x32, .f32⟩
  | 5 => ⟨S32, .f32⟩
  | 6 => ⟨S80x32, .f32⟩
  | 7 => ⟨S32, .f32⟩
  | 8 => ⟨S32, .f32⟩
  | 9 => ⟨S32, .f32⟩
  | 10 => ⟨S32x32, .f32⟩
  | 11 => ⟨S32, .f32⟩
  | 12 => ⟨S1x3200000, .i32⟩
  | 13 => ⟨S3200000, .i32⟩
  | 14 => ⟨S1x3200000, .i32⟩
  | 15 => ⟨S3200000, .i32⟩
  | 16 => ⟨S_, .i32⟩
  | 17 => ⟨S3200000, .i32⟩
  | 18 => ⟨S3200000, .i1⟩
  | 19 => ⟨S_, .i32⟩
  | 20 => ⟨S3200000, .i32⟩
  | 21 => ⟨S3200000, .i32⟩
  | 22 => ⟨S3200000, .i32⟩
  | 23 => ⟨S3200000x1, .i32⟩
  | 24 => ⟨S3200000x32, .f32⟩
  | 25 => ⟨S_, .i32⟩
  | 26 => ⟨S3200000, .i32⟩
  | 27 => ⟨S3200000, .i1⟩
  | 28 => ⟨S_, .i32⟩
  | 29 => ⟨S3200000, .i32⟩
  | 30 => ⟨S3200000, .i32⟩
  | 31 => ⟨S3200000, .i32⟩
  | 32 => ⟨S3200000x1, .i32⟩
  | 33 => ⟨S3200000x32, .f32⟩
  | 34 => ⟨S3200000x80, .f32⟩
  | 35 => ⟨S3200000x32, .f32⟩
  | 36 => ⟨S1x32, .f32⟩
  | 37 => ⟨S3200000x32, .f32⟩
  | 38 => ⟨S3200000x32, .f32⟩
  | 39 => ⟨S3200000x32, .f32⟩
  | 40 => ⟨S3200000x32, .f32⟩
  | 41 => ⟨S_, .f32⟩
  | 42 => ⟨S3200000x32, .f32⟩
  | 43 => ⟨S3200000x32, .f32⟩
  | 44 => ⟨S_, .f32⟩
  | 45 => ⟨S3200000x32, .f32⟩
  | 46 => ⟨S3200000x32, .f32⟩
  | 47 => ⟨S3200000x32, .f32⟩
  | 48 => ⟨S1x32, .f32⟩
  | 49 => ⟨S3200000x32, .f32⟩
  | 50 => ⟨S3200000x32, .f32⟩
  | 51 => ⟨S_, .f32⟩
  | 52 => ⟨S3200000x32, .f32⟩
  | 53 => ⟨S3200000x32, .f32⟩
  | 54 => ⟨S3200000x32, .f32⟩
  | 55 => ⟨S3200000x32, .f32⟩
  | 56 => ⟨S3200000x32, .i1⟩
  | 57 => ⟨S3200000x32, .f32⟩
  | 58 => ⟨S3200000x32, .f32⟩
  | 59 => ⟨S3200000x32, .f32⟩
  | 60 => ⟨S3200000x32, .f32⟩
  | 61 => ⟨S3200000x32, .f32⟩
  | 62 => ⟨S3200000x32, .f32⟩
  | 63 => ⟨S3200000x32, .f32⟩
  | 64 => ⟨S3200000x32, .f32⟩
  | 65 => ⟨S3200000x1, .f32⟩
  | 66 => ⟨S3200000x32, .f32⟩
  | 67 => ⟨S3200000x32, .f32⟩
  | 68 => ⟨S3200000x32, .f32⟩
  | 69 => ⟨S_, .f32⟩
  | 70 => ⟨S100000x32, .f32⟩
  | 71 => ⟨S3200000x1, .i32⟩
  | 72 => ⟨S100000x32, .f32⟩
  | 73 => ⟨S100000x32, .f32⟩
  | 74 => ⟨S_, .f32⟩
  | 75 => ⟨S100000, .f32⟩
  | 76 => ⟨S100000x1, .f32⟩
  | 77 => ⟨S_, .f32⟩
  | 78 => ⟨S100000x1, .f32⟩
  | 79 => ⟨S100000x1, .f32⟩
  | 80 => ⟨S_, .i32⟩
  | 81 => ⟨S_, .f32⟩
  | 82 => ⟨S100000, .f32⟩
  | 83 => ⟨S100000x1, .f32⟩
  | 84 => ⟨S_, .f32⟩
  | 85 => ⟨S100000x1, .f32⟩
  | 86 => ⟨S100000x1, .f32⟩
  | 87 => ⟨S100000x32, .f32⟩
  | 88 => ⟨S100000x32, .f32⟩
  | 89 => ⟨S100000x32, .f32⟩
  | 90 => ⟨S_, .f32⟩
  | 91 => ⟨S_, .f32⟩
  | 92 => ⟨S_, .f32⟩
  | 93 => ⟨S_, .f32⟩
  | 94 => ⟨S100000, .f32⟩
  | 95 => ⟨S100000x1, .f32⟩
  | 96 => ⟨S100000x1, .f32⟩
  | 97 => ⟨S100000x1, .f32⟩
  | 98 => ⟨S_, .f32⟩
  | 99 => ⟨S_, .i1⟩
  | 100 => ⟨S_, .f32⟩
  | 101 => ⟨S_, .f32⟩
  | 102 => ⟨S100000x1, .f32⟩
  | 103 => ⟨S100000x1, .f32⟩
  | 104 => ⟨S100000x32, .f32⟩
  | 105 => ⟨S100000x32, .f32⟩
  | 106 => ⟨S_, .f32⟩
  | 107 => ⟨S100000x1, .f32⟩
  | 108 => ⟨S100000x1, .f32⟩
  | 109 => ⟨S100000x1, .f32⟩
  | 110 => ⟨S100000x32, .f32⟩
  | 111 => ⟨S100000x32, .f32⟩
  | 112 => ⟨S1x32, .f32⟩
  | 113 => ⟨S100000x32, .f32⟩
  | 114 => ⟨S100000x32, .f32⟩
  | 115 => ⟨S1x32, .f32⟩
  | 116 => ⟨S100000x32, .f32⟩
  | 117 => ⟨S100000x32, .f32⟩
  | 118 => ⟨S100000x32, .f32⟩
  | 119 => ⟨S1x32, .f32⟩
  | 120 => ⟨S100000x32, .f32⟩
  | 121 => ⟨S100000x32, .f32⟩
  | 122 => ⟨S100000x32, .f32⟩
  | 123 => ⟨S_, .f32⟩
  | 124 => ⟨S100000x32, .f32⟩
  | 125 => ⟨S100000x32, .i1⟩
  | 126 => ⟨S_, .f32⟩
  | 127 => ⟨S100000x32, .f32⟩
  | _ => ⟨S100000x32, .f32⟩

abbrev hbmTy0_1 (i : Nat) : BufTy := match i % 128 with
  | 0 => ⟨S100000x32, .i1⟩
  | 1 => ⟨S_, .f32⟩
  | 2 => ⟨S_, .f32⟩
  | 3 => ⟨S100000x32, .f32⟩
  | 4 => ⟨S100000x32, .f32⟩
  | 5 => ⟨S100000x32, .f32⟩
  | 6 => ⟨S_, .f32⟩
  | 7 => ⟨S100000x32, .f32⟩
  | 8 => ⟨S100000x32, .f32⟩
  | 9 => ⟨S100000x32, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_4 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_5 : Ref sig .tc := ⟨.hbm, 74, rfl⟩
abbrev main_v42 : Ref sig .tc := ⟨.hbm, 75, rfl⟩
abbrev main_v43 : Ref sig .tc := ⟨.hbm, 76, rfl⟩
abbrev main_cst_6 : Ref sig .tc := ⟨.hbm, 77, rfl⟩
abbrev main_v44 : Ref sig .tc := ⟨.hbm, 78, rfl⟩
abbrev main_v45 : Ref sig .tc := ⟨.hbm, 79, rfl⟩
abbrev main_c_7 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_cst_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_cst_1 : Ref sig .tc := ⟨.hbm, 91, rfl⟩
abbrev main_call1_v8 : Ref sig .tc := ⟨.hbm, 92, rfl⟩
abbrev main_call1_cst_2 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_v12 : Ref sig .tc := ⟨.hbm, 97, rfl⟩
abbrev main_call1_cst_3 : Ref sig .tc := ⟨.hbm, 98, rfl⟩
abbrev main_call1_v13 : Ref sig .tc := ⟨.hbm, 99, rfl⟩
abbrev main_call1_cst_4 : Ref sig .tc := ⟨.hbm, 100, rfl⟩
abbrev main_call1_call0_v0 : Ref sig .tc := ⟨.hbm, 101, rfl⟩
abbrev main_call1_call0_v1 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_cst_8 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_call2_cst : Ref sig .tc := ⟨.hbm, 123, rfl⟩
abbrev main_call2_v0 : Ref sig .tc := ⟨.hbm, 124, rfl⟩
abbrev main_call2_v1 : Ref sig .tc := ⟨.hbm, 125, rfl⟩
abbrev main_call2_cst_0 : Ref sig .tc := ⟨.hbm, 126, rfl⟩
abbrev main_call2_v2 : Ref sig .tc := ⟨.hbm, 127, rfl⟩
abbrev main_call2_v3 : Ref sig .tc := ⟨.hbm, 128, rfl⟩
abbrev main_call2_cst_1 : Ref sig .tc := ⟨.hbm, 129, rfl⟩
abbrev main_call2_call0_v0 : Ref sig .tc := ⟨.hbm, 130, rfl⟩
abbrev main_call2_call0_v1 : Ref sig .tc := ⟨.hbm, 131, rfl⟩
abbrev main_call2_v4 : Ref sig .tc := ⟨.hbm, 132, rfl⟩
abbrev main_call2_v5 : Ref sig .tc := ⟨.hbm, 133, rfl⟩
abbrev main_call2_cst_2 : Ref sig .tc := ⟨.hbm, 134, rfl⟩
abbrev main_call2_v6 : Ref sig .tc := ⟨.hbm, 135, rfl⟩
abbrev main_call2_v7 : Ref sig .tc := ⟨.hbm, 136, rfl⟩
abbrev main_v65 : Ref sig .tc := ⟨.hbm, 137, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x32_S3200000x32_S3200000x16_S3200000x80_d1 : Shape.Concatenates [S3200000x32, S3200000x32, S3200000x16] S3200000x80 1
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  bcast_S1x32_S100000x32_0_1 : S1x32.BroadcastsInDim S100000x32 (![0, 1] : Fin 2 → Fin S100000x32.rank)
  gather_S100000x32_S3200000x1_S3200000x32_1_0_n_n_0_1_132_wf : GatherDims.WF S100000x32 S3200000x1 S3200000x32 [1] [0] [] [0] [] 1 ![1, 32]
  dot_S3200000x80_S80x32_S3200000x32_1_0_0_1_n_n_wf : DotDims.WF S3200000x80 S80x32 S3200000x32 [1] [0] [0] [1] [] []
  scatter_S100000x32_S3200000x1_S3200000x32_1_0_0_1_wf : ScatterDims.WF S100000x32 S3200000x1 S3200000x32 [1] [0] [0] 1
  dot_S100000x32_S32x32_S100000x32_1_0_0_1_n_n_wf : DotDims.WF S100000x32 S32x32 S100000x32 [1] [0] [0] [1] [] []

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def dot_S3200000x80_S80x32_S3200000x32_1_0_0_1_n_n : DotDims S3200000x80 S80x32 S3200000x32 where
  lhsContracting := [1]
  rhsContracting := [0]
  lhsNonContracting := [0]
  rhsNonContracting := [1]
  lhsBatch := []
  rhsBatch := []
  wf := dot_S3200000x80_S80x32_S3200000x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.KerRun.lean ====
/-
  The idealized kernel's run with its result named: every weakly fair execution of @main terminates, nothing
  faulting; the result array ends at what the second region's write-backs leave of it (the last boundary's
  contents at the result buffer), and the twelve argument arrays end as launched. The run is the launch of
  @main's four segments (host stretch, first region, host stretch, second region) from the launch memory, the
  last thread state read against the final state.
-/
import proofs.«116415_j44418551775904_1_alg».proof.Proof.Gen.KernelIdeal.Frame

set_option maxRecDepth 16384

noncomputable section

namespace Cert.KerSide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the last boundary's contents. -/
theorem run_result : θ_run defs (onTc (τ := τ) (main (F := F))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v35 (by decide))),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KerSide

end
-- ==== Proof.Spec.lean ====
/-
  The specification both programs are compared with: one message-passing layer of a graph network, written
  row by row over plain functions of the coordinates.

  For an edge with gathered target row xi, gathered source row xj, attributes ea and weight ew, the message is
  ew · logistic(lin_f) · softplus(lin_s), where each lin is the affine map of the concatenated 80 features
  (xi, xj, ea), written as the three partial dot products over 32, 32 and 16 features plus the bias.
  For a node with aggregated messages agg and features x, the output is
  elu(layernorm(agg + x) · W + b + x): mean and variance over the 32 features, the variance shifted by the
  layer's epsilon, the normalised row scaled and shifted, one 32×32 product, the residual, and the
  exponential linear unit.

  Float constants stay as their bit patterns wherever both programs carry the same pattern.
-/
import Idealize.ShloMosaic.PureOps.Ideal
import Idealize.ShloMosaic.PureOps.Ideal.Laws
import Idealize.ShloMosaic.Lib.ValueIdx

noncomputable section

namespace Cert.Spec

open Idealize.ShloMosaic

/-- The f32 pattern of 0.0. -/
abbrev z0 : EReal := Ideal.ofBits .f32 0x00000000#32
/-- The f32 pattern of 1.0. -/
abbrev one : EReal := Ideal.ofBits .f32 0x3F800000#32
/-- The f32 pattern of 32.0, the number of features. -/
abbrev c32 : EReal := Ideal.ofBits .f32 0x42000000#32
/-- The f32 pattern of the layer norm's epsilon. -/
abbrev eps : EReal := Ideal.ofBits .f32 0x3727C5AC#32

theorem z0_eq : z0 = 0 := Ideal.ofBits_zero_f32
theorem one_eq : one = 1 := by
  show Ideal.ofBits .f32 0x3F800000#32 = 1
  simp [Ideal.ofBits, Ideal.ieee, -EReal.coe_mul]; norm_num

/-- The affine map of the 80 concatenated features as three partial dot products and the bias, at output
    column j. -/
def lin (xi xj : Fin 32 → EReal) (ea : Fin 16 → EReal) (wi wj : Fin 32 → Fin 32 → EReal)
    (we : Fin 16 → Fin 32 → EReal) (b : Fin 32 → EReal) (j : Fin 32) : EReal :=
  ((∑ k : Fin 32, xi k * wi k j + ∑ k : Fin 32, xj k * wj k j) + ∑ k : Fin 16, ea k * we k j) + b j

/-- softplus z = max(z, 0) + log(1 + exp(−|z|)). -/
def softplus (z : EReal) : EReal := max z 0 + Ideal.log1p (Ideal.exp (-(max z (-z))))

/-- The message of one edge at column j. -/
def msg (xi xj : Fin 32 → EReal) (ea : Fin 16 → EReal) (ew : EReal)
    (wfi wfj : Fin 32 → Fin 32 → EReal) (wfe : Fin 16 → Fin 32 → EReal) (bf : Fin 32 → EReal)
    (wsi wsj : Fin 32 → Fin 32 → EReal) (wse : Fin 16 → Fin 32 → EReal) (bs : Fin 32 → EReal) (j : Fin 32) : EReal :=
  ew * Ideal.logistic (lin xi xj ea wfi wfj wfe bf j) * softplus (lin xi xj ea wsi wsj wse bs j)

/-- The mean of a row of 32 features. -/
def mean (h : Fin 32 → EReal) : EReal := Ideal.div (∑ j : Fin 32, h j) c32

/-- The (biased) variance of a row of 32 features. -/
def var (h : Fin 32 → EReal) : EReal := Ideal.div (∑ j : Fin 32, (h j - mean h) * (h j - mean h)) c32

/-- The normalised, scaled and shifted row. -/
def norm (h g b : Fin 32 → EReal) (j : Fin 32) : EReal :=
  ((h j - mean h) * Ideal.rsqrt (var h + eps)) * g j + b j

/-- The exponential linear unit. -/
def elu (y : EReal) : EReal := if 0 < y then y else Ideal.exp y - 1

/-- The output of one node at column j. -/
def out (agg x g b : Fin 32 → EReal) (w : Fin 32 → Fin 32 → EReal) (lb : Fin 32 → EReal) (j : Fin 32) : EReal :=
  elu ((∑ k : Fin 32, norm (fun a => agg a + x a) g b k * w k j + lb j) + x j)

/-! ## The two spellings of softplus and of the exponential linear unit -/

theorem cmp_ne_self (p : CmpFPredicate) (hp : p = .one ∨ p = .une) (d : EReal) : Ideal.cmp p d d = 0#1 := by
  rcases hp with rfl | rfl <;> simp [Ideal.cmp]

/-- The kernel's softplus: the not-a-number guard never fires, and 0 − |z| is −|z|. -/
theorem softplus_kernel (z : EReal) :
    Scalar.select (Ideal.cmp .one (z - z0) (z - z0)) (z + z0)
      (max z z0 + Ideal.log1p (Ideal.exp (z0 - max (z - z0) (-(z - z0))))) = softplus z := by
  rw [cmp_ne_self _ (.inl rfl), ValueIdx.select_zero, z0_eq, sub_zero, zero_sub]; rfl

/-- The reference's softplus: the same with the negation written as one. -/
theorem softplus_ref (z : EReal) :
    Scalar.select (Ideal.cmp .une (z - z0) (z - z0)) (z + z0)
      (max z z0 + Ideal.log1p (Ideal.exp (-(max (z - z0) (-(z - z0)))))) = softplus z := by
  rw [cmp_ne_self _ (.inr rfl), ValueIdx.select_zero, z0_eq, sub_zero]; rfl

theorem cmp_ogt (y : EReal) : Ideal.cmp .ogt y z0 = if 0 < y then 1#1 else 0#1 := by
  rw [z0_eq]; by_cases h : (0 : EReal) < y <;> simp [Ideal.cmp, h]

/-- The kernel's unit: y where positive, exp y − 1 elsewhere. -/
theorem elu_kernel (y : EReal) :
    Scalar.select (Ideal.cmp .ogt y z0) y (Ideal.exp y - one) = elu y := by
  rw [cmp_ogt, one_eq]; unfold elu
  by_cases h : (0 : EReal) < y
  · rw [if_pos h, if_pos h, ValueIdx.select_one]
  · rw [if_neg h, if_neg h, ValueIdx.select_zero]

/-- The reference's unit: the exponential is taken of the row with its positive entries zeroed, and the
    result multiplied by one. -/
theorem elu_ref (y : EReal) :
    Scalar.select (Ideal.cmp .ogt y z0) y (one * (Ideal.exp (Scalar.select (Ideal.cmp .ogt y z0) z0 y) - 1)) = elu y := by
  rw [cmp_ogt, one_eq]; unfold elu
  by_cases h : (0 : EReal) < y
  · rw [if_pos h, if_pos h, ValueIdx.select_one]
  · rw [if_neg h, if_neg h, ValueIdx.select_zero, ValueIdx.select_zero, one_mul]

/-- A sum over the 80 concatenated features is the sum of its three stretches. -/
theorem sum_80 (f : Fin 80 → EReal) :
    ∑ k : Fin 80, f k
      = (∑ k : Fin 32, f ⟨k.val, by omega⟩ + ∑ k : Fin 32, f ⟨32 + k.val, by omega⟩) + ∑ k : Fin 16, f ⟨64 + k.val, by omega⟩ := by
  have h1 := Fin.sum_univ_add (a := 64) (b := 16) (fun i : Fin (64 + 16) => f i)
  have h2 := Fin.sum_univ_add (a := 32) (b := 32) (fun i : Fin (32 + 32) => f ⟨i.val, by omega⟩)
  simp only [Fin.castAdd, Fin.natAdd, Fin.castLE] at h1 h2
  rw [show (∑ k : Fin 80, f k) = ∑ i : Fin (64 + 16), f i from rfl, h1]
  rw [show (∑ i : Fin 64, f ⟨i.val, by omega⟩) = ∑ i : Fin (32 + 32), f ⟨i.val, by omega⟩ from rfl, h2]

end Cert.Spec

end
-- ==== Proof.GatePayload.lean ====
/-
  The gate kernel's stored value read at one entry. At edge p of a block and output column q the body computes
  ew · logistic(zf) · softplus(zs), where zf and zs are each three products into zero accumulators — the
  target row against the first 32 weight rows, the source row against the next 32, the edge attributes against
  the last 16 — added in that order, plus the bias row broadcast down the block. The conversions to the narrow
  float format are the identity on the extended reals, and the block's shape casts are casts to the same shape.
-/
import proofs.«116415_j44418551775904_1_alg».proof.Proof.Gen.KernelIdeal.Skeleton
import proofs.«116415_j44418551775904_1_alg».proof.Proof.Spec
import Idealize.ShloMosaic.Lib.ValueIdx
import Idealize.ShloMosaic.Lib.Pipeline.Value
import Idealize.ShloMosaic.PureOps.Ideal.Laws

noncomputable section

namespace Cert.KerSide

open Cert.KernelIdeal Cert.KernelIdeal.Gen
open Idealize.ShloMosaic Idealize.ShloMosaic.ValueIdx

/-! ## The two products at an index -/

theorem g32_lhs0 (i : S6400x32.Idx) (q : dot_S6400x32_S32x32_S6400x32_1_0_0_1_n_n.contr.Idx) : (dot_S6400x32_S32x32_S6400x32_1_0_0_1_n_n.lhsIdx i q 0).val = (i 0).val := by
  unfold DotDims.lhsIdx
  rw [dif_neg (show ¬(0 : Fin S6400x32.rank) ∈ dot_S6400x32_S32x32_S6400x32_1_0_0_1_n_n.lhsBatch by decide), dif_pos (show (0 : Fin S6400x32.rank) ∈ dot_S6400x32_S32x32_S6400x32_1_0_0_1_n_n.lhsNonContracting by decide)]
  rfl
theorem g32_lhs1 (i : S6400x32.Idx) (q : dot_S6400x32_S32x32_S6400x32_1_0_0_1_n_n.contr.Idx) : (dot_S6400x32_S32x32_S6400x32_1_0_0_1_n_n.lhsIdx i q 1).val = (q ⟨0, by decide⟩).val :=
  dot_S6400x32_S32x32_S6400x32_1_0_0_1_n_n.lhsIdx_val_of_single rfl i q
theorem g32_rhs0 (i : S6400x32.Idx) (q : dot_S6400x32_S32x32_S6400x32_1_0_0_1_n_n.contr.Idx) : (dot_S6400x32_S32x32_S6400x32_1_0_0_1_n_n.rhsIdx i q 0).val = (q ⟨0, by decide⟩).val :=
  dot_S6400x32_S32x32_S6400x32_1_0_0_1_n_n.rhsIdx_val_of_single rfl i q
theorem g32_rhs1 (i : S6400x32.Idx) (q : dot_S6400x32_S32x32_S6400x32_1_0_0_1_n_n.contr.Idx) : (dot_S6400x32_S32x32_S6400x32_1_0_0_1_n_n.rhsIdx i q 1).val = (i 1).val := by
  unfold DotDims.rhsIdx
  rw [dif_neg (show ¬(1 : Fin S32x32.rank) ∈ dot_S6400x32_S32x32_S6400x32_1_0_0_1_n_n.rhsBatch by decide), dif_pos (show (1 : Fin S32x32.rank) ∈ dot_S6400x32_S32x32_S6400x32_1_0_0_1_n_n.rhsNonContracting by decide)]
  rfl

/-- The product into the zero accumulator at (p, q): the sum over the 32 contracted features. -/
theorem g32_apply {φ₁ φ₂ : FTy} (A : FVec Ideal S6400x32 φ₁) (B : FVec Ideal S32x32 φ₂) (i : S6400x32.Idx) :
    matmul dot_S6400x32_S32x32_S6400x32_1_0_0_1_n_n none A B (constant S6400x32 .f32 0x00000000#32) i = ∑ k : Fin 32, A (ix2 (i 0) k) * B (ix2 k (i 1)) := by
  show FloatOps.matmul dot_S6400x32_S32x32_S6400x32_1_0_0_1_n_n none A B (constant S6400x32 .f32 0x00000000#32) i = _
  rw [Ideal.matmul_constant_zero_apply, ← Equiv.sum_comp (ValueIdx.contrEquiv1 dot_S6400x32_S32x32_S6400x32_1_0_0_1_n_n 32 rfl rfl).symm]
  refine Finset.sum_congr rfl fun k _ => ?_
  have hk := ValueIdx.contrEquiv1_symm_val dot_S6400x32_S32x32_S6400x32_1_0_0_1_n_n 32 rfl rfl k
  have el : dot_S6400x32_S32x32_S6400x32_1_0_0_1_n_n.lhsIdx i ((ValueIdx.contrEquiv1 dot_S6400x32_S32x32_S6400x32_1_0_0_1_n_n 32 rfl rfl).symm k) = ix2 (i 0) k := funext fun a => Fin.ext (by
    match a with
    | ⟨0, _⟩ => exact g32_lhs0 _ _
    | ⟨1, _⟩ => exact (g32_lhs1 _ _).trans hk)
  have er : dot_S6400x32_S32x32_S6400x32_1_0_0_1_n_n.rhsIdx i ((ValueIdx.contrEquiv1 dot_S6400x32_S32x32_S6400x32_1_0_0_1_n_n 32 rfl rfl).symm k) = ix2 k (i 1) := funext fun a => Fin.ext (by
    match a with
    | ⟨0, _⟩ => exact (g32_rhs0 _ _).trans hk
    | ⟨1, _⟩ => exact g32_rhs1 _ _)
  rw [el, er]
  rfl

theorem g16_lhs0 (i : S6400x32.Idx) (q : dot_S6400x16_S16x32_S6400x32_1_0_0_1_n_n.contr.Idx) : (dot_S6400x16_S16x32_S6400x32_1_0_0_1_n_n.lhsIdx i q 0).val = (i 0).val := by
  unfold DotDims.lhsIdx
  rw [dif_neg (show ¬(0 : Fin S6400x16.rank) ∈ dot_S6400x16_S16x32_S6400x32_1_0_0_1_n_n.lhsBatch by decide), dif_pos (show (0 : Fin S6400x16.rank) ∈ dot_S6400x16_S16x32_S6400x32_1_0_0_1_n_n.lhsNonContracting by decide)]
  rfl
theorem g16_lhs1 (i : S6400x32.Idx) (q : dot_S6400x16_S16x32_S6400x32_1_0_0_1_n_n.contr.Idx) : (dot_S6400x16_S16x32_S6400x32_1_0_0_1_n_n.lhsIdx i q 1).val = (q ⟨0, by decide⟩).val :=
  dot_S6400x16_S16x32_S6400x32_1_0_0_1_n_n.lhsIdx_val_of_single rfl i q
theorem g16_rhs0 (i : S6400x32.Idx) (q : dot_S6400x16_S16x32_S6400x32_1_0_0_1_n_n.contr.Idx) : (dot_S6400x16_S16x32_S6400x32_1_0_0_1_n_n.rhsIdx i q 0).val = (q ⟨0, by decide⟩).val :=
  dot_S6400x16_S16x32_S6400x32_1_0_0_1_n_n.rhsIdx_val_of_single rfl i q
theorem g16_rhs1 (i : S6400x32.Idx) (q : dot_S6400x16_S16x32_S6400x32_1_0_0_1_n_n.contr.Idx) : (dot_S6400x16_S16x32_S6400x32_1_0_0_1_n_n.rhsIdx i q 1).val = (i 1).val := by
  unfold DotDims.rhsIdx
  rw [dif_neg (show ¬(1 : Fin S16x32.rank) ∈ dot_S6400x16_S16x32_S6400x32_1_0_0_1_n_n.rhsBatch by decide), dif_pos (show (1 : Fin S16x32.rank) ∈ dot_S6400x16_S16x32_S6400x32_1_0_0_1_n_n.rhsNonContracting by decide)]
  rfl

/-- The product into the zero accumulator at (p, q): the sum over the 16 contracted features. -/
theorem g16_apply {φ₁ φ₂ : FTy} (A : FVec Ideal S6400x16 φ₁) (B : FVec Ideal S16x32 φ₂) (i : S6400x32.Idx) :
    matmul dot_S6400x16_S16x32_S6400x32_1_0_0_1_n_n none A B (constant S6400x32 .f32 0x00000000#32) i = ∑ k : Fin 16, A (ix2 (i 0) k) * B (ix2 k (i 1)) := by
  show FloatOps.matmul dot_S6400x16_S16x32_S6400x32_1_0_0_1_n_n none A B (constant S6400x32 .f32 0x00000000#32) i = _
  rw [Ideal.matmul_constant_zero_apply, ← Equiv.sum_comp (ValueIdx.contrEquiv1 dot_S6400x16_S16x32_S6400x32_1_0_0_1_n_n 16 rfl rfl).symm]
  refine Finset.sum_congr rfl fun k _ => ?_
  have hk := ValueIdx.contrEquiv1_symm_val dot_S6400x16_S16x32_S6400x32_1_0_0_1_n_n 16 rfl rfl k
  have el : dot_S6400x16_S16x32_S6400x32_1_0_0_1_n_n.lhsIdx i ((ValueIdx.contrEquiv1 dot_S6400x16_S16x32_S6400x32_1_0_0_1_n_n 16 rfl rfl).symm k) = ix2 (i 0) k := funext fun a => Fin.ext (by
    match a with
    | ⟨0, _⟩ => exact g16_lhs0 _ _
    | ⟨1, _⟩ => exact (g16_lhs1 _ _).trans hk)
  have er : dot_S6400x16_S16x32_S6400x32_1_0_0_1_n_n.rhsIdx i ((ValueIdx.contrEquiv1 dot_S6400x16_S16x32_S6400x32_1_0_0_1_n_n 16 rfl rfl).symm k) = ix2 k (i 1) := funext fun a => Fin.ext (by
    match a with
    | ⟨0, _⟩ => exact (g16_rhs0 _ _).trans hk
    | ⟨1, _⟩ => exact g16_rhs1 _ _)
  rw [el, er]
  rfl

/-! ## The broadcasts at an index -/

/-- A [1,32] row broadcast down the block reads the row's entry at the column. -/
theorem gate_bcast_row (x : FVec Ideal S1x32 .f32) (i : S6400x32.Idx) :
    broadcastTo S6400x32 x broadcasts_S1x32_S6400x32 i = x (ix2 0 (i 1)) :=
  broadcastTo_apply x _ i (ix2 0 (i 1)) (fun a => by
    match a with
    | ⟨0, _⟩ => rfl
    | ⟨1, _⟩ => rfl)

/-- A [6400,1] column broadcast across the block reads the column's entry at the row. -/
theorem gate_bcast_col (x : FVec Ideal S6400x1 .f32) (i : S6400x32.Idx) :
    broadcastTo S6400x32 x broadcasts_S6400x1_S6400x32 i = x (ix2 (i 0) 0) :=
  broadcastTo_apply x _ i (ix2 (i 0) 0) (fun a => by
    match a with
    | ⟨0, _⟩ => rfl
    | ⟨1, _⟩ => rfl)

/-! ## The two affine maps -/

/-- The gate's pre-activation at an entry. -/
theorem pay7_apply (x0 x1 : Vec Ideal S6400x32 .bf16) (x2 : Vec Ideal S6400x16 .f32) (x4 x5 : Vec Ideal S32x32 .f32)
    (x6 : Vec Ideal S16x32 .f32) (x7 : Vec Ideal S1x32 .f32) (p : Fin 6400) (q : Fin 32) :
    k0_pay7 x0 x1 x2 x4 x5 x6 x7 (ix2 p q)
      = Cert.Spec.lin (fun k => x0 (ix2 p k)) (fun k => x1 (ix2 p k)) (fun k => x2 (ix2 p k))
          (fun k a => x4 (ix2 k a)) (fun k a => x5 (ix2 k a)) (fun k a => x6 (ix2 k a)) (fun a => x7 (ix2 0 a)) q := by
  unfold k0_pay7 k0_pay2 k0_pay3 k0_pay4
  simp only [shapeCast_self]
  show ((matmul (F := Ideal) dot_S6400x32_S32x32_S6400x32_1_0_0_1_n_n none (x0 : FVec Ideal S6400x32 .bf16) (truncf (F := Ideal) .bf16 (x4 : FVec Ideal S32x32 .f32) bitsLt_bf16_f32) (constant (F := Ideal) S6400x32 .f32 0x00000000#32) (ix2 p q) : EReal)
        + (matmul (F := Ideal) dot_S6400x32_S32x32_S6400x32_1_0_0_1_n_n none (x1 : FVec Ideal S6400x32 .bf16) (truncf (F := Ideal) .bf16 (x5 : FVec Ideal S32x32 .f32) bitsLt_bf16_f32) (constant (F := Ideal) S6400x32 .f32 0x00000000#32) (ix2 p q) : EReal)
        + (matmul (F := Ideal) dot_S6400x16_S16x32_S6400x32_1_0_0_1_n_n none (truncf (F := Ideal) .bf16 (x2 : FVec Ideal S6400x16 .f32) bitsLt_bf16_f32) (truncf (F := Ideal) .bf16 (x6 : FVec Ideal S16x32 .f32) bitsLt_bf16_f32) (constant (F := Ideal) S6400x32 .f32 0x00000000#32) (ix2 p q) : EReal))
        + (broadcastTo S6400x32 (x7 : FVec Ideal S1x32 .f32) broadcasts_S1x32_S6400x32 (ix2 p q) : EReal) = _
  rw [g32_apply, g32_apply, g16_apply, gate_bcast_row]
  rfl

/-- The value path's pre-activation at an entry: the same three products against the second weight matrix. -/
theorem pay_s_apply (x0 x1 : Vec Ideal S6400x32 .bf16) (x2 : Vec Ideal S6400x16 .f32) (x8 x9 : Vec Ideal S32x32 .f32)
    (x10 : Vec Ideal S16x32 .f32) (x11 : Vec Ideal S1x32 .f32) (p : Fin 6400) (q : Fin 32) :
    (((k0_pay8 x0 x8 (ix2 p q) : EReal)
        + (matmul (F := Ideal) dot_S6400x32_S32x32_S6400x32_1_0_0_1_n_n none (k0_pay3 x1) (k0_pay5 x9) (constant (F := Ideal) S6400x32 .f32 0x00000000#32) (ix2 p q) : EReal))
        + (matmul (F := Ideal) dot_S6400x16_S16x32_S6400x32_1_0_0_1_n_n none (k0_pay4 x2) (k0_pay6 x10) (constant (F := Ideal) S6400x32 .f32 0x00000000#32) (ix2 p q) : EReal))
        + (broadcastTo S6400x32 (shapeCast S1x32 (x11 : FVec Ideal S1x32 .f32) shapeCasts_S1x32_S1x32) broadcasts_S1x32_S6400x32 (ix2 p q) : EReal)
      = Cert.Spec.lin (fun k => x0 (ix2 p k)) (fun k => x1 (ix2 p k)) (fun k => x2 (ix2 p k))
          (fun k a => x8 (ix2 k a)) (fun k a => x9 (ix2 k a)) (fun k a => x10 (ix2 k a)) (fun a => x11 (ix2 0 a)) q := by
  unfold k0_pay8 k0_pay2 k0_pay3 k0_pay4 k0_pay5 k0_pay6
  simp only [shapeCast_self]
  show ((matmul (F := Ideal) dot_S6400x32_S32x32_S6400x32_1_0_0_1_n_n none (x0 : FVec Ideal S6400x32 .bf16) (truncf (F := Ideal) .bf16 (x8 : FVec Ideal S32x32 .f32) bitsLt_bf16_f32) (constant (F := Ideal) S6400x32 .f32 0x00000000#32) (ix2 p q) : EReal)
        + (matmul (F := Ideal) dot_S6400x32_S32x32_S6400x32_1_0_0_1_n_n none (x1 : FVec Ideal S6400x32 .bf16) (truncf (F := Ideal) .bf16 (x9 : FVec Ideal S32x32 .f32) bitsLt_bf16_f32) (constant (F := Ideal) S6400x32 .f32 0x00000000#32) (ix2 p q) : EReal)
        + (matmul (F := Ideal) dot_S6400x16_S16x32_S6400x32_1_0_0_1_n_n none (truncf (F := Ideal) .bf16 (x2 : FVec Ideal S6400x16 .f32) bitsLt_bf16_f32) (truncf (F := Ideal) .bf16 (x10 : FVec Ideal S16x32 .f32) bitsLt_bf16_f32) (constant (F := Ideal) S6400x32 .f32 0x00000000#32) (ix2 p q) : EReal))
        + (broadcastTo S6400x32 (x11 : FVec Ideal S1x32 .f32) broadcasts_S1x32_S6400x32 (ix2 p q) : EReal) = _
  rw [g32_apply, g32_apply, g16_apply, gate_bcast_row]
  rfl

/-! ## The stored value -/

/-- The message assembled from an edge weight and the two pre-activations, in the kernel's spelling. -/
theorem msg_of_parts (ew zf zs : EReal) :
    ew * Ideal.logistic zf
        * Scalar.select (Ideal.cmp .one (zs - Cert.Spec.z0) (zs - Cert.Spec.z0)) (zs + Cert.Spec.z0)
            (max zs Cert.Spec.z0 + Ideal.log1p (Ideal.exp (Cert.Spec.z0 - max (zs - Cert.Spec.z0) (-(zs - Cert.Spec.z0)))))
      = ew * Ideal.logistic zf * Cert.Spec.softplus zs := by
  rw [Cert.Spec.softplus_kernel]

/-- What the body stores at an entry of the block is the message of that edge at that column. -/
theorem gate_pay (x0 x1 : Vec Ideal S6400x32 .bf16) (x2 : Vec Ideal S6400x16 .f32) (x3 : Vec Ideal S6400x1 .f32)
    (x4 x5 : Vec Ideal S32x32 .f32) (x6 : Vec Ideal S16x32 .f32) (x7 : Vec Ideal S1x32 .f32)
    (x8 x9 : Vec Ideal S32x32 .f32) (x10 : Vec Ideal S16x32 .f32) (x11 : Vec Ideal S1x32 .f32) (p : Fin 6400) (q : Fin 32) :
    k0_pay1 (k0_pay3 x1) (k0_pay4 x2) (k0_pay5 x9) (k0_pay6 x10) (k0_pay7 x0 x1 x2 x4 x5 x6 x7) (k0_pay8 x0 x8)
        (constant S6400x32 .f32 0x00000000#32) x11 x3 (ix2 p q)
      = Cert.Spec.msg (fun k => x0 (ix2 p k)) (fun k => x1 (ix2 p k)) (fun k => x2 (ix2 p k)) (x3 (ix2 p 0))
          (fun k a => x4 (ix2 k a)) (fun k a => x5 (ix2 k a)) (fun k a => x6 (ix2 k a)) (fun a => x7 (ix2 0 a))
          (fun k a => x8 (ix2 k a)) (fun k a => x9 (ix2 k a)) (fun k a => x10 (ix2 k a)) (fun a => x11 (ix2 0 a)) q := by
  have key : ∀ ew zf zs : EReal, ew = x3 (ix2 p 0) → zf = Cert.Spec.lin (fun k => x0 (ix2 p k)) (fun k => x1 (ix2 p k)) (fun k => x2 (ix2 p k))
          (fun k a => x4 (ix2 k a)) (fun k a => x5 (ix2 k a)) (fun k a => x6 (ix2 k a)) (fun a => x7 (ix2 0 a)) q
      → zs = Cert.Spec.lin (fun k => x0 (ix2 p k)) (fun k => x1 (ix2 p k)) (fun k => x2 (ix2 p k))
          (fun k a => x8 (ix2 k a)) (fun k a => x9 (ix2 k a)) (fun k a => x10 (ix2 k a)) (fun a => x11 (ix2 0 a)) q
      → ew * Ideal.logistic zf
          * Scalar.select (Ideal.cmp .one (zs - Cert.Spec.z0) (zs - Cert.Spec.z0)) (zs + Cert.Spec.z0)
              (max zs Cert.Spec.z0 + Ideal.log1p (Ideal.exp (Cert.Spec.z0 - max (zs - Cert.Spec.z0) (-(zs - Cert.Spec.z0)))))
        = Cert.Spec.msg (fun k => x0 (ix2 p k)) (fun k => x1 (ix2 p k)) (fun k => x2 (ix2 p k)) (x3 (ix2 p 0))
          (fun k a => x4 (ix2 k a)) (fun k a => x5 (ix2 k a)) (fun k a => x6 (ix2 k a)) (fun a => x7 (ix2 0 a))
          (fun k a => x8 (ix2 k a)) (fun k a => x9 (ix2 k a)) (fun k a => x10 (ix2 k a)) (fun a => x11 (ix2 0 a)) q := by
    intro ew zf zs h1 h2 h3
    rw [msg_of_parts, h1, h2, h3]
    rfl
  exact key _ _ _ (gate_bcast_col (shapeCast S6400x1 (x3 : FVec Ideal S6400x1 .f32) shapeCasts_S6400x1_S6400x1) (ix2 p q) |>.trans (by rw [shapeCast_self]))
    (pay7_apply x0 x1 x2 x4 x5 x6 x7 p q) (pay_s_apply x0 x1 x2 x8 x9 x10 x11 p q)

end Cert.KerSide

end
-- ==== Proof.GateArray.lean ====
/-
  From blocks to the array, for the first kernel region. Its grid has 500 points; at point t every streamed
  operand's block is rows 6400·t … 6400·t + 6399 of its array (all columns) and the six weight blocks and two
  bias rows are whole arrays; the output's block at t is the same rows of the message array. So what point t
  writes back is rows 6400·t … of ONE whole-array function — the message of every edge at every column — and
  since the 500 row stretches tile the 3,200,000 rows, the message array ends holding that function.
-/
import proofs.«116415_j44418551775904_1_alg».proof.Proof.Gen.KernelIdeal.Frame
import proofs.«116415_j44418551775904_1_alg».proof.Proof.GatePayload
import Idealize.ShloMosaic.Lib.Pipeline.Value

set_option maxRecDepth 16384

noncomputable section

namespace Cert.KerSide

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem gate_hz : (![0, 0] : Fin 2 → Nat) = fun _ => 0 := funext fun a => by fin_cases a <;> rfl

/-- The printed index maps over the grid: a streamed window's block index is (t, 0), a resident one's (0, 0). -/
theorem gate_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = t.val ∧ win0_12.index t (1 : Fin 2) = 0 :=
  (by decide +kernel : ∀ t : Fin grid0.N, _)

/-! ## Each input block as a stretch of its array -/

theorem gate_iblk_0 (c : Dev nD) (t : Fin cfg0.N) (x : S6400x32.Idx) (k : S3200000x32.Idx)
    (hk0 : (k 0).val = t.val * 6400 + (x 0).val) (hk1 : (k 1).val = (x 1).val) :
    (iblk0 V c 0 t : Vec Ideal S6400x32 .bf16) x = (V c main_v11 : S3200000x32.Idx → EReal) k := by
  obtain ⟨i0a, i0b, i1a, i1b, i2a, i2b, i3a, i3b, i4a, i4b, i5a, i5b, i6a, i6b, i7a, i7b, i8a, i8b, i9a, i9b, i10a, i10b, i11a, i11b, i12a, i12b⟩ := gate_idx t
  unfold iblk0
  rw [View.read_apply]
  show (V c main_v11 : S3200000x32.Idx → EReal) _ = (V c main_v11 : S3200000x32.Idx → EReal) k
  refine congrArg (V c main_v11 : S3200000x32.Idx → EReal) (funext fun a => Fin.ext ?_)
  match a with
  | ⟨0, _⟩ => show win0_0.index t (0 : Fin 2) * 6400 + 1 * (x 0).val = (k 0).val; omega
  | ⟨1, _⟩ => show win0_0.index t (1 : Fin 2) * 32 + 1 * (x 1).val = (k 1).val; omega

theorem gate_iblk_1 (c : Dev nD) (t : Fin cfg0.N) (x : S6400x32.Idx) (k : S3200000x32.Idx)
    (hk0 : (k 0).val = t.val * 6400 + (x 0).val) (hk1 : (k 1).val = (x 1).val) :
    (iblk0 V c 1 t : Vec Ideal S6400x32 .bf16) x = (V c main_v18 : S3200000x32.Idx → EReal) k := by
  obtain ⟨i0a, i0b, i1a, i1b, i2a, i2b, i3a, i3b, i4a, i4b, i5a, i5b, i6a, i6b, i7a, i7b, i8a, i8b, i9a, i9b, i10a, i10b, i11a, i11b, i12a, i12b⟩ := gate_idx t
  unfold iblk0
  rw [View.read_apply]
  show (V c main_v18 : S3200000x32.Idx → EReal) _ = (V c main_v18 : S3200000x32.Idx → EReal) k
  refine congrArg (V c main_v18 : S3200000x32.Idx → EReal) (funext fun a => Fin.ext ?_)
  match a with
  | ⟨0, _⟩ => show win0_1.index t (0 : Fin 2) * 6400 + 1 * (x 0).val = (k 0).val; omega
  | ⟨1, _⟩ => show win0_1.index t (1 : Fin 2) * 32 + 1 * (x 1).val = (k 1).val; omega

theorem gate_iblk_2 (c : Dev nD) (t : Fin cfg0.N) (x : S6400x16.Idx) (k : S3200000x16.Idx)
    (hk0 : (k 0).val = t.val * 6400 + (x 0).val) (hk1 : (k 1).val = (x 1).val) :
    (iblk0 V c 2 t : Vec Ideal S6400x16 .f32) x = (V c main_arg2 : S3200000x16.Idx → EReal) k := by
  obtain ⟨i0a, i0b, i1a, i1b, i2a, i2b, i3a, i3b, i4a, i4b, i5a, i5b, i6a, i6b, i7a, i7b, i8a, i8b, i9a, i9b, i10a, i10b, i11a, i11b, i12a, i12b⟩ := gate_idx t
  unfold iblk0
  rw [View.read_apply]
  show (V c main_arg2 : S3200000x16.Idx → EReal) _ = (V c main_arg2 : S3200000x16.Idx → EReal) k
  refine congrArg (V c main_arg2 : S3200000x16.Idx → EReal) (funext fun a => Fin.ext ?_)
  match a with
  | ⟨0, _⟩ => show win0_2.index t (0 : Fin 2) * 6400 + 1 * (x 0).val = (k 0).val; omega
  | ⟨1, _⟩ => show win0_2.index t (1 : Fin 2) * 16 + 1 * (x 1).val = (k 1).val; omega

theorem gate_iblk_3 (c : Dev nD) (t : Fin cfg0.N) (x : S6400x1.Idx) (k : S3200000x1.Idx)
    (hk0 : (k 0).val = t.val * 6400 + (x 0).val) (hk1 : (k 1).val = (x 1).val) :
    (iblk0 V c 3 t : Vec Ideal S6400x1 .f32) x = (V c main_v19 : S3200000x1.Idx → EReal) k := by
  obtain ⟨i0a, i0b, i1a, i1b, i2a, i2b, i3a, i3b, i4a, i4b, i5a, i5b, i6a, i6b, i7a, i7b, i8a, i8b, i9a, i9b, i10a, i10b, i11a, i11b, i12a, i12b⟩ := gate_idx t
  unfold iblk0
  rw [View.read_apply]
  show (V c main_v19 : S3200000x1.Idx → EReal) _ = (V c main_v19 : S3200000x1.Idx → EReal) k
  refine congrArg (V c main_v19 : S3200000x1.Idx → EReal) (funext fun a => Fin.ext ?_)
  match a with
  | ⟨0, _⟩ => show win0_3.index t (0 : Fin 2) * 6400 + 1 * (x 0).val = (k 0).val; omega
  | ⟨1, _⟩ => show win0_3.index t (1 : Fin 2) * 1 + 1 * (x 1).val = (k 1).val; omega

theorem gate_iblk_4 (c : Dev nD) (t : Fin cfg0.N) (x : S32x32.Idx) :
    (iblk0 V c 4 t : Vec Ideal S32x32 .f32) x = (V c main_v20 : S32x32.Idx → EReal) x := by
  obtain ⟨i0a, i0b, i1a, i1b, i2a, i2b, i3a, i3b, i4a, i4b, i5a, i5b, i6a, i6b, i7a, i7b, i8a, i8b, i9a, i9b, i10a, i10b, i11a, i11b, i12a, i12b⟩ := gate_idx t
  unfold iblk0
  rw [View.read_apply]
  show (V c main_v20 : S32x32.Idx → EReal) _ = (V c main_v20 : S32x32.Idx → EReal) x
  refine congrArg (V c main_v20 : S32x32.Idx → EReal) (funext fun a => Fin.ext ?_)
  match a with
  | ⟨0, _⟩ => show win0_4.index t (0 : Fin 2) * 32 + 1 * (x 0).val = (x 0).val; omega
  | ⟨1, _⟩ => show win0_4.index t (1 : Fin 2) * 32 + 1 * (x 1).val = (x 1).val; omega

theorem gate_iblk_5 (c : Dev nD) (t : Fin cfg0.N) (x : S32x32.Idx) :
    (iblk0 V c 5 t : Vec Ideal S32x32 .f32) x = (V c main_v21 : S32x32.Idx → EReal) x := by
  obtain ⟨i0a, i0b, i1a, i1b, i2a, i2b, i3a, i3b, i4a, i4b, i5a, i5b, i6a, i6b, i7a, i7b, i8a, i8b, i9a, i9b, i10a, i10b, i11a, i11b, i12a, i12b⟩ := gate_idx t
  unfold iblk0
  rw [View.read_apply]
  show (V c main_v21 : S32x32.Idx → EReal) _ = (V c main_v21 : S32x32.Idx → EReal) x
  refine congrArg (V c main_v21 : S32x32.Idx → EReal) (funext fun a => Fin.ext ?_)
  match a with
  | ⟨0, _⟩ => show win0_5.index t (0 : Fin 2) * 32 + 1 * (x 0).val = (x 0).val; omega
  | ⟨1, _⟩ => show win0_5.index t (1 : Fin 2) * 32 + 1 * (x 1).val = (x 1).val; omega

theorem gate_iblk_6 (c : Dev nD) (t : Fin cfg0.N) (x : S16x32.Idx) :
    (iblk0 V c 6 t : Vec Ideal S16x32 .f32) x = (V c main_v22 : S16x32.Idx → EReal) x := by
  obtain ⟨i0a, i0b, i1a, i1b, i2a, i2b, i3a, i3b, i4a, i4b, i5a, i5b, i6a, i6b, i7a, i7b, i8a, i8b, i9a, i9b, i10a, i10b, i11a, i11b, i12a, i12b⟩ := gate_idx t
  unfold iblk0
  rw [View.read_apply]
  show (V c main_v22 : S16x32.Idx → EReal) _ = (V c main_v22 : S16x32.Idx → EReal) x
  refine congrArg (V c main_v22 : S16x32.Idx → EReal) (funext fun a => Fin.ext ?_)
  match a with
  | ⟨0, _⟩ => show win0_6.index t (0 : Fin 2) * 16 + 1 * (x 0).val = (x 0).val; omega
  | ⟨1, _⟩ => show win0_6.index t (1 : Fin 2) * 32 + 1 * (x 1).val = (x 1).val; omega

theorem gate_iblk_7 (c : Dev nD) (t : Fin cfg0.N) (x : S1x32.Idx) :
    (iblk0 V c 7 t : Vec Ideal S1x32 .f32) x = (V c main_v23 : S1x32.Idx → EReal) x := by
  obtain ⟨i0a, i0b, i1a, i1b, i2a, i2b, i3a, i3b, i4a, i4b, i5a, i5b, i6a, i6b, i7a, i7b, i8a, i8b, i9a, i9b, i10a, i10b, i11a, i11b, i12a, i12b⟩ := gate_idx t
  unfold iblk0
  rw [View.read_apply]
  show (V c main_v23 : S1x32.Idx → EReal) _ = (V c main_v23 : S1x32.Idx → EReal) x
  refine congrArg (V c main_v23 : S1x32.Idx → EReal) (funext fun a => Fin.ext ?_)
  match a with
  | ⟨0, _⟩ => show win0_7.index t (0 : Fin 2) * 1 + 1 * (x 0).val = (x 0).val; omega
  | ⟨1, _⟩ => show win0_7.index t (1 : Fin 2) * 32 + 1 * (x 1).val = (x 1).val; omega

theorem gate_iblk_8 (c : Dev nD) (t : Fin cfg0.N) (x : S32x32.Idx) :
    (iblk0 V c 8 t : Vec Ideal S32x32 .f32) x = (V c main_v24 : S32x32.Idx → EReal) x := by
  obtain ⟨i0a, i0b, i1a, i1b, i2a, i2b, i3a, i3b, i4a, i4b, i5a, i5b, i6a, i6b, i7a, i7b, i8a, i8b, i9a, i9b, i10a, i10b, i11a, i11b, i12a, i12b⟩ := gate_idx t
  unfold iblk0
  rw [View.read_apply]
  show (V c main_v24 : S32x32.Idx → EReal) _ = (V c main_v24 : S32x32.Idx → EReal) x
  refine congrArg (V c main_v24 : S32x32.Idx → EReal) (funext fun a => Fin.ext ?_)
  match a with
  | ⟨0, _⟩ => show win0_8.index t (0 : Fin 2) * 32 + 1 * (x 0).val = (x 0).val; omega
  | ⟨1, _⟩ => show win0_8.index t (1 : Fin 2) * 32 + 1 * (x 1).val = (x 1).val; omega

theorem gate_iblk_9 (c : Dev nD) (t : Fin cfg0.N) (x : S32x32.Idx) :
    (iblk0 V c 9 t : Vec Ideal S32x32 .f32) x = (V c main_v25 : S32x32.Idx → EReal) x := by
  obtain ⟨i0a, i0b, i1a, i1b, i2a, i2b, i3a, i3b, i4a, i4b, i5a, i5b, i6a, i6b, i7a, i7b, i8a, i8b, i9a, i9b, i10a, i10b, i11a, i11b, i12a, i12b⟩ := gate_idx t
  unfold iblk0
  rw [View.read_apply]
  show (V c main_v25 : S32x32.Idx → EReal) _ = (V c main_v25 : S32x32.Idx → EReal) x
  refine congrArg (V c main_v25 : S32x32.Idx → EReal) (funext fun a => Fin.ext ?_)
  match a with
  | ⟨0, _⟩ => show win0_9.index t (0 : Fin 2) * 32 + 1 * (x 0).val = (x 0).val; omega
  | ⟨1, _⟩ => show win0_9.index t (1 : Fin 2) * 32 + 1 * (x 1).val = (x 1).val; omega

theorem gate_iblk_10 (c : Dev nD) (t : Fin cfg0.N) (x : S16x32.Idx) :
    (iblk0 V c 10 t : Vec Ideal S16x32 .f32) x = (V c main_v26 : S16x32.Idx → EReal) x := by
  obtain ⟨i0a, i0b, i1a, i1b, i2a, i2b, i3a, i3b, i4a, i4b, i5a, i5b, i6a, i6b, i7a, i7b, i8a, i8b, i9a, i9b, i10a, i10b, i11a, i11b, i12a, i12b⟩ := gate_idx t
  unfold iblk0
  rw [View.read_apply]
  show (V c main_v26 : S16x32.Idx → EReal) _ = (V c main_v26 : S16x32.Idx → EReal) x
  refine congrArg (V c main_v26 : S16x32.Idx → EReal) (funext fun a => Fin.ext ?_)
  match a with
  | ⟨0, _⟩ => show win0_10.index t (0 : Fin 2) * 16 + 1 * (x 0).val = (x 0).val; omega
  | ⟨1, _⟩ => show win0_10.index t (1 : Fin 2) * 32 + 1 * (x 1).val = (x 1).val; omega

theorem gate_iblk_11 (c : Dev nD) (t : Fin cfg0.N) (x : S1x32.Idx) :
    (iblk0 V c 11 t : Vec Ideal S1x32 .f32) x = (V c main_v27 : S1x32.Idx → EReal) x := by
  obtain ⟨i0a, i0b, i1a, i1b, i2a, i2b, i3a, i3b, i4a, i4b, i5a, i5b, i6a, i6b, i7a, i7b, i8a, i8b, i9a, i9b, i10a, i10b, i11a, i11b, i12a, i12b⟩ := gate_idx t
  unfold iblk0
  rw [View.read_apply]
  show (V c main_v27 : S1x32.Idx → EReal) _ = (V c main_v27 : S1x32.Idx → EReal) x
  refine congrArg (V c main_v27 : S1x32.Idx → EReal) (funext fun a => Fin.ext ?_)
  match a with
  | ⟨0, _⟩ => show win0_11.index t (0 : Fin 2) * 1 + 1 * (x 0).val = (x 0).val; omega
  | ⟨1, _⟩ => show win0_11.index t (1 : Fin 2) * 32 + 1 * (x 1).val = (x 1).val; omega

/-! ## The message array -/

/-- The message of every edge at every column, from the region's input arrays as it finds them. -/
def gateArr (c : Dev nD) : S3200000x32.Idx → EReal := fun i =>
  Cert.Spec.msg (fun k => (V c main_v11 : S3200000x32.Idx → EReal) (ix2 (i 0) k)) (fun k => (V c main_v18 : S3200000x32.Idx → EReal) (ix2 (i 0) k)) (fun k => (V c main_arg2 : S3200000x16.Idx → EReal) (ix2 (i 0) k)) ((V c main_v19 : S3200000x1.Idx → EReal) (ix2 (i 0) 0))
      (fun k a => (V c main_v20 : S32x32.Idx → EReal) (ix2 k a)) (fun k a => (V c main_v21 : S32x32.Idx → EReal) (ix2 k a)) (fun k a => (V c main_v22 : S16x32.Idx → EReal) (ix2 k a)) (fun a => (V c main_v23 : S1x32.Idx → EReal) (ix2 0 a))
      (fun k a => (V c main_v24 : S32x32.Idx → EReal) (ix2 k a)) (fun k a => (V c main_v25 : S32x32.Idx → EReal) (ix2 k a)) (fun k a => (V c main_v26 : S16x32.Idx → EReal) (ix2 k a)) (fun a => (V c main_v27 : S1x32.Idx → EReal) (ix2 0 a)) (i 1)

/-- The rows of the message array that a point's blocks make up: the message assembled from the input blocks at
    point t, at row p of the block, is the message array at row 6400·t + p. -/
theorem gate_rows (c : Dev nD) (t : Fin cfg0.N) (p : Fin 6400) (q : Fin 32) (K : S3200000x32.Idx)
    (hK0 : (K 0).val = t.val * 6400 + p.val) (hK1 : (K 1).val = q.val) :
    Cert.Spec.msg (fun k => (iblk0 V c 0 t : Vec Ideal S6400x32 .bf16) (ix2 p k)) (fun k => (iblk0 V c 1 t : Vec Ideal S6400x32 .bf16) (ix2 p k)) (fun k => (iblk0 V c 2 t : Vec Ideal S6400x16 .f32) (ix2 p k)) ((iblk0 V c 3 t : Vec Ideal S6400x1 .f32) (ix2 p 0))
      (fun k a => (iblk0 V c 4 t : Vec Ideal S32x32 .f32) (ix2 k a)) (fun k a => (iblk0 V c 5 t : Vec Ideal S32x32 .f32) (ix2 k a)) (fun k a => (iblk0 V c 6 t : Vec Ideal S16x32 .f32) (ix2 k a)) (fun a => (iblk0 V c 7 t : Vec Ideal S1x32 .f32) (ix2 0 a))
      (fun k a => (iblk0 V c 8 t : Vec Ideal S32x32 .f32) (ix2 k a)) (fun k a => (iblk0 V c 9 t : Vec Ideal S32x32 .f32) (ix2 k a)) (fun k a => (iblk0 V c 10 t : Vec Ideal S16x32 .f32) (ix2 k a)) (fun a => (iblk0 V c 11 t : Vec Ideal S1x32 .f32) (ix2 0 a)) q
      = gateArr V c K := by
  obtain ⟨r, q', rfl⟩ : ∃ (r : Fin 3200000) (q' : Fin 32), K = ix2 r q' := ⟨K 0, K 1, eq_ix2 K⟩
  have hr : r.val = t.val * 6400 + p.val := hK0
  obtain rfl : q' = q := Fin.ext hK1
  unfold gateArr
  show _ = Cert.Spec.msg (fun k => (V c main_v11 : S3200000x32.Idx → EReal) (ix2 r k)) (fun k => (V c main_v18 : S3200000x32.Idx → EReal) (ix2 r k)) (fun k => (V c main_arg2 : S3200000x16.Idx → EReal) (ix2 r k)) ((V c main_v19 : S3200000x1.Idx → EReal) (ix2 r 0))
      (fun k a => (V c main_v20 : S32x32.Idx → EReal) (ix2 k a)) (fun k a => (V c main_v21 : S32x32.Idx → EReal) (ix2 k a)) (fun k a => (V c main_v22 : S16x32.Idx → EReal) (ix2 k a)) (fun a => (V c main_v23 : S1x32.Idx → EReal) (ix2 0 a))
      (fun k a => (V c main_v24 : S32x32.Idx → EReal) (ix2 k a)) (fun k a => (V c main_v25 : S32x32.Idx → EReal) (ix2 k a)) (fun k a => (V c main_v26 : S16x32.Idx → EReal) (ix2 k a)) (fun a => (V c main_v27 : S1x32.Idx → EReal) (ix2 0 a)) q'
  have e0 : (fun k => (iblk0 V c 0 t : Vec Ideal S6400x32 .bf16) (ix2 p k)) = fun k => (V c main_v11 : S3200000x32.Idx → EReal) (ix2 r k) :=
    funext fun k => gate_iblk_0 V c t _ _ hr rfl
  have e1 : (fun k => (iblk0 V c 1 t : Vec Ideal S6400x32 .bf16) (ix2 p k)) = fun k => (V c main_v18 : S3200000x32.Idx → EReal) (ix2 r k) :=
    funext fun k => gate_iblk_1 V c t _ _ hr rfl
  have e2 : (fun k => (iblk0 V c 2 t : Vec Ideal S6400x16 .f32) (ix2 p k)) = fun k => (V c main_arg2 : S3200000x16.Idx → EReal) (ix2 r k) :=
    funext fun k => gate_iblk_2 V c t _ _ hr rfl
  have e3 : (iblk0 V c 3 t : Vec Ideal S6400x1 .f32) (ix2 p 0) = (V c main_v19 : S3200000x1.Idx → EReal) (ix2 r 0) := gate_iblk_3 V c t _ _ hr rfl
  have e4 : (fun k a => (iblk0 V c 4 t : Vec Ideal S32x32 .f32) (ix2 k a)) = fun k a => (V c main_v20 : S32x32.Idx → EReal) (ix2 k a) :=
    funext fun k => funext fun a => gate_iblk_4 V c t _
  have e5 : (fun k a => (iblk0 V c 5 t : Vec Ideal S32x32 .f32) (ix2 k a)) = fun k a => (V c main_v21 : S32x32.Idx → EReal) (ix2 k a) :=
    funext fun k => funext fun a => gate_iblk_5 V c t _
  have e6 : (fun k a => (iblk0 V c 6 t : Vec Ideal S16x32 .f32) (ix2 k a)) = fun k a => (V c main_v22 : S16x32.Idx → EReal) (ix2 k a) :=
    funext fun k => funext fun a => gate_iblk_6 V c t _
  have e8 : (fun k a => (iblk0 V c 8 t : Vec Ideal S32x32 .f32) (ix2 k a)) = fun k a => (V c main_v24 : S32x32.Idx → EReal) (ix2 k a) :=
    funext fun k => funext fun a => gate_iblk_8 V c t _
  have e9 : (fun k a => (iblk0 V c 9 t : Vec Ideal S32x32 .f32) (ix2 k a)) = fun k a => (V c main_v25 : S32x32.Idx → EReal) (ix2 k a) :=
    funext fun k => funext fun a => gate_iblk_9 V c t _
  have e10 : (fun k a => (iblk0 V c 10 t : Vec Ideal S16x32 .f32) (ix2 k a)) = fun k a => (V c main_v26 : S16x32.Idx → EReal) (ix2 k a) :=
    funext fun k => funext fun a => gate_iblk_10 V c t _
  have e7 : (fun a => (iblk0 V c 7 t : Vec Ideal S1x32 .f32) (ix2 0 a)) = fun a => (V c main_v23 : S1x32.Idx → EReal) (ix2 0 a) :=
    funext fun a => gate_iblk_7 V c t _
  have e11 : (fun a => (iblk0 V c 11 t : Vec Ideal S1x32 .f32) (ix2 0 a)) = fun a => (V c main_v27 : S1x32.Idx → EReal) (ix2 0 a) :=
    funext fun a => gate_iblk_11 V c t _
  rw [e0, e1, e2, e3, e4, e5, e6, e7, e8, e9, e10, e11]

/-- What point t writes back is its rows of the message array. -/
theorem gate_flushed (c : Dev nD) (t : Fin cfg0.N) :
    (dat0 V c).flushed 12 t = ((cfg0.win 12).blk t).view.read (Elt Ideal) (gateArr V c) := by
  obtain ⟨i0a, i0b, i1a, i1b, i2a, i2b, i3a, i3b, i4a, i4b, i5a, i5b, i6a, i6b, i7a, i7b, i8a, i8b, i9a, i9b, i10a, i10b, i11a, i11b, i12a, i12b⟩ := gate_idx t
  show (cfg0.win 12).cut (grid0.coords t) ((dat0 V c).after 12 t) = _
  rw [after0_12]
  unfold out0_12
  rw [View.canon_unit_zero gate_hz]
  simp only [View.ld_unit_zero (S := S6400x32) gate_hz, View.ld_unit_zero (S := S6400x16) gate_hz,
    View.ld_unit_zero (S := S6400x1) gate_hz, View.ld_unit_zero (S := S32x32) gate_hz,
    View.ld_unit_zero (S := S16x32) gate_hz, View.ld_unit_zero (S := S1x32) gate_hz]
  funext j
  obtain ⟨p, q, rfl⟩ : ∃ (p : Fin 6400) (q : Fin 32), j = ix2 p q := ⟨j 0, j 1, eq_ix2 j⟩
  refine (gate_pay (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) p q).trans ?_
  rw [View.read_apply]
  exact gate_rows V c t p q _
    (by show win0_12.index t (0 : Fin 2) * 6400 + 1 * p.val = t.val * 6400 + p.val; omega)
    (by show win0_12.index t (1 : Fin 2) * 32 + 1 * q.val = q.val; omega)

/-- An index of the message array is in point t's block iff each coordinate is in the block's range on its axis. -/
theorem gate_mem_blk (t : Fin cfg0.N) (i : S3200000x32.Idx) :
    i ∈ ((cfg0.win 12).blk t).view.set ↔ ∀ a : Fin 2, win0_12.index t a * S6400x32.size a ≤ (i a).val ∧ (i a).val < win0_12.index t a * S6400x32.size a + S6400x32.size a := by
  show i ∈ ((View.whole main_v28).slice (win0_12.rect t)).set ↔ _
  rw [View.set_slice_whole, Rect.mem_set_unit]
  exact Iff.rfl

/-- Row r of the message array lies in the block of point r / 6400. -/
theorem gate_cover (i : S3200000x32.Idx) :
    ∃ t : Fin cfg0.N, (cfg0.win 12).flush t = true ∧ i ∈ ((cfg0.win 12).blk t).view.set := by
  have hN : cfg0.N = 500 := N_0
  have hi0 : (i 0).val < 3200000 := (i 0).isLt
  have hi1 : (i 1).val < 32 := (i 1).isLt
  have ht : (i 0).val / 6400 < cfg0.N := by rw [hN]; omega
  obtain ⟨i0a, i0b, i1a, i1b, i2a, i2b, i3a, i3b, i4a, i4b, i5a, i5b, i6a, i6b, i7a, i7b, i8a, i8b, i9a, i9b, i10a, i10b, i11a, i11b, i12a, i12b⟩ := gate_idx ⟨(i 0).val / 6400, ht⟩
  refine ⟨⟨(i 0).val / 6400, ht⟩, flush0_12 _, ?_⟩
  rw [gate_mem_blk]
  intro a
  match a with
  | ⟨0, _⟩ =>
    show win0_12.index ⟨(i 0).val / 6400, ht⟩ (0 : Fin 2) * 6400 ≤ (i 0).val ∧ (i 0).val < win0_12.index ⟨(i 0).val / 6400, ht⟩ (0 : Fin 2) * 6400 + 6400
    rw [i12a]; show (i 0).val / 6400 * 6400 ≤ (i 0).val ∧ (i 0).val < (i 0).val / 6400 * 6400 + 6400; omega
  | ⟨1, _⟩ =>
    show win0_12.index ⟨(i 0).val / 6400, ht⟩ (1 : Fin 2) * 32 ≤ (i 1).val ∧ (i 1).val < win0_12.index ⟨(i 0).val / 6400, ht⟩ (1 : Fin 2) * 32 + 32
    rw [i12b]; omega

/-- The message array after the first region: the message of every edge at every column. -/
theorem gate_final (c : Dev nD) : (dat0 V c).arrAt 12 cfg0.N = gateArr V c :=
  (dat0 V c).arrAt_eq_of_cover 12 (gateArr V c) (fun t _ => gate_flushed V c t) gate_cover

end Cert.KerSide

end
-- ==== Proof.FinalPayload.lean ====
/-
  The per-node kernel's arithmetic read at one entry of its output block.

  A block is 5000 node rows of 32 features. For row p the kernel adds the aggregated messages to the features,
  takes the row's mean and (biased) variance by two lane sums kept as columns [5000, 1], normalises, scales and
  shifts by the two [1, 32] rows, multiplies by the 32×32 weight into a zero accumulator, adds the bias row and
  the residual, and applies the exponential linear unit. Entry (p, q) of the result therefore depends on row p of
  the two row blocks and on the whole of the four parameter arrays, and it is the specification's `out` of those
  rows at column q.

  First the layout operations the library does not read at an index by coordinates (a vector kept as a column, a
  column broadcast along the lanes), the lane sum and the matrix product at an index; then the kernel's stages,
  each as a definition with its value at an index; last the payload itself.
-/
import proofs.«116415_j44418551775904_1_alg».proof.Proof.Gen.KernelIdeal.Skeleton
import proofs.«116415_j44418551775904_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KerSide

open Idealize.ShloMosaic Idealize.ShloMosaic.ValueIdx Cert.KernelIdeal

/-! ## Layout operations at an index -/

section Layout
variable {α : Type}

/-- An `[a]` array kept as the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The lane sum and the matrix product at an index -/

/-- The sum over the lanes of a `[5000, 32]` block, read at row `p`: the sum of that row's 32 entries. -/
theorem rowSum_apply (src : FVec Ideal S5000x32 .f32) (h : S5000x32.Reduces [1] S5000) (hφ : FKind.Formats .f32)
    (hacc : (0x00000000#32 : BitVec 32) = FKind.add.neutral .f32 hφ) (p : Fin 5000) :
    multiReduction (F := Ideal) .add [1] S5000 src 0x00000000#32 h hφ hacc (ix1 p) = ∑ k : Fin 32, src (ix2 p k) :=
  (Ideal.multiReduction_add_single src _ h hφ hacc (ix1 p)).trans
    (Finset.sum_congr rfl fun k _ => congrArg src (funext fun a => Fin.ext (by
      match a with
      | ⟨0, _⟩ => rfl
      | ⟨1, _⟩ => rfl)))

/-- The operand indices of the block product `[5000, 32] × [32, 32]` at output index `i` and contraction index
    `q`: the left one is (row of `i`, `q`), the right one (`q`, column of `i`). -/
theorem dot_lhs0 (i : S5000x32.Idx) (q : dot_S5000x32_S32x32_S5000x32_1_0_0_1_n_n.contr.Idx) :
    (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide),
    dif_pos (show (0 : Fin S5000x32.rank) ∈ dot_S5000x32_S32x32_S5000x32_1_0_0_1_n_n.lhsNonContracting by decide)]
  rfl
theorem dot_lhs1 (i : S5000x32.Idx) (q : dot_S5000x32_S32x32_S5000x32_1_0_0_1_n_n.contr.Idx) :
    (dot_S5000x32_S32x32_S5000x32_1_0_0_1_n_n.lhsIdx i q 1).val = (q ⟨0, by decide⟩).val :=
  dot_S5000x32_S32x32_S5000x32_1_0_0_1_n_n.lhsIdx_val_of_single rfl i q
theorem dot_rhs0 (i : S5000x32.Idx) (q : dot_S5000x32_S32x32_S5000x32_1_0_0_1_n_n.contr.Idx) :
    (dot_S5000x32_S32x32_S5000x32_1_0_0_1_n_n.rhsIdx i q 0).val = (q ⟨0, by decide⟩).val :=
  dot_S5000x32_S32x32_S5000x32_1_0_0_1_n_n.rhsIdx_val_of_single rfl i q
theorem dot_rhs1 (i : S5000x32.Idx) (q : dot_S5000x32_S32x32_S5000x32_1_0_0_1_n_n.contr.Idx) :
    (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide),
    dif_pos (show (1 : Fin S32x32.rank) ∈ dot_S5000x32_S32x32_S5000x32_1_0_0_1_n_n.rhsNonContracting by decide)]
  rfl

/-- The block product into the zero accumulator, read at `(p, q)`: row `p` of the left operand against column
    `q` of the right one. -/
theorem rowTimes_apply (l : FVec Ideal S5000x32 .bf16) (r : FVec Ideal S32x32 .bf16) (p : Fin 5000) (q : Fin 32) :
    matmul dot_S5000x32_S32x32_S5000x32_1_0_0_1_n_n none l r (constant (F := Ideal) S5000x32 .f32 0x00000000#32) (ix2 p q)
      = ∑ k : Fin 32, l (ix2 p k) * r (ix2 k q) := by
  show FloatOps.matmul dot_S5000x32_S32x32_S5000x32_1_0_0_1_n_n none l r (constant (F := Ideal) S5000x32 .f32 0x00000000#32) (ix2 p q) = _
  rw [Ideal.matmul_constant_zero_apply, ← Equiv.sum_comp (contrEquiv1 dot_S5000x32_S32x32_S5000x32_1_0_0_1_n_n 32 rfl rfl).symm]
  refine Finset.sum_congr rfl fun k _ => ?_
  have hk := contrEquiv1_symm_val dot_S5000x32_S32x32_S5000x32_1_0_0_1_n_n 32 rfl rfl k
  have el : dot_S5000x32_S32x32_S5000x32_1_0_0_1_n_n.lhsIdx (ix2 p q) ((contrEquiv1 dot_S5000x32_S32x32_S5000x32_1_0_0_1_n_n 32 rfl rfl).symm k) = ix2 p k :=
    funext fun a => Fin.ext (by
      match a with
      | ⟨0, _⟩ => exact dot_lhs0 _ _
      | ⟨1, _⟩ => exact (dot_lhs1 _ _).trans hk)
  have er : dot_S5000x32_S32x32_S5000x32_1_0_0_1_n_n.rhsIdx (ix2 p q) ((contrEquiv1 dot_S5000x32_S32x32_S5000x32_1_0_0_1_n_n 32 rfl rfl).symm k) = ix2 k q :=
    funext fun a => Fin.ext (by
      match a with
      | ⟨0, _⟩ => exact (dot_rhs0 _ _).trans hk
      | ⟨1, _⟩ => exact dot_rhs1 _ _)
  rw [el, er]

/-! ## The kernel's stages, each with its value at an index

The payload uses the row mean twice and the centred row twice; naming the stages keeps each reading short. -/

open Facts₀

/-- The mean of each row as the kernel takes it: the lane sum kept as a column, divided by 32. -/
def kMean (h : FVec Ideal S5000x32 .f32) : FVec Ideal S5000x1 .f32 :=
  divf (shapeCast S5000x1 (multiReduction (F := Ideal) .add [1] S5000 h 0x00000000#32 reduces_S5000x32_S5000 (.inl rfl) rfl)
      shapeCasts_S5000_S5000x1)
    (broadcast S5000x1 (Scalar.ofBits (F := Ideal) .f32 0x42000000#32))

/-- It is the specification's mean of the row. -/
theorem kMean_apply (h : FVec Ideal S5000x32 .f32) (p : Fin 5000) (u : Fin 1) :
    kMean h (ix2 p u) = Cert.Spec.mean (fun a => h (ix2 p a)) :=
  congrArg (fun s => Ideal.div s Cert.Spec.c32)
    ((shapeCast_a_a1_apply _ shapeCasts_S5000_S5000x1 p u).trans
      (rowSum_apply h reduces_S5000x32_S5000 (.inl rfl) rfl p))

/-- The row with its mean subtracted: the mean column broadcast along the lanes. -/
def kCentered (h : FVec Ideal S5000x32 .f32) : FVec Ideal S5000x32 .f32 :=
  subf h (broadcastTo S5000x32 (kMean h) broadcasts_S5000x1_S5000x32)

theorem kCentered_apply (h : FVec Ideal S5000x32 .f32) (p : Fin 5000) (q : Fin 32) :
    kCentered h (ix2 p q) = h (ix2 p q) - Cert.Spec.mean (fun a => h (ix2 p a)) :=
  congrArg (fun s => h (ix2 p q) - s)
    ((broadcastTo_a1_ab_apply (kMean h) broadcasts_S5000x1_S5000x32 p q).trans (kMean_apply h p 0))

/-- The variance of each row: the mean of the squared centred row. -/
def kVar (h : FVec Ideal S5000x32 .f32) : FVec Ideal S5000x1 .f32 :=
  kMean (mulf (kCentered h) (kCentered h))

theorem kVar_apply (h : FVec Ideal S5000x32 .f32) (p : Fin 5000) (u : Fin 1) :
    kVar h (ix2 p u) = Cert.Spec.var (fun a => h (ix2 p a)) :=
  (kMean_apply _ p u).trans
    (congrArg (fun s => Ideal.div s Cert.Spec.c32)
      (Finset.sum_congr rfl fun k _ => by
        show kCentered h (ix2 p k) * kCentered h (ix2 p k) = _
        rw [kCentered_apply]))

/-- The normalised row, scaled and shifted by the two parameter rows: the reciprocal root of the shifted variance
    is a column broadcast along the lanes, the parameter rows are broadcast along the nodes. -/
def kNorm (h : FVec Ideal S5000x32 .f32) (g b : Vec Ideal S1x32 .f32) : FVec Ideal S5000x32 .f32 :=
  addf
    (mulf
      (mulf (kCentered h)
        (broadcastTo S5000x32
          (rsqrt (addf (kVar h) (broadcast S5000x1 (Scalar.ofBits (F := Ideal) .f32 0x3727C5AC#32))))
          broadcasts_S5000x1_S5000x32))
      (broadcastTo S5000x32 (shapeCast S1x32 g shapeCasts_S1x32_S1x32) broadcasts_S1x32_S5000x32))
    (broadcastTo S5000x32 (shapeCast S1x32 b shapeCasts_S1x32_S1x32) broadcasts_S1x32_S5000x32)

theorem kNorm_apply (h : FVec Ideal S5000x32 .f32) (g b : Vec Ideal S1x32 .f32) (p : Fin 5000) (q : Fin 32) :
    kNorm h g b (ix2 p q)
      = Cert.Spec.norm (fun a => h (ix2 p a)) (fun a => g (ix2 0 a)) (fun a => b (ix2 0 a)) q := by
  unfold kNorm Cert.Spec.norm
  rw [addf_apply, mulf_apply, mulf_apply, kCentered_apply, broadcastTo_a1_ab_apply, broadcastTo_1b_ab_apply,
    broadcastTo_1b_ab_apply, shapeCast_self, shapeCast_self]
  show _ * Ideal.rsqrt (kVar h (ix2 p 0) + Cert.Spec.eps) * _ + _ = _
  rw [kVar_apply]

/-! ## The payload -/

/-- The payload before the last unit is those stages, the block product, the bias row and the residual. -/
theorem pay2_eq (x0 x1 : Vec Ideal S5000x32 .f32) (x2 x3 : Vec Ideal S1x32 .f32) (x4 : Vec Ideal S32x32 .f32)
    (x5 : Vec Ideal S1x32 .f32) :
    Gen.k1_pay2 x0 x1 x2 x3 x4 x5
      = addf
          (addf
            (matmul dot_S5000x32_S32x32_S5000x32_1_0_0_1_n_n none
              (truncf .bf16 (kNorm (addf (shapeCast S5000x32 x0 shapeCasts_S5000x32_S5000x32) x1) x2 x3) bitsLt_bf16_f32)
              (truncf .bf16 x4 bitsLt_bf16_f32) (constant (F := Ideal) S5000x32 .f32 0x00000000#32))
            (broadcastTo S5000x32 (shapeCast S1x32 x5 shapeCasts_S1x32_S1x32) broadcasts_S1x32_S5000x32))
          x1 := rfl

/-- At entry `(p, q)`: the normalised row `p` of `agg + x` against column `q` of the weight, plus the bias at `q`,
    plus the residual. The rounding of the product's operands is the identity on the ideal values. -/
theorem pay2_apply (x0 x1 : Vec Ideal S5000x32 .f32) (x2 x3 : Vec Ideal S1x32 .f32) (x4 : Vec Ideal S32x32 .f32)
    (x5 : Vec Ideal S1x32 .f32) (p : Fin 5000) (q : Fin 32) :
    Gen.k1_pay2 x0 x1 x2 x3 x4 x5 (ix2 p q)
      = (∑ k : Fin 32, Cert.Spec.norm (fun a => x0 (ix2 p a) + x1 (ix2 p a)) (fun a => x2 (ix2 0 a))
            (fun a => x3 (ix2 0 a)) k * x4 (ix2 k q) + x5 (ix2 0 q)) + x1 (ix2 p q) := by
  rw [pay2_eq, addf_apply, addf_apply, rowTimes_apply, broadcastTo_1b_ab_apply, shapeCast_self, shapeCast_self]
  refine congrArg (· + x1 (ix2 p q)) (congrArg (· + x5 (ix2 0 q)) (Finset.sum_congr rfl fun k _ => ?_))
  rw [truncf_apply, truncf_apply, kNorm_apply]
  simp only [addf_apply]

/-- The last unit: where the value is positive it is kept, elsewhere its exponential less one. -/
theorem pay1_apply (y : FVec Ideal S5000x32 .f32) (i : S5000x32.Idx) :
    Gen.k1_pay1 y (Gen.k1_pay3 (F := Ideal)) i = Cert.Spec.elu (y i) :=
  Cert.Spec.elu_kernel (y i)

/-- THE PAYLOAD AT AN ENTRY: the specification's output of node row `p` at column `q`. -/
theorem payload_apply (x0 x1 : Vec Ideal S5000x32 .f32) (x2 x3 : Vec Ideal S1x32 .f32) (x4 : Vec Ideal S32x32 .f32)
    (x5 : Vec Ideal S1x32 .f32) (p : Fin 5000) (q : Fin 32) :
    Gen.k1_pay1 (Gen.k1_pay2 x0 x1 x2 x3 x4 x5) (Gen.k1_pay3 (F := Ideal)) (ix2 p q)
      = Cert.Spec.out (fun a => x0 (ix2 p a)) (fun a => x1 (ix2 p a)) (fun a => x2 (ix2 0 a))
          (fun a => x3 (ix2 0 a)) (fun k a => x4 (ix2 k a)) (fun a => x5 (ix2 0 a)) q := by
  rw [pay1_apply, pay2_apply]
  rfl

end Cert.KerSide

end
-- ==== Proof.FinalArray.lean ====
/-
  From the per-node kernel's blocks to its output array.

  The region runs 20 grid points; point t stages rows 5000 t … 5000 t + 4999 of the aggregated messages and of the
  node features, the four parameter arrays whole, and writes back the same rows of the output. With the payload
  read at an entry, what point t writes back is block t of ONE function of the region's arrays: row r of the
  output is the specification's `out` of row r of the two row arrays and of the parameters. The twenty blocks tile
  the 100000 rows (row r lies in block r / 5000), so the output array ends holding that function.
-/
import proofs.«116415_j44418551775904_1_alg».proof.Proof.Gen.KernelIdeal.Frame
import proofs.«116415_j44418551775904_1_alg».proof.Proof.FinalPayload
import Idealize.ShloMosaic.Lib.Pipeline.Value

noncomputable section

namespace Cert.KerSide

open Idealize.ShloMosaic Idealize.ShloMosaic.TcCoe Idealize.ShloMosaic.ValueIdx Idealize.SL.Sem
open Idealize.ShloMosaic.Pipeline (Dat)
open Cert.KernelIdeal

/-- The output array as one function of the six arrays the region reads: row `r`, column `q` is the
    specification's output of row `r` of the aggregated messages and of the features. -/
def finalOf (A0 A1 : S100000x32.Idx → EReal) (A2 A3 : S1x32.Idx → EReal) (A4 : S32x32.Idx → EReal)
    (A5 : S1x32.Idx → EReal) : S100000x32.Idx → EReal :=
  fun i => Cert.Spec.out (fun a => A0 (ix2 (i 0) a)) (fun a => A1 (ix2 (i 0) a)) (fun a => A2 (ix2 0 a))
    (fun a => A3 (ix2 0 a)) (fun k a => A4 (ix2 k a)) (fun a => A5 (ix2 0 a)) (i 1)

theorem hz : (![0, 0] : Fin 2 → Nat) = fun _ => 0 := funext fun a => by fin_cases a <;> rfl

/-- What the body leaves in the output's buffer, at an entry: the payload of the six staged blocks. -/
theorem out_apply (x0 x1 : Vec Ideal S5000x32 .f32) (x2 x3 : Vec Ideal S1x32 .f32) (x4 : Vec Ideal S32x32 .f32)
    (x5 : Vec Ideal S1x32 .f32) (y : S5000x32.Idx) :
    Gen.out1_6 x0 x1 x2 x3 x4 x5 y
      = Cert.Spec.out (fun a => x0 (ix2 (y 0) a)) (fun a => x1 (ix2 (y 0) a)) (fun a => x2 (ix2 0 a))
          (fun a => x3 (ix2 0 a)) (fun k a => x4 (ix2 k a)) (fun a => x5 (ix2 0 a)) (y 1) := by
  obtain ⟨p, q, rfl⟩ : ∃ (p : Fin 5000) (q : Fin 32), y = ix2 p q := ⟨y 0, y 1, eq_ix2 y⟩
  unfold Gen.out1_6
  rw [View.canon_unit_zero hz]
  simp only [View.ld_unit_zero (S := S5000x32) hz, View.ld_unit_zero (S := S1x32) hz, View.ld_unit_zero (S := S32x32) hz]
  exact payload_apply x0 x1 x2 x3 x4 x5 p q

/-- The printed index maps, decided over the twenty points: the two row windows and the output window are at
    block (t, 0), the four parameter windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## Each staged block, read off its array -/

section Blocks
variable (V : (c : Dev nD) → (b : Ref sig .tc) → Buf (Elt Ideal) ((c : Thread nD τ).loc b))

/-- The block of aggregated messages at point `t`, at local row `p`: row `5000 t + p` of the array. -/
theorem blk0_apply (c : Dev nD) (t : Fin cfg1.N) (y : S5000x32.Idx) (i : S100000x32.Idx)
    (h0 : (i 0).val = t.val * 5000 + (y 0).val) (h1 : (i 1).val = (y 1).val) :
    (Gen.iblk1 (F := Ideal) V c 0 t : Vec Ideal S5000x32 .f32) y
      = (V c (Pipeline.arrRef spec1 0) : S100000x32.Idx → EReal) i := by
  have e0 : win1_0.index t (0 : Fin 2) = t.val := (idx_facts t).1
  have e1 : win1_0.index t (1 : Fin 2) = 0 := (idx_facts t).2.1
  unfold Gen.iblk1
  rw [View.read_apply]
  show V c (Pipeline.arrRef spec1 0) _ = V c (Pipeline.arrRef spec1 0) _
  congr 1
  funext a
  apply Fin.ext
  match a with
  | ⟨0, _⟩ => show win1_0.index t 0 * 5000 + 1 * (y 0).val = (i 0).val; rw [e0, h0]; omega
  | ⟨1, _⟩ => show win1_0.index t 1 * 32 + 1 * (y 1).val = (i 1).val; rw [e1, h1]; omega

/-- The block of node features at point `t` likewise. -/
theorem blk1_apply (c : Dev nD) (t : Fin cfg1.N) (y : S5000x32.Idx) (i : S100000x32.Idx)
    (h0 : (i 0).val = t.val * 5000 + (y 0).val) (h1 : (i 1).val = (y 1).val) :
    (Gen.iblk1 (F := Ideal) V c 1 t : Vec Ideal S5000x32 .f32) y
      = (V c (Pipeline.arrRef spec1 1) : S100000x32.Idx → EReal) i := by
  have e0 : win1_1.index t (0 : Fin 2) = t.val := (idx_facts t).2.2.1
  have e1 : win1_1.index t (1 : Fin 2) = 0 := (idx_facts t).2.2.2.1
  unfold Gen.iblk1
  rw [View.read_apply]
  show V c (Pipeline.arrRef spec1 1) _ = V c (Pipeline.arrRef spec1 1) _
  congr 1
  funext a
  apply Fin.ext
  match a with
  | ⟨0, _⟩ => show win1_1.index t 0 * 5000 + 1 * (y 0).val = (i 0).val; rw [e0, h0]; omega
  | ⟨1, _⟩ => show win1_1.index t 1 * 32 + 1 * (y 1).val = (i 1).val; rw [e1, h1]; omega

/-- The scale row is staged whole at every point. -/
theorem blk2_apply (c : Dev nD) (t : Fin cfg1.N) (y : S1x32.Idx) :
    (Gen.iblk1 (F := Ideal) V c 2 t : Vec Ideal S1x32 .f32) y
      = (V c (Pipeline.arrRef spec1 2) : S1x32.Idx → EReal) y := by
  have e0 : win1_2.index t (0 : Fin 2) = 0 := (idx_facts t).2.2.2.2.1
  have e1 : win1_2.index t (1 : Fin 2) = 0 := (idx_facts t).2.2.2.2.2.1
  unfold Gen.iblk1
  rw [View.read_apply]
  show V c (Pipeline.arrRef spec1 2) _ = V c (Pipeline.arrRef spec1 2) _
  congr 1
  funext a
  apply Fin.ext
  match a with
  | ⟨0, _⟩ => show win1_2.index t 0 * 1 + 1 * (y 0).val = (y 0).val; rw [e0]; omega
  | ⟨1, _⟩ => show win1_2.index t 1 * 32 + 1 * (y 1).val = (y 1).val; rw [e1]; omega

/-- The shift row is staged whole at every point. -/
theorem blk3_apply (c : Dev nD) (t : Fin cfg1.N) (y : S1x32.Idx) :
    (Gen.iblk1 (F := Ideal) V c 3 t : Vec Ideal S1x32 .f32) y
      = (V c (Pipeline.arrRef spec1 3) : S1x32.Idx → EReal) y := by
  have e0 : win1_3.index t (0 : Fin 2) = 0 := (idx_facts t).2.2.2.2.2.2.1
  have e1 : win1_3.index t (1 : Fin 2) = 0 := (idx_facts t).2.2.2.2.2.2.2.1
  unfold Gen.iblk1
  rw [View.read_apply]
  show V c (Pipeline.arrRef spec1 3) _ = V c (Pipeline.arrRef spec1 3) _
  congr 1
  funext a
  apply Fin.ext
  match a with
  | ⟨0, _⟩ => show win1_3.index t 0 * 1 + 1 * (y 0).val = (y 0).val; rw [e0]; omega
  | ⟨1, _⟩ => show win1_3.index t 1 * 32 + 1 * (y 1).val = (y 1).val; rw [e1]; omega

/-- The weight is staged whole at every point. -/
theorem blk4_apply (c : Dev nD) (t : Fin cfg1.N) (y : S32x32.Idx) :
    (Gen.iblk1 (F := Ideal) V c 4 t : Vec Ideal S32x32 .f32) y
      = (V c (Pipeline.arrRef spec1 4) : S32x32.Idx → EReal) y := by
  have e0 : win1_4.index t (0 : Fin 2) = 0 := (idx_facts t).2.2.2.2.2.2.2.2.1
  have e1 : win1_4.index t (1 : Fin 2) = 0 := (idx_facts t).2.2.2.2.2.2.2.2.2.1
  unfold Gen.iblk1
  rw [View.read_apply]
  show V c (Pipeline.arrRef spec1 4) _ = V c (Pipeline.arrRef spec1 4) _
  congr 1
  funext a
  apply Fin.ext
  match a with
  | ⟨0, _⟩ => show win1_4.index t 0 * 32 + 1 * (y 0).val = (y 0).val; rw [e0]; omega
  | ⟨1, _⟩ => show win1_4.index t 1 * 32 + 1 * (y 1).val = (y 1).val; rw [e1]; omega

/-- The bias row is staged whole at every point. -/
theorem blk5_apply (c : Dev nD) (t : Fin cfg1.N) (y : S1x32.Idx) :
    (Gen.iblk1 (F := Ideal) V c 5 t : Vec Ideal S1x32 .f32) y
      = (V c (Pipeline.arrRef spec1 5) : S1x32.Idx → EReal) y := by
  have e0 : win1_5.index t (0 : Fin 2) = 0 := (idx_facts t).2.2.2.2.2.2.2.2.2.2.1
  have e1 : win1_5.index t (1 : Fin 2) = 0 := (idx_facts t).2.2.2.2.2.2.2.2.2.2.2.1
  unfold Gen.iblk1
  rw [View.read_apply]
  show V c (Pipeline.arrRef spec1 5) _ = V c (Pipeline.arrRef spec1 5) _
  congr 1
  funext a
  apply Fin.ext
  match a with
  | ⟨0, _⟩ => show win1_5.index t 0 * 1 + 1 * (y 0).val = (y 0).val; rw [e0]; omega
  | ⟨1, _⟩ => show win1_5.index t 1 * 32 + 1 * (y 1).val = (y 1).val; rw [e1]; omega

end Blocks

/-! ## What a point writes back, the cover, and the array -/

/-- The specification's output does not change when each of its rows is replaced by an equal one. -/
theorem out_congr {f0 g0 f1 g1 f2 g2 f3 g3 f5 g5 : Fin 32 → EReal} {f4 g4 : Fin 32 → Fin 32 → EReal}
    (e0 : ∀ a, f0 a = g0 a) (e1 : ∀ a, f1 a = g1 a) (e2 : ∀ a, f2 a = g2 a) (e3 : ∀ a, f3 a = g3 a)
    (e4 : ∀ k a, f4 k a = g4 k a) (e5 : ∀ a, f5 a = g5 a) (q : Fin 32) :
    Cert.Spec.out f0 f1 f2 f3 f4 f5 q = Cert.Spec.out g0 g1 g2 g3 g4 g5 q := by
  rw [funext e0, funext e1, funext e2, funext e3, (funext fun k => funext (e4 k) : f4 = g4), funext e5]

section Array
variable (V : (c : Dev nD) → (b : Ref sig .tc) → Buf (Elt Ideal) ((c : Thread nD τ).loc b))

/-- The output's buffer after the body at point `t`, at local entry `y`, is the array function at the entry
    `i` of row `5000 t +` the local row and the same column. -/
theorem block_eq (c : Dev nD) (t : Fin cfg1.N) (y : S5000x32.Idx) (i : S100000x32.Idx)
    (h0 : (i 0).val = t.val * 5000 + (y 0).val) (h1 : (i 1).val = (y 1).val) :
    Gen.out1_6 (F := Ideal) (Gen.iblk1 V c 0 t) (Gen.iblk1 V c 1 t) (Gen.iblk1 V c 2 t) (Gen.iblk1 V c 3 t) (Gen.iblk1 V c 4 t) (Gen.iblk1 V c 5 t) y
      = finalOf (V c (Pipeline.arrRef spec1 0) : S100000x32.Idx → EReal) (V c (Pipeline.arrRef spec1 1) : S100000x32.Idx → EReal)
        (V c (Pipeline.arrRef spec1 2) : S1x32.Idx → EReal) (V c (Pipeline.arrRef spec1 3) : S1x32.Idx → EReal)
        (V c (Pipeline.arrRef spec1 4) : S32x32.Idx → EReal) (V c (Pipeline.arrRef spec1 5) : S1x32.Idx → EReal) i := by
  obtain ⟨p, q, rfl⟩ : ∃ (p : Fin 5000) (q : Fin 32), y = ix2 p q := ⟨y 0, y 1, eq_ix2 y⟩
  obtain ⟨r, s, rfl⟩ : ∃ (r : Fin 100000) (s : Fin 32), i = ix2 r s := ⟨i 0, i 1, eq_ix2 i⟩
  have h0' : r.val = t.val * 5000 + p.val := h0
  obtain rfl : s = q := Fin.ext h1
  refine (out_apply (Gen.iblk1 V c 0 t) (Gen.iblk1 V c 1 t) (Gen.iblk1 V c 2 t) (Gen.iblk1 V c 3 t) (Gen.iblk1 V c 4 t) (Gen.iblk1 V c 5 t) (ix2 p s)).trans ?_
  exact out_congr (fun a => blk0_apply V c t (ix2 p a) (ix2 r a) h0' rfl)
    (fun a => blk1_apply V c t (ix2 p a) (ix2 r a) h0' rfl)
    (fun a => blk2_apply V c t (ix2 0 a)) (fun a => blk3_apply V c t (ix2 0 a))
    (fun k a => blk4_apply V c t (ix2 k a)) (fun a => blk5_apply V c t (ix2 0 a)) s

/-- WHAT POINT `t` WRITES BACK is block `t` of the array function. -/
theorem flushed_eq (c : Dev nD) (t : Fin cfg1.N) :
    (Gen.dat1 (F := Ideal) V c).flushed 6 t
      = ((cfg1.win 6).blk t).view.read (Elt Ideal) (finalOf (V c (Pipeline.arrRef spec1 0) : S100000x32.Idx → EReal) (V c (Pipeline.arrRef spec1 1) : S100000x32.Idx → EReal)
        (V c (Pipeline.arrRef spec1 2) : S1x32.Idx → EReal) (V c (Pipeline.arrRef spec1 3) : S1x32.Idx → EReal)
        (V c (Pipeline.arrRef spec1 4) : S32x32.Idx → EReal) (V c (Pipeline.arrRef spec1 5) : S1x32.Idx → EReal)) := by
  show (cfg1.win 6).cut (grid1.coords t) ((Gen.dat1 V c).after 6 t) = _
  rw [Gen.after1_6]
  have e0 : win1_6.index t (0 : Fin 2) = t.val := (idx_facts t).2.2.2.2.2.2.2.2.2.2.2.2.1
  have e1 : win1_6.index t (1 : Fin 2) = 0 := (idx_facts t).2.2.2.2.2.2.2.2.2.2.2.2.2
  funext j
  rw [View.read_apply]
  refine block_eq V c t j (((cfg1.win 6).blk t).view.emb j) ?_ ?_
  · show win1_6.index t 0 * 5000 + 1 * (j 0).val = t.val * 5000 + (j 0).val; rw [e0]; omega
  · show win1_6.index t 1 * 32 + 1 * (j 1).val = (j 1).val; rw [e1]; omega

end Array

/-- An index of the output array is in point `t`'s block iff each coordinate is in the block's range on its axis. -/
theorem mem_blk (t : Fin cfg1.N) (i : S100000x32.Idx) :
    i ∈ ((cfg1.win 6).blk t).view.set ↔ ∀ a : Fin 2, win1_6.index t a * S5000x32.size a ≤ (i a).val
      ∧ (i a).val < win1_6.index t a * S5000x32.size a + S5000x32.size a := by
  show i ∈ ((View.whole main_v35).slice (win1_6.rect t)).set ↔ _
  rw [View.set_slice_whole, Rect.mem_set_unit]
  exact Iff.rfl

/-- The twenty blocks cover the array: row `r` lies in the block of point `r / 5000`. -/
theorem cover (i : S100000x32.Idx) :
    ∃ t : Fin cfg1.N, (cfg1.win 6).flush t = true ∧ i ∈ ((cfg1.win 6).blk t).view.set := by
  have hN : cfg1.N = 20 := Gen.N_1
  have hi0 : (i 0).val < 100000 := (i 0).isLt
  have hi1 : (i 1).val < 32 := (i 1).isLt
  obtain ⟨t, ht⟩ : ∃ t : Fin cfg1.N, t.val = (i 0).val / 5000 := ⟨⟨(i 0).val / 5000, by rw [hN]; omega⟩, rfl⟩
  have e0 : win1_6.index t (0 : Fin 2) = t.val := (idx_facts t).2.2.2.2.2.2.2.2.2.2.2.2.1
  have e1 : win1_6.index t (1 : Fin 2) = 0 := (idx_facts t).2.2.2.2.2.2.2.2.2.2.2.2.2
  refine ⟨t, Gen.flush1_6 t, ?_⟩
  rw [mem_blk]
  intro a
  match a with
  | ⟨0, _⟩ =>
    show win1_6.index t 0 * 5000 ≤ (i 0).val ∧ (i 0).val < win1_6.index t 0 * 5000 + 5000
    rw [e0, ht]; omega
  | ⟨1, _⟩ =>
    show win1_6.index t 1 * 32 ≤ (i 1).val ∧ (i 1).val < win1_6.index t 1 * 32 + 32
    rw [e1]; omega

/-- THE OUTPUT ARRAY AFTER THE REGION, at any contents `V` the region is entered with: every row is the
    specification's output of that row of the aggregated messages and of the features. -/
theorem final_arr (V : (c : Dev nD) → (b : Ref sig .tc) → Buf (Elt Ideal) ((c : Thread nD τ).loc b)) (c : Dev nD) :
    (Gen.dat1 (F := Ideal) V c).arrAt 6 cfg1.N
      = fun i => Cert.Spec.out (fun a => (V c (Pipeline.arrRef spec1 0) : S100000x32.Idx → EReal) (ix2 (i 0) a))
          (fun a => (V c (Pipeline.arrRef spec1 1) : S100000x32.Idx → EReal) (ix2 (i 0) a))
          (fun a => (V c (Pipeline.arrRef spec1 2) : S1x32.Idx → EReal) (ix2 0 a))
          (fun a => (V c (Pipeline.arrRef spec1 3) : S1x32.Idx → EReal) (ix2 0 a))
          (fun k a => (V c (Pipeline.arrRef spec1 4) : S32x32.Idx → EReal) (ix2 k a))
          (fun a => (V c (Pipeline.arrRef spec1 5) : S1x32.Idx → EReal) (ix2 0 a)) (i 1) :=
  (Gen.dat1 (F := Ideal) V c).arrAt_eq_of_cover 6
    (finalOf (V c (Pipeline.arrRef spec1 0) : S100000x32.Idx → EReal) (V c (Pipeline.arrRef spec1 1) : S100000x32.Idx → EReal)
        (V c (Pipeline.arrRef spec1 2) : S1x32.Idx → EReal) (V c (Pipeline.arrRef spec1 3) : S1x32.Idx → EReal)
        (V c (Pipeline.arrRef spec1 4) : S32x32.Idx → EReal) (V c (Pipeline.arrRef spec1 5) : S1x32.Idx → EReal))
    (fun t _ => flushed_eq V c t) cover

end Cert.KerSide

end
-- ==== Proof.KerValue.lean ====
/-
  The idealized kernel's result as one function of its twelve arguments.

  Between the launch and the first region the host slices the two rows of the edge index, wraps negative
  indices, gathers the target and source rows of x, reshapes the edge weights to a column and the biases to
  rows, and cuts each 80-row weight matrix into its three stretches; the first region then leaves the message
  of every edge; the host scatter-adds the messages by the raw target index into zeros and reshapes the three
  remaining parameter vectors to rows; the second region leaves the output. Reading each of these arrays back
  to the launch memory, and each reshape and slice at an index, the result array is: row r, column j, the
  specification's output of row r of the aggregated messages and of x.
-/
import proofs.«116415_j44418551775904_1_alg».proof.Proof.KerRun
import proofs.«116415_j44418551775904_1_alg».proof.Proof.GateArray
import proofs.«116415_j44418551775904_1_alg».proof.Proof.FinalArray
import Idealize.ShloMosaic.Lib.StableHlo.Run

set_option maxRecDepth 16384

noncomputable section

namespace Cert.KerSide

open Cert.KernelIdeal Cert.KernelIdeal.Gen
open Idealize.ShloMosaic Idealize.ShloMosaic.TcCoe Idealize.ShloMosaic.ValueIdx Idealize.SL.Sem Idealize.ShloMosaic.StableHlo

/-! ## The integer side, as the host computes it -/

/-- The source row of the edge index, as a vector. -/
def srcRow (EI : IVec S2x3200000 32) : IVec S3200000 32 :=
  shapeCast S3200000 (extractStridedSlice S1x3200000 ![0, 0] EI slices_S2x3200000_S1x3200000_0_0) shapeCasts_S1x3200000_S3200000

/-- The target row of the edge index, as a vector. -/
def dstRow (EI : IVec S2x3200000 32) : IVec S3200000 32 :=
  shapeCast S3200000 (extractStridedSlice S1x3200000 ![1, 0] EI slices_S2x3200000_S1x3200000_1_0) shapeCasts_S1x3200000_S3200000

/-- An index vector with its negative entries wrapped by the number of nodes, as a column. -/
def normCol (v : IVec S3200000 32) : IVec S3200000x1 32 :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 100000#32))) v)

variable (m : (ℓ : Loc nD τ sig) → Buf (Elt Ideal) ℓ) (ρ : Dev nD → PrngReg)

/-! ## The arrays the first region is entered with -/

theorem v1_v11 (c : Dev nD) : (StableHlo.after hostOps0 (W0 m ρ c) (Proc.devRef .tc main_v11) : S3200000x32.Idx → EReal)
    = Host.gather gather_S100000x32_S3200000x1_S3200000x32_1_0_n_n_0_1_132 (truncf (F := Ideal) .bf16 ((m ((c.tc : Thread nD τ).loc main_arg0)) : FVec Ideal S100000x32 .f32) bitsLt_bf16_f32) (normCol (dstRow (m ((c.tc : Thread nD τ).loc main_arg1)))) := by
  after_results
  try rfl

set_option maxHeartbeats 2000000 in
theorem v1_v18 (c : Dev nD) : (StableHlo.after hostOps0 (W0 m ρ c) (Proc.devRef .tc main_v18) : S3200000x32.Idx → EReal)
    = Host.gather gather_S100000x32_S3200000x1_S3200000x32_1_0_n_n_0_1_132 (truncf (F := Ideal) .bf16 ((m ((c.tc : Thread nD τ).loc main_arg0)) : FVec Ideal S100000x32 .f32) bitsLt_bf16_f32) (normCol (srcRow (m ((c.tc : Thread nD τ).loc main_arg1)))) := by
  after_results
  try rfl

theorem v1_arg2 (c : Dev nD) : (StableHlo.after hostOps0 (W0 m ρ c) (Proc.devRef .tc main_arg2) : S3200000x16.Idx → EReal)
    = (m ((c.tc : Thread nD τ).loc main_arg2)) := by
  after_results
  try rfl

theorem v1_v19 (c : Dev nD) : (StableHlo.after hostOps0 (W0 m ρ c) (Proc.devRef .tc main_v19) : S3200000x1.Idx → EReal)
    = shapeCast S3200000x1 ((m ((c.tc : Thread nD τ).loc main_arg3)) : S3200000.Idx → EReal) shapeCasts_S3200000_S3200000x1 := by
  after_results
  try rfl

theorem v1_v20 (c : Dev nD) : (StableHlo.after hostOps0 (W0 m ρ c) (Proc.devRef .tc main_v20) : S32x32.Idx → EReal)
    = extractStridedSlice S32x32 ![0, 0] ((m ((c.tc : Thread nD τ).loc main_arg4)) : S80x32.Idx → EReal) slices_S80x32_S32x32_0_0 := by
  after_results
  try rfl

theorem v1_v21 (c : Dev nD) : (StableHlo.after hostOps0 (W0 m ρ c) (Proc.devRef .tc main_v21) : S32x32.Idx → EReal)
    = extractStridedSlice S32x32 ![32, 0] ((m ((c.tc : Thread nD τ).loc main_arg4)) : S80x32.Idx → EReal) slices_S80x32_S32x32_32_0 := by
  after_results
  try rfl

theorem v1_v22 (c : Dev nD) : (StableHlo.after hostOps0 (W0 m ρ c) (Proc.devRef .tc main_v22) : S16x32.Idx → EReal)
    = extractStridedSlice S16x32 ![64, 0] ((m ((c.tc : Thread nD τ).loc main_arg4)) : S80x32.Idx → EReal) slices_S80x32_S16x32_64_0 := by
  after_results
  try rfl

theorem v1_v23 (c : Dev nD) : (StableHlo.after hostOps0 (W0 m ρ c) (Proc.devRef .tc main_v23) : S1x32.Idx → EReal)
    = shapeCast S1x32 ((m ((c.tc : Thread nD τ).loc main_arg5)) : S32.Idx → EReal) shapeCasts_S32_S1x32 := by
  after_results
  try rfl

theorem v1_v24 (c : Dev nD) : (StableHlo.after hostOps0 (W0 m ρ c) (Proc.devRef .tc main_v24) : S32x32.Idx → EReal)
    = extractStridedSlice S32x32 ![0, 0] ((m ((c.tc : Thread nD τ).loc main_arg6)) : S80x32.Idx → EReal) slices_S80x32_S32x32_0_0 := by
  after_results
  try rfl

theorem v1_v25 (c : Dev nD) : (StableHlo.after hostOps0 (W0 m ρ c) (Proc.devRef .tc main_v25) : S32x32.Idx → EReal)
    = extractStridedSlice S32x32 ![32, 0] ((m ((c.tc : Thread nD τ).loc main_arg6)) : S80x32.Idx → EReal) slices_S80x32_S32x32_32_0 := by
  after_results
  try rfl

theorem v1_v26 (c : Dev nD) : (StableHlo.after hostOps0 (W0 m ρ c) (Proc.devRef .tc main_v26) : S16x32.Idx → EReal)
    = extractStridedSlice S16x32 ![64, 0] ((m ((c.tc : Thread nD τ).loc main_arg6)) : S80x32.Idx → EReal) slices_S80x32_S16x32_64_0 := by
  after_results
  try rfl

theorem v1_v27 (c : Dev nD) : (StableHlo.after hostOps0 (W0 m ρ c) (Proc.devRef .tc main_v27) : S1x32.Idx → EReal)
    = shapeCast S1x32 ((m ((c.tc : Thread nD τ).loc main_arg7)) : S32.Idx → EReal) shapeCasts_S32_S1x32 := by
  after_results
  try rfl

theorem v1_v3 (c : Dev nD) : (StableHlo.after hostOps0 (W0 m ρ c) (Proc.devRef .tc main_v3) : IVec S3200000 32)
    = dstRow (m ((c.tc : Thread nD τ).loc main_arg1)) := by
  after_results
  try rfl

theorem v1_arg0 (c : Dev nD) : (StableHlo.after hostOps0 (W0 m ρ c) (Proc.devRef .tc main_arg0) : S100000x32.Idx → EReal)
    = (m ((c.tc : Thread nD τ).loc main_arg0)) := by
  after_results
  try rfl

theorem v1_arg8 (c : Dev nD) : (StableHlo.after hostOps0 (W0 m ρ c) (Proc.devRef .tc main_arg8) : S32.Idx → EReal)
    = (m ((c.tc : Thread nD τ).loc main_arg8)) := by
  after_results
  try rfl

theorem v1_arg9 (c : Dev nD) : (StableHlo.after hostOps0 (W0 m ρ c) (Proc.devRef .tc main_arg9) : S32.Idx → EReal)
    = (m ((c.tc : Thread nD τ).loc main_arg9)) := by
  after_results
  try rfl

theorem v1_arg10 (c : Dev nD) : (StableHlo.after hostOps0 (W0 m ρ c) (Proc.devRef .tc main_arg10) : S32x32.Idx → EReal)
    = (m ((c.tc : Thread nD τ).loc main_arg10)) := by
  after_results
  try rfl

theorem v1_arg11 (c : Dev nD) : (StableHlo.after hostOps0 (W0 m ρ c) (Proc.devRef .tc main_arg11) : S32.Idx → EReal)
    = (m ((c.tc : Thread nD τ).loc main_arg11)) := by
  after_results
  try rfl

/-! ## The arrays the second region is entered with, over the first region's exit contents -/

theorem v3_v31 (c : Dev nD) : (StableHlo.after hostOps1 (W2 m ρ c) (Proc.devRef .tc main_v31) : S100000x32.Idx → EReal)
    = Host.scatterAdd scatter_S100000x32_S3200000x1_S3200000x32_1_0_0_1 (broadcastInDim S100000x32 ![] bcast_S_S100000x32 (constant (F := Ideal) S_ .f32 0x00000000#32)) (broadcastInDim S3200000x1 ![0] bcast_S3200000_S3200000x1_0 (W2 m ρ c (Proc.devRef .tc main_v3) : IVec S3200000 32)) (W2 m ρ c (Proc.devRef .tc main_v28) : FVec Ideal S3200000x32 .f32) := by
  after_results
  try rfl

theorem v3_arg0 (c : Dev nD) : (StableHlo.after hostOps1 (W2 m ρ c) (Proc.devRef .tc main_arg0) : S100000x32.Idx → EReal)
    = (W2 m ρ c (Proc.devRef .tc main_arg0) : S100000x32.Idx → EReal) := by
  after_results
  try rfl

theorem v3_v32 (c : Dev nD) : (StableHlo.after hostOps1 (W2 m ρ c) (Proc.devRef .tc main_v32) : S1x32.Idx → EReal)
    = shapeCast S1x32 (W2 m ρ c (Proc.devRef .tc main_arg8) : S32.Idx → EReal) shapeCasts_S32_S1x32 := by
  after_results
  try rfl

theorem v3_v33 (c : Dev nD) : (StableHlo.after hostOps1 (W2 m ρ c) (Proc.devRef .tc main_v33) : S1x32.Idx → EReal)
    = shapeCast S1x32 (W2 m ρ c (Proc.devRef .tc main_arg9) : S32.Idx → EReal) shapeCasts_S32_S1x32 := by
  after_results
  try rfl

theorem v3_arg10 (c : Dev nD) : (StableHlo.after hostOps1 (W2 m ρ c) (Proc.devRef .tc main_arg10) : S32x32.Idx → EReal)
    = (W2 m ρ c (Proc.devRef .tc main_arg10) : S32x32.Idx → EReal) := by
  after_results
  try rfl

theorem v3_v34 (c : Dev nD) : (StableHlo.after hostOps1 (W2 m ρ c) (Proc.devRef .tc main_v34) : S1x32.Idx → EReal)
    = shapeCast S1x32 (W2 m ρ c (Proc.devRef .tc main_arg11) : S32.Idx → EReal) shapeCasts_S32_S1x32 := by
  after_results
  try rfl

/-! ## Reshapes and slices at an index -/

section Layout
variable {α : Type}

/-- Rows off … off + n − 1 of a matrix, all columns, read at (k, a). -/
theorem slice_rows_apply {R n C : ℕ} (off : ℕ) (x : (⟨2, ![R, C]⟩ : Shape).Idx → α)
    (h : (⟨2, ![R, C]⟩ : Shape).Slices ![off, 0] ⟨2, ![n, C]⟩) (k : Fin n) (a : Fin C) (r : Fin R) (hr : r.val = off + k.val) :
    extractStridedSlice ⟨2, ![n, C]⟩ ![off, 0] x h (ix2 k a) = x (ix2 r a) :=
  extractStridedSlice_apply _ x h _ _ (fun ax => by
    match ax with
    | ⟨0, _⟩ => exact hr
    | ⟨1, _⟩ => show a.val = 0 + a.val; omega)

/-- Two messages agree when their twelve ingredients do. -/
theorem msg_congr {xi xi' xj xj' : Fin 32 → EReal} {ea ea' : Fin 16 → EReal} {ew ew' : EReal}
    {wfi wfi' wfj wfj' : Fin 32 → Fin 32 → EReal} {wfe wfe' : Fin 16 → Fin 32 → EReal} {bf bf' : Fin 32 → EReal}
    {wsi wsi' wsj wsj' : Fin 32 → Fin 32 → EReal} {wse wse' : Fin 16 → Fin 32 → EReal} {bs bs' : Fin 32 → EReal} (j : Fin 32)
    (h1 : xi = xi') (h2 : xj = xj') (h3 : ea = ea') (h4 : ew = ew') (h5 : wfi = wfi') (h6 : wfj = wfj') (h7 : wfe = wfe')
    (h8 : bf = bf') (h9 : wsi = wsi') (h10 : wsj = wsj') (h11 : wse = wse') (h12 : bs = bs') :
    Cert.Spec.msg xi xj ea ew wfi wfj wfe bf wsi wsj wse bs j = Cert.Spec.msg xi' xj' ea' ew' wfi' wfj' wfe' bf' wsi' wsj' wse' bs' j := by
  subst h1 h2 h3 h4 h5 h6 h7 h8 h9 h10 h11 h12; rfl

/-- A vector of 32 kept as the row [1, 32] reads, at (0, a), the vector at a. -/
theorem row_apply (x : (⟨1, ![32]⟩ : Shape).Idx → α) (h : (⟨1, ![32]⟩ : Shape).ShapeCasts ⟨2, ![1, 32]⟩) (a : Fin 32) :
    shapeCast ⟨2, ![1, 32]⟩ x h (ix2 (0 : Fin 1) a) = x (ix1 a) :=
  shapeCast_apply x h _ _ (by
    rw [Shape.rowMajor_val_two, Shape.rowMajor_val_one]
    show a.val = 0 * 32 + a.val
    omega)

end Layout

/-! ## The result as one function of the arguments -/

/-- The gathered target rows of x. -/
def xi (X : S100000x32.Idx → EReal) (EI : IVec S2x3200000 32) : S3200000x32.Idx → EReal :=
  Host.gather gather_S100000x32_S3200000x1_S3200000x32_1_0_n_n_0_1_132 X (normCol (dstRow EI))

/-- The gathered source rows of x. -/
def xj (X : S100000x32.Idx → EReal) (EI : IVec S2x3200000 32) : S3200000x32.Idx → EReal :=
  Host.gather gather_S100000x32_S3200000x1_S3200000x32_1_0_n_n_0_1_132 X (normCol (srcRow EI))

/-- The message of every edge at every column, from the arguments. -/
def msgArr (X : S100000x32.Idx → EReal) (EI : IVec S2x3200000 32) (EA : S3200000x16.Idx → EReal) (EW : S3200000.Idx → EReal) (WF : S80x32.Idx → EReal) (BF : S32.Idx → EReal) (WS : S80x32.Idx → EReal) (BS : S32.Idx → EReal) : S3200000x32.Idx → EReal := fun i =>
  Cert.Spec.msg (fun k => xi X EI (ix2 (i 0) k)) (fun k => xj X EI (ix2 (i 0) k)) (fun k => EA (ix2 (i 0) k)) (EW (ix1 (i 0)))
    (fun k a => WF (ix2 ⟨k.val, by omega⟩ a)) (fun k a => WF (ix2 ⟨32 + k.val, by omega⟩ a)) (fun k a => WF (ix2 ⟨64 + k.val, by omega⟩ a)) (fun a => BF (ix1 a))
    (fun k a => WS (ix2 ⟨k.val, by omega⟩ a)) (fun k a => WS (ix2 ⟨32 + k.val, by omega⟩ a)) (fun k a => WS (ix2 ⟨64 + k.val, by omega⟩ a)) (fun a => BS (ix1 a)) (i 1)

/-- The messages scatter-added by the raw target index into zeros. -/
def agg (X : S100000x32.Idx → EReal) (EI : IVec S2x3200000 32) (EA : S3200000x16.Idx → EReal) (EW : S3200000.Idx → EReal) (WF : S80x32.Idx → EReal) (BF : S32.Idx → EReal) (WS : S80x32.Idx → EReal) (BS : S32.Idx → EReal) : S100000x32.Idx → EReal :=
  Host.scatterAdd scatter_S100000x32_S3200000x1_S3200000x32_1_0_0_1
    (broadcastInDim S100000x32 ![] bcast_S_S100000x32 (constant (F := Ideal) S_ .f32 0x00000000#32))
    (broadcastInDim S3200000x1 ![0] bcast_S3200000_S3200000x1_0 (dstRow EI)) (msgArr X EI EA EW WF BF WS BS)

/-- The layer's output, from the arguments. -/
def result (X : S100000x32.Idx → EReal) (EI : IVec S2x3200000 32) (EA : S3200000x16.Idx → EReal) (EW : S3200000.Idx → EReal) (WF : S80x32.Idx → EReal) (BF : S32.Idx → EReal) (WS : S80x32.Idx → EReal) (BS : S32.Idx → EReal) (G : S32.Idx → EReal) (B : S32.Idx → EReal) (W : S32x32.Idx → EReal) (LB : S32.Idx → EReal) : S100000x32.Idx → EReal := fun i =>
  Cert.Spec.out (fun a => agg X EI EA EW WF BF WS BS (ix2 (i 0) a)) (fun a => X (ix2 (i 0) a)) (fun a => G (ix1 a)) (fun a => B (ix1 a))
    (fun k a => W (ix2 k a)) (fun a => LB (ix1 a)) (i 1)

/-- The message array the first region leaves, read back to the launch memory. -/
theorem gate_of_args (c : Dev nD) :
    gateArr (V1 m ρ) c = msgArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext i
  obtain ⟨e, j, rfl⟩ : ∃ (e : Fin 3200000) (j : Fin 32), i = ix2 e j := ⟨i 0, i 1, eq_ix2 i⟩
  unfold gateArr msgArr xi xj
  show Cert.Spec.msg
      (fun k => (StableHlo.after hostOps0 (W0 m ρ c) (Proc.devRef .tc main_v11) : S3200000x32.Idx → EReal) (ix2 e k))
      (fun k => (StableHlo.after hostOps0 (W0 m ρ c) (Proc.devRef .tc main_v18) : S3200000x32.Idx → EReal) (ix2 e k))
      (fun k => (StableHlo.after hostOps0 (W0 m ρ c) (Proc.devRef .tc main_arg2) : S3200000x16.Idx → EReal) (ix2 e k))
      ((StableHlo.after hostOps0 (W0 m ρ c) (Proc.devRef .tc main_v19) : S3200000x1.Idx → EReal) (ix2 e (0 : Fin 1)))
      (fun k a => (StableHlo.after hostOps0 (W0 m ρ c) (Proc.devRef .tc main_v20) : S32x32.Idx → EReal) (ix2 k a))
      (fun k a => (StableHlo.after hostOps0 (W0 m ρ c) (Proc.devRef .tc main_v21) : S32x32.Idx → EReal) (ix2 k a))
      (fun k a => (StableHlo.after hostOps0 (W0 m ρ c) (Proc.devRef .tc main_v22) : S16x32.Idx → EReal) (ix2 k a))
      (fun a => (StableHlo.after hostOps0 (W0 m ρ c) (Proc.devRef .tc main_v23) : S1x32.Idx → EReal) (ix2 (0 : Fin 1) a))
      (fun k a => (StableHlo.after hostOps0 (W0 m ρ c) (Proc.devRef .tc main_v24) : S32x32.Idx → EReal) (ix2 k a))
      (fun k a => (StableHlo.after hostOps0 (W0 m ρ c) (Proc.devRef .tc main_v25) : S32x32.Idx → EReal) (ix2 k a))
      (fun k a => (StableHlo.after hostOps0 (W0 m ρ c) (Proc.devRef .tc main_v26) : S16x32.Idx → EReal) (ix2 k a))
      (fun a => (StableHlo.after hostOps0 (W0 m ρ c) (Proc.devRef .tc main_v27) : S1x32.Idx → EReal) (ix2 (0 : Fin 1) a)) j = _
  rw [v1_v11, v1_v18, v1_arg2, v1_v19, v1_v20, v1_v21, v1_v22, v1_v23, v1_v24, v1_v25, v1_v26, v1_v27]
  exact msg_congr j rfl rfl rfl (shapeCast_a_a1_apply _ _ e 0)
    (funext fun k => funext fun a => slice_rows_apply 0 _ _ k a ⟨k.val, by omega⟩ (Nat.zero_add _).symm)
    (funext fun k => funext fun a => slice_rows_apply 32 _ _ k a ⟨32 + k.val, by omega⟩ rfl)
    (funext fun k => funext fun a => slice_rows_apply 64 _ _ k a ⟨64 + k.val, by omega⟩ rfl)
    (funext fun a => row_apply _ _ a)
    (funext fun k => funext fun a => slice_rows_apply 0 _ _ k a ⟨k.val, by omega⟩ (Nat.zero_add _).symm)
    (funext fun k => funext fun a => slice_rows_apply 32 _ _ k a ⟨32 + k.val, by omega⟩ rfl)
    (funext fun k => funext fun a => slice_rows_apply 64 _ _ k a ⟨64 + k.val, by omega⟩ rfl)
    (funext fun a => row_apply _ _ a)

/-- The first region's exit contents at the message array, the target row and the arguments the second region reads. -/
theorem w2_v28 (c : Dev nD) : (W2 m ρ c (Proc.devRef .tc main_v28) : FVec Ideal S3200000x32 .f32)
    = msgArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W2_arr m ρ c 12).trans ((gate_final (V1 m ρ) c).trans (gate_of_args m ρ c))
theorem w2_v3 (c : Dev nD) : (W2 m ρ c (Proc.devRef .tc main_v3) : IVec S3200000 32) = dstRow (m ((c.tc : Thread nD τ).loc main_arg1)) :=
  (W2_of_ne m ρ c main_v3 (by decide)).trans (v1_v3 m ρ c)
theorem w2_arg0 (c : Dev nD) : (W2 m ρ c (Proc.devRef .tc main_arg0) : S100000x32.Idx → EReal) = (m ((c.tc : Thread nD τ).loc main_arg0)) :=
  (W2_of_ne m ρ c main_arg0 (by decide)).trans (v1_arg0 m ρ c)
theorem w2_arg8 (c : Dev nD) : (W2 m ρ c (Proc.devRef .tc main_arg8) : S32.Idx → EReal) = (m ((c.tc : Thread nD τ).loc main_arg8)) :=
  (W2_of_ne m ρ c main_arg8 (by decide)).trans (v1_arg8 m ρ c)
theorem w2_arg9 (c : Dev nD) : (W2 m ρ c (Proc.devRef .tc main_arg9) : S32.Idx → EReal) = (m ((c.tc : Thread nD τ).loc main_arg9)) :=
  (W2_of_ne m ρ c main_arg9 (by decide)).trans (v1_arg9 m ρ c)
theorem w2_arg10 (c : Dev nD) : (W2 m ρ c (Proc.devRef .tc main_arg10) : S32x32.Idx → EReal) = (m ((c.tc : Thread nD τ).loc main_arg10)) :=
  (W2_of_ne m ρ c main_arg10 (by decide)).trans (v1_arg10 m ρ c)
theorem w2_arg11 (c : Dev nD) : (W2 m ρ c (Proc.devRef .tc main_arg11) : S32.Idx → EReal) = (m ((c.tc : Thread nD τ).loc main_arg11)) :=
  (W2_of_ne m ρ c main_arg11 (by decide)).trans (v1_arg11 m ρ c)

/-- The result array after the run is the layer's output of the launch memory's arguments. -/
theorem ker_value (c : Dev nD) :
    (W4 m ρ c (Proc.devRef .tc main_v35) : S100000x32.Idx → EReal) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine ((W4_arr m ρ c 6).trans (final_arr (V3 m ρ) c)).trans ?_
  funext i
  unfold result agg
  show Cert.Spec.out
      (fun a => (StableHlo.after hostOps1 (W2 m ρ c) (Proc.devRef .tc main_v31) : S100000x32.Idx → EReal) (ix2 (i 0) a))
      (fun a => (StableHlo.after hostOps1 (W2 m ρ c) (Proc.devRef .tc main_arg0) : S100000x32.Idx → EReal) (ix2 (i 0) a))
      (fun a => (StableHlo.after hostOps1 (W2 m ρ c) (Proc.devRef .tc main_v32) : S1x32.Idx → EReal) (ix2 0 a))
      (fun a => (StableHlo.after hostOps1 (W2 m ρ c) (Proc.devRef .tc main_v33) : S1x32.Idx → EReal) (ix2 0 a))
      (fun k a => (StableHlo.after hostOps1 (W2 m ρ c) (Proc.devRef .tc main_arg10) : S32x32.Idx → EReal) (ix2 k a))
      (fun a => (StableHlo.after hostOps1 (W2 m ρ c) (Proc.devRef .tc main_v34) : S1x32.Idx → EReal) (ix2 0 a)) (i 1) = _
  rw [v3_v31, v3_arg0, v3_v32, v3_v33, v3_arg10, v3_v34, w2_v28, w2_v3, w2_arg0, w2_arg8, w2_arg9, w2_arg10, w2_arg11]
  simp only [row_apply]

end Cert.KerSide

end
-- ==== Proof.RefRun.lean ====
/-
  The reference program as one straight line of array operations, and its run.

  The program is 74 operations of its own and three calls: the softplus (14 operations), the variance (20, and
  the 3 of the selection guarding its denominator) and the exponential linear unit (11, and the 4 of its two
  selections). A call executes the callee's body on the operands, every value of the body in a buffer of its
  own, so the whole program is the 126 operations below in program order. They are cut into five stretches,
  one per stage of the layer, so that each stage can be read by itself.

  The run: from any memory with zero counters every weakly fair execution terminates, and every buffer ends at
  the fold of the 126 operations over the launch contents.
-/
import proofs.«116415_j44418551775904_1_alg».proof.Proof.Gen.ReferenceIdeal
import Idealize.ShloMosaic.Lib.StableHlo.Run
import Idealize.ShloMosaic.Lib.Pipeline.Frame

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Operations 1 … 23 of 126: the two rows of the edge list, their indices normalised into range, the target and source rows gathered, and the concatenation with the edge attributes. -/
abbrev opsGather : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.nullary main_c (constantI S_ 32 0#32),
    StableHlo.unary main_c main_v4 (broadcastInDim S3200000 ![] bcast_S_S3200000 : (⟨S_, .i32⟩ : BufTy).Contents (Elt F) → (⟨S3200000, .i32⟩ : BufTy).Contents (Elt F)),
    StableHlo.binary main_v3 main_v4 main_v5 (cmpi .slt : (⟨S3200000, .i32⟩ : BufTy).Contents (Elt F) → (⟨S3200000, .i32⟩ : BufTy).Contents (Elt F) → (⟨S3200000, .i1⟩ : BufTy).Contents (Elt F)),
    StableHlo.nullary main_c_0 (constantI S_ 32 100000#32),
    StableHlo.unary main_c_0 main_v6 (broadcastInDim S3200000 ![] bcast_S_S3200000 : (⟨S_, .i32⟩ : BufTy).Contents (Elt F) → (⟨S3200000, .i32⟩ : BufTy).Contents (Elt F)),
    StableHlo.binary main_v3 main_v6 main_v7 (addi : (⟨S3200000, .i32⟩ : BufTy).Contents (Elt F) → (⟨S3200000, .i32⟩ : BufTy).Contents (Elt F) → (⟨S3200000, .i32⟩ : BufTy).Contents (Elt F)),
    StableHlo.ternary main_v5 main_v7 main_v3 main_v8 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v8 main_v9 (broadcastInDim S3200000x1 ![0] bcast_S3200000_S3200000x1_0 : (⟨S3200000, .i32⟩ : BufTy).Contents (Elt F) → (⟨S3200000x1, .i32⟩ : BufTy).Contents (Elt F)),
    StableHlo.binary main_arg0 main_v9 main_v10 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_c_1 (constantI S_ 32 0#32),
    StableHlo.unary main_c_1 main_v11 (broadcastInDim S3200000 ![] bcast_S_S3200000 : (⟨S_, .i32⟩ : BufTy).Contents (Elt F) → (⟨S3200000, .i32⟩ : BufTy).Contents (Elt F)),
    StableHlo.binary main_v1 main_v11 main_v12 (cmpi .slt : (⟨S3200000, .i32⟩ : BufTy).Contents (Elt F) → (⟨S3200000, .i32⟩ : BufTy).Contents (Elt F) → (⟨S3200000, .i1⟩ : BufTy).Contents (Elt F)),
    StableHlo.nullary main_c_2 (constantI S_ 32 100000#32),
    StableHlo.unary main_c_2 main_v13 (broadcastInDim S3200000 ![] bcast_S_S3200000 : (⟨S_, .i32⟩ : BufTy).Contents (Elt F) → (⟨S3200000, .i32⟩ : BufTy).Contents (Elt F)),
    StableHlo.binary main_v1 main_v13 main_v14 (addi : (⟨S3200000, .i32⟩ : BufTy).Contents (Elt F) → (⟨S3200000, .i32⟩ : BufTy).Contents (Elt F) → (⟨S3200000, .i32⟩ : BufTy).Contents (Elt F)),
    StableHlo.ternary main_v12 main_v14 main_v1 main_v15 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v15 main_v16 (broadcastInDim S3200000x1 ![0] bcast_S3200000_S3200000x1_0 : (⟨S3200000, .i32⟩ : BufTy).Contents (Elt F) → (⟨S3200000x1, .i32⟩ : BufTy).Contents (Elt F)),
    StableHlo.binary main_arg0 main_v16 main_v17 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nary ![main_v10, main_v17, main_arg2] main_v18 (fun u => concatenate S3200000x80 1 [⟨S3200000x32, u 0⟩, ⟨S3200000x32, u 1⟩, ⟨S3200000x16, u 2⟩] concatenates_S3200000x32_S3200000x32_S3200000x16_S3200000x80_d1) ]

/-- Operations 24 … 57 of 126: both affine maps of the 80 concatenated features, the logistic gate, the softplus of the second map (its fourteen operations in line), and the product with the edge weight. -/
abbrev opsMessage : List (HloOp τ sig (Elt F)) :=
  [ StableHlo.binary main_v18 main_arg4 main_v19 ((fun l r => Host.dotGeneral dot_S3200000x80_S80x32_S3200000x32_1_0_0_1_n_n none l r) : (⟨S3200000x80, .f32⟩ : BufTy).Contents (Elt F) → (⟨S80x32, .f32⟩ : BufTy).Contents (Elt F) → (⟨S3200000x32, .f32⟩ : BufTy).Contents (Elt F)),
    StableHlo.unary main_arg5 main_v20 (broadcastInDim S1x32 ![1] bcast_S32_S1x32_1 : (⟨S32, .f32⟩ : BufTy).Contents (Elt F) → (⟨S1x32, .f32⟩ : BufTy).Contents (Elt F)),
    StableHlo.unary main_v20 main_v21 (broadcastInDim S3200000x32 ![0, 1] bcast_S1x32_S3200000x32_0_1 : (⟨S1x32, .f32⟩ : BufTy).Contents (Elt F) → (⟨S3200000x32, .f32⟩ : BufTy).Contents (Elt F)),
    StableHlo.binary main_v19 main_v21 main_v22 (addf : (⟨S3200000x32, .f32⟩ : BufTy).Contents (Elt F) → (⟨S3200000x32, .f32⟩ : BufTy).Contents (Elt F) → (⟨S3200000x32, .f32⟩ : BufTy).Contents (Elt F)),
    StableHlo.unary main_v22 main_v23 (Host.negf : (⟨S3200000x32, .f32⟩ : BufTy).Contents (Elt F) → (⟨S3200000x32, .f32⟩ : BufTy).Contents (Elt F)),
    StableHlo.unary main_v23 main_v24 (Host.exp : (⟨S3200000x32, .f32⟩ : BufTy).Contents (Elt F) → (⟨S3200000x32, .f32⟩ : BufTy).Contents (Elt F)),
    StableHlo.nullary main_cst (constant S_ .f32 0x3F800000#32),
    StableHlo.unary main_cst main_v25 (broadcastInDim S3200000x32 ![] bcast_S_S3200000x32 : (⟨S_, .f32⟩ : BufTy).Contents (Elt F) → (⟨S3200000x32, .f32⟩ : BufTy).Contents (Elt F)),
    StableHlo.binary main_v25 main_v24 main_v26 (addf : (⟨S3200000x32, .f32⟩ : BufTy).Contents (Elt F) → (⟨S3200000x32, .f32⟩ : BufTy).Contents (Elt F) → (⟨S3200000x32, .f32⟩ : BufTy).Contents (Elt F)),
    StableHlo.nullary main_cst_3 (constant S_ .f32 0x3F800000#32),
    StableHlo.unary main_cst_3 main_v27 (broadcastInDim S3200000x32 ![] bcast_S_S3200000x32 : (⟨S_, .f32⟩ : BufTy).Contents (Elt F) → (⟨S3200000x32, .f32⟩ : BufTy).Contents (Elt F)),
    StableHlo.binary main_v27 main_v26 main_v28 (Host.divf : (⟨S3200000x32, .f32⟩ : BufTy).Contents (Elt F) → (⟨S3200000x32, .f32⟩ : BufTy).Contents (Elt F) → (⟨S3200000x32, .f32⟩ : BufTy).Contents (Elt F)),
    StableHlo.binary main_v18 main_arg6 main_v29 ((fun l r => Host.dotGeneral dot_S3200000x80_S80x32_S3200000x32_1_0_0_1_n_n none l r) : (⟨S3200000x80, .f32⟩ : BufTy).Contents (Elt F) → (⟨S80x32, .f32⟩ : BufTy).Contents (Elt F) → (⟨S3200000x32, .f32⟩ : BufTy).Contents (Elt F)),
    StableHlo.unary main_arg7 main_v30 (broadcastInDim S1x32 ![1] bcast_S32_S1x32_1 : (⟨S32, .f32⟩ : BufTy).Contents (Elt F) → (⟨S1x32, .f32⟩ : BufTy).Contents (Elt F)),
    StableHlo.unary main_v30 main_v31 (broadcastInDim S3200000x32 ![0, 1] bcast_S1x32_S3200000x32_0_1 : (⟨S1x32, .f32⟩ : BufTy).Contents (Elt F) → (⟨S3200000x32, .f32⟩ : BufTy).Contents (Elt F)),
    StableHlo.binary main_v29 main_v31 main_v32 (addf : (⟨S3200000x32, .f32⟩ : BufTy).Contents (Elt F) → (⟨S3200000x32, .f32⟩ : BufTy).Contents (Elt F) → (⟨S3200000x32, .f32⟩ : BufTy).Contents (Elt F)),
    StableHlo.TRef.nullary main_call0.cst (constant S_ .f32 0x00000000#32),
    StableHlo.TRef.unary main_call0.cst main_call0.v0 (broadcastInDim S3200000x32 ![] bcast_S_S3200000x32),
    StableHlo.TRef.binary (.of main_v32 : StableHlo.TRef sig ⟨S3200000x32, .f32⟩) main_call0.v0 main_call0.v1 maximumf,
    StableHlo.TRef.unary main_call0.cst main_call0.v2 (broadcastInDim S3200000x32 ![] bcast_S_S3200000x32),
    StableHlo.TRef.binary (.of main_v32 : StableHlo.TRef sig ⟨S3200000x32, .f32⟩) main_call0.v2 main_call0.v3 subf,
    StableHlo.TRef.binary main_call0.v3 main_call0.v3 main_call0.v4 (cmpf .une),
    StableHlo.TRef.unary main_call0.cst main_call0.v5 (broadcastInDim S3200000x32 ![] bcast_S_S3200000x32),
    StableHlo.TRef.binary (.of main_v32 : StableHlo.TRef sig ⟨S3200000x32, .f32⟩) main_call0.v5 main_call0.v6 addf,
    StableHlo.TRef.unary main_call0.v3 main_call0.v7 Host.absf,
    StableHlo.TRef.unary main_call0.v7 main_call0.v8 Host.negf,
    StableHlo.TRef.unary main_call0.v8 main_call0.v9 Host.exp,
    StableHlo.TRef.unary main_call0.v9 main_call0.v10 Host.log1p,
    StableHlo.TRef.binary main_call0.v1 main_call0.v10 main_call0.v11 addf,
    StableHlo.TRef.ternary main_call0.v4 main_call0.v6 main_call0.v11 main_call0.v12 select,
    StableHlo.unary main_arg3 main_v34 (broadcastInDim S3200000x1 ![0] bcast_S3200000_S3200000x1_0 : (⟨S3200000, .f32⟩ : BufTy).Contents (Elt F) → (⟨S3200000x1, .f32⟩ : BufTy).Contents (Elt F)),
    StableHlo.unary main_v34 main_v35 (broadcastInDim S3200000x32 ![0, 1] bcast_S3200000x1_S3200000x32_0_1 : (⟨S3200000x1, .f32⟩ : BufTy).Contents (Elt F) → (⟨S3200000x32, .f32⟩ : BufTy).Contents (Elt F)),
    StableHlo.binary main_v35 main_v28 main_v36 (mulf : (⟨S3200000x32, .f32⟩ : BufTy).Contents (Elt F) → (⟨S3200000x32, .f32⟩ : BufTy).Contents (Elt F) → (⟨S3200000x32, .f32⟩ : BufTy).Contents (Elt F)),
    StableHlo.binary main_v36 main_v33 main_v37 (mulf : (⟨S3200000x32, .f32⟩ : BufTy).Contents (Elt F) → (⟨S3200000x32, .f32⟩ : BufTy).Contents (Elt F) → (⟨S3200000x32, .f32⟩ : BufTy).Contents (Elt F)) ]

/-- Operations 58 … 62 of 126: the zero array, the raw target column, the scatter-add of the messages into it, and the residual sum with the node features. -/
abbrev opsAggregate : List (HloOp τ sig (Elt F)) :=
  [ StableHlo.nullary main_cst_4 (constant S_ .f32 0x00000000#32),
    StableHlo.unary main_cst_4 main_v38 (broadcastInDim S100000x32 ![] bcast_S_S100000x32 : (⟨S_, .f32⟩ : BufTy).Contents (Elt F) → (⟨S100000x32, .f32⟩ : BufTy).Contents (Elt F)),
    StableHlo.unary main_v3 main_v39 (broadcastInDim S3200000x1 ![0] bcast_S3200000_S3200000x1_0 : (⟨S3200000, .i32⟩ : BufTy).Contents (Elt F) → (⟨S3200000x1, .i32⟩ : BufTy).Contents (Elt F)),
    StableHlo.ternary main_v38 main_v39 main_v37 main_v40 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.binary main_v40 main_arg0 main_v41 (addf : (⟨S100000x32, .f32⟩ : BufTy).Contents (Elt F) → (⟨S100000x32, .f32⟩ : BufTy).Contents (Elt F) → (⟨S100000x32, .f32⟩ : BufTy).Contents (Elt F)) ]

/-- Operations 63 … 95 of 126: the row mean, the variance (its twenty operations and the three of its guard in line), the centred rows and the epsilon constant. -/
abbrev opsMoments : List (HloOp τ sig (Elt F)) :=
  [ StableHlo.nullary main_cst_5 (constant S_ .f32 0x00000000#32),
    StableHlo.binary main_v41 main_cst_5 main_v42 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    StableHlo.unary main_v42 main_v43 (broadcastInDim S100000x1 ![0] bcast_S100000_S100000x1_0 : (⟨S100000, .f32⟩ : BufTy).Contents (Elt F) → (⟨S100000x1, .f32⟩ : BufTy).Contents (Elt F)),
    StableHlo.nullary main_cst_6 (constant S_ .f32 0x42000000#32),
    StableHlo.unary main_cst_6 main_v44 (broadcastInDim S100000x1 ![] bcast_S_S100000x1 : (⟨S_, .f32⟩ : BufTy).Contents (Elt F) → (⟨S100000x1, .f32⟩ : BufTy).Contents (Elt F)),
    StableHlo.binary main_v43 main_v44 main_v45 (Host.divf : (⟨S100000x1, .f32⟩ : BufTy).Contents (Elt F) → (⟨S100000x1, .f32⟩ : BufTy).Contents (Elt F) → (⟨S100000x1, .f32⟩ : BufTy).Contents (Elt F)),
    StableHlo.nullary main_c_7 (constantI S_ 32 0#32),
    StableHlo.TRef.nullary main_call1.cst (constant S_ .f32 0x00000000#32),
    StableHlo.TRef.binary (.of main_v41 : StableHlo.TRef sig ⟨S100000x32, .f32⟩) main_call1.cst main_call1.v0 (fun x v => Host.reduceAdd x v reducesTo_S100000x32_S100000_d1 h_S_),
    StableHlo.TRef.unary main_call1.v0 main_call1.v1 (broadcastInDim S100000x1 ![0] bcast_S100000_S100000x1_0),
    StableHlo.TRef.nullary main_call1.cst_0 (constant S_ .f32 0x42000000#32),
    StableHlo.TRef.unary main_call1.cst_0 main_call1.v2 (broadcastInDim S100000x1 ![] bcast_S_S100000x1),
    StableHlo.TRef.binary main_call1.v1 main_call1.v2 main_call1.v3 Host.divf,
    StableHlo.TRef.unary main_call1.v3 main_call1.v4 (broadcastInDim S100000x32 ![0, 1] bcast_S100000x1_S100000x32_0_1),
    StableHlo.TRef.binary (.of main_v41 : StableHlo.TRef sig ⟨S100000x32, .f32⟩) main_call1.v4 main_call1.v5 subf,
    StableHlo.TRef.binary main_call1.v5 main_call1.v5 main_call1.v6 mulf,
    StableHlo.TRef.unary (.of main_c_7 : StableHlo.TRef sig ⟨S_, .i32⟩) main_call1.v7 (sitofp .f32),
    StableHlo.TRef.nullary main_call1.cst_1 (constant S_ .f32 0x42000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x32_S100000_d1 h_S_),
    StableHlo.TRef.unary main_call1.v9 main_call1.v10 (broadcastInDim S100000x1 ![0] bcast_S100000_S100000x1_0),
    StableHlo.TRef.unary main_call1.v8 main_call1.v11 (broadcastInDim S100000x1 ![] bcast_S_S100000x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S100000x1 ![] bcast_S_S100000x1),
    StableHlo.TRef.ternary main_call1.v13 main_call1.v12 main_call1.call0.v1 main_call1.call0.v2 (fun p a b => select (broadcastInDim S100000x1 ![] bcast_S_S100000x1 p) a b),
    StableHlo.unary main_v45 main_v47 (broadcastInDim S100000x32 ![0, 1] bcast_S100000x1_S100000x32_0_1 : (⟨S100000x1, .f32⟩ : BufTy).Contents (Elt F) → (⟨S100000x32, .f32⟩ : BufTy).Contents (Elt F)),
    StableHlo.binary main_v41 main_v47 main_v48 (subf : (⟨S100000x32, .f32⟩ : BufTy).Contents (Elt F) → (⟨S100000x32, .f32⟩ : BufTy).Contents (Elt F) → (⟨S100000x32, .f32⟩ : BufTy).Contents (Elt F)),
    StableHlo.nullary main_cst_8 (constant S_ .f32 0x3727C5AC#32) ]

/-- Operations 96 … 126 of 126: the normalisation by the reciprocal square root, scale and shift, the 32×32 product with bias and residual, and the exponential linear unit (its eleven operations and the four of its two selections in line). -/
abbrev opsOutput : List (HloOp τ sig (Elt F)) :=
  [ StableHlo.unary main_cst_8 main_v49 (broadcastInDim S100000x1 ![] bcast_S_S100000x1 : (⟨S_, .f32⟩ : BufTy).Contents (Elt F) → (⟨S100000x1, .f32⟩ : BufTy).Contents (Elt F)),
    StableHlo.binary main_v46 main_v49 main_v50 (addf : (⟨S100000x1, .f32⟩ : BufTy).Contents (Elt F) → (⟨S100000x1, .f32⟩ : BufTy).Contents (Elt F) → (⟨S100000x1, .f32⟩ : BufTy).Contents (Elt F)),
    StableHlo.unary main_v50 main_v51 (Host.rsqrt : (⟨S100000x1, .f32⟩ : BufTy).Contents (Elt F) → (⟨S100000x1, .f32⟩ : BufTy).Contents (Elt F)),
    StableHlo.unary main_v51 main_v52 (broadcastInDim S100000x32 ![0, 1] bcast_S100000x1_S100000x32_0_1 : (⟨S100000x1, .f32⟩ : BufTy).Contents (Elt F) → (⟨S100000x32, .f32⟩ : BufTy).Contents (Elt F)),
    StableHlo.binary main_v48 main_v52 main_v53 (mulf : (⟨S100000x32, .f32⟩ : BufTy).Contents (Elt F) → (⟨S100000x32, .f32⟩ : BufTy).Contents (Elt F) → (⟨S100000x32, .f32⟩ : BufTy).Contents (Elt F)),
    StableHlo.unary main_arg8 main_v54 (broadcastInDim S1x32 ![1] bcast_S32_S1x32_1 : (⟨S32, .f32⟩ : BufTy).Contents (Elt F) → (⟨S1x32, .f32⟩ : BufTy).Contents (Elt F)),
    StableHlo.unary main_v54 main_v55 (broadcastInDim S100000x32 ![0, 1] bcast_S1x32_S100000x32_0_1 : (⟨S1x32, .f32⟩ : BufTy).Contents (Elt F) → (⟨S100000x32, .f32⟩ : BufTy).Contents (Elt F)),
    StableHlo.binary main_v53 main_v55 main_v56 (mulf : (⟨S100000x32, .f32⟩ : BufTy).Contents (Elt F) → (⟨S100000x32, .f32⟩ : BufTy).Contents (Elt F) → (⟨S100000x32, .f32⟩ : BufTy).Contents (Elt F)),
    StableHlo.unary main_arg9 main_v57 (broadcastInDim S1x32 ![1] bcast_S32_S1x32_1 : (⟨S32, .f32⟩ : BufTy).Contents (Elt F) → (⟨S1x32, .f32⟩ : BufTy).Contents (Elt F)),
    StableHlo.unary main_v57 main_v58 (broadcastInDim S100000x32 ![0, 1] bcast_S1x32_S100000x32_0_1 : (⟨S1x32, .f32⟩ : BufTy).Contents (Elt F) → (⟨S100000x32, .f32⟩ : BufTy).Contents (Elt F)),
    StableHlo.binary main_v56 main_v58 main_v59 (addf : (⟨S100000x32, .f32⟩ : BufTy).Contents (Elt F) → (⟨S100000x32, .f32⟩ : BufTy).Contents (Elt F) → (⟨S100000x32, .f32⟩ : BufTy).Contents (Elt F)),
    StableHlo.binary main_v59 main_arg10 main_v60 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg11 main_v61 (broadcastInDim S1x32 ![1] bcast_S32_S1x32_1 : (⟨S32, .f32⟩ : BufTy).Contents (Elt F) → (⟨S1x32, .f32⟩ : BufTy).Contents (Elt F)),
    StableHlo.unary main_v61 main_v62 (broadcastInDim S100000x32 ![0, 1] bcast_S1x32_S100000x32_0_1 : (⟨S1x32, .f32⟩ : BufTy).Contents (Elt F) → (⟨S100000x32, .f32⟩ : BufTy).Contents (Elt F)),
    StableHlo.binary main_v60 main_v62 main_v63 (addf : (⟨S100000x32, .f32⟩ : BufTy).Contents (Elt F) → (⟨S100000x32, .f32⟩ : BufTy).Contents (Elt F) → (⟨S100000x32, .f32⟩ : BufTy).Contents (Elt F)),
    StableHlo.binary main_v63 main_arg0 main_v64 (addf : (⟨S100000x32, .f32⟩ : BufTy).Contents (Elt F) → (⟨S100000x32, .f32⟩ : BufTy).Contents (Elt F) → (⟨S100000x32, .f32⟩ : BufTy).Contents (Elt F)),
    StableHlo.TRef.nullary main_call2.cst (constant S_ .f32 0x00000000#32),
    StableHlo.TRef.unary main_call2.cst main_call2.v0 (broadcastInDim S100000x32 ![] bcast_S_S100000x32),
    StableHlo.TRef.binary (.of main_v64 : StableHlo.TRef sig ⟨S100000x32, .f32⟩) main_call2.v0 main_call2.v1 (cmpf .ogt),
    StableHlo.TRef.nullary main_call2.cst_0 (constant S_ .f32 0x00000000#32),
    StableHlo.TRef.unary main_call2.cst_0 main_call2.v2 (broadcastInDim S100000x32 ![] bcast_S_S100000x32),
    StableHlo.TRef.binary (.of main_v64 : StableHlo.TRef sig ⟨S100000x32, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x32 ![] bcast_S_S100000x32),
    StableHlo.TRef.ternary main_call2.v3 main_call2.call0.v1 (.of main_v64 : StableHlo.TRef sig ⟨S100000x32, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x32 ![] bcast_S_S100000x32),
    StableHlo.TRef.binary main_call2.v6 main_call2.v5 main_call2.v7 mulf,
    StableHlo.TRef.ternary main_call2.v1 (.of main_v64 : StableHlo.TRef sig ⟨S100000x32, .f32⟩) main_call2.v7 main_call2.call1.v0 select ]

/-- The whole program: the five stretches in order. -/
abbrev ops : List (HloOp τ sig (Elt F)) := opsGather ++ (opsMessage ++ (opsAggregate ++ (opsMoments ++ opsOutput)))

/-- A property of every operation of two lists holds of every operation of their concatenation. -/
theorem forall_append {α : Type} {P : α → Prop} {l₁ l₂ : List α} (h₁ : l₁.Forall P) (h₂ : l₂.Forall P) : (l₁ ++ l₂).Forall P := by
  rw [List.forall_iff_forall_mem] at h₁ h₂ ⊢
  intro x hx
  rcases List.mem_append.mp hx with h | h
  · exact h₁ x h
  · exact h₂ x h

set_option maxRecDepth 8192 in
/-- The program is that straight line: each callee's definition unfolded at its call and each call's record at
    its fields, both sides are one chain of operation steps once sequencing is reassociated. -/
theorem main_eq (c : Dev nD) : main (F := F) c = seq ops := by
  show main (F := F) c = seq (opsGather ++ (opsMessage ++ (opsAggregate ++ (opsMoments ++ opsOutput))))
  simp only [seq_append, main, main_part0, main_part1, fn_softplus.body, fn_var.body, fn_where.body, fn_elu.body,
    fn_where_0.body, fn_where_1.body, seq, bind_assoc, pure_bind]

/-- No buffer of the program is scoped to a region, and it has no semaphore. -/
theorem scopedRefs_eq : (Finset.univ.filter fun b : Ref sig .tc => b.isScoped) = ∅ := by decide
theorem scopedSems_eq : (Finset.univ.filter fun sm : SemLoc sig => sm.isScoped .tc) = ∅ := by decide

theorem opsGather_sub : (opsGather : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nary_bufs_sub ..⟩
theorem opsGather_fresh : ∀ op ∈ (opsGather : List (HloOp τ sig (Elt F))), op.fresh = ∅ := by
  intro _ h; (repeat (cases h with | head => rfl | tail _ h => ?_)); exact nomatch h

theorem opsMessage_sub : (opsMessage : List (HloOp τ sig (Elt F))).Forall fun op => op.bufs ⊆ tcRefs τ sig :=
  ⟨binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., unary_bufs_sub .., binary_bufs_sub .., binary_bufs_sub .., unary_bufs_sub .., binary_bufs_sub ..,
    unary_bufs_sub .., unary_bufs_sub .., unary_bufs_sub .., unary_bufs_sub .., binary_bufs_sub .., ternary_bufs_sub ..,
    unary_bufs_sub .., unary_bufs_sub .., binary_bufs_sub .., binary_bufs_sub ..⟩
theorem opsMessage_fresh : ∀ op ∈ (opsMessage : List (HloOp τ sig (Elt F))), op.fresh = ∅ := by
  intro _ h; (repeat (cases h with | head => rfl | tail _ h => ?_)); exact nomatch h

theorem opsAggregate_sub : (opsAggregate : List (HloOp τ sig (Elt F))).Forall fun op => op.bufs ⊆ tcRefs τ sig :=
  ⟨nullary_bufs_sub .., unary_bufs_sub .., unary_bufs_sub .., ternary_bufs_sub .., binary_bufs_sub ..⟩
theorem opsAggregate_fresh : ∀ op ∈ (opsAggregate : List (HloOp τ sig (Elt F))), op.fresh = ∅ := by
  intro _ h; (repeat (cases h with | head => rfl | tail _ h => ?_)); exact nomatch h

theorem opsMoments_sub : (opsMoments : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub ..⟩
theorem opsMoments_fresh : ∀ op ∈ (opsMoments : List (HloOp τ sig (Elt F))), op.fresh = ∅ := by
  intro _ h; (repeat (cases h with | head => rfl | tail _ h => ?_)); exact nomatch h

theorem opsOutput_sub : (opsOutput : List (HloOp τ sig (Elt F))).Forall fun op => op.bufs ⊆ tcRefs τ sig :=
  ⟨unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    unary_bufs_sub .., unary_bufs_sub .., binary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub ..⟩
theorem opsOutput_fresh : ∀ op ∈ (opsOutput : List (HloOp τ sig (Elt F))), op.fresh = ∅ := by
  intro _ h; (repeat (cases h with | head => rfl | tail _ h => ?_)); exact nomatch h

/-- Every operation touches buffers of the one device only. -/
theorem ops_sub : (ops : List (HloOp τ sig (Elt F))).Forall fun op => op.bufs ⊆ tcRefs τ sig :=
  forall_append opsGather_sub (forall_append opsMessage_sub (forall_append opsAggregate_sub (forall_append opsMoments_sub opsOutput_sub)))

/-- Every operation determines its result: none allocates. -/
theorem ops_fresh : ∀ op ∈ (ops : List (HloOp τ sig (Elt F))), op.fresh = ∅ := by
  intro op h
  rcases List.mem_append.mp h with h | h
  · exact opsGather_fresh op h
  rcases List.mem_append.mp h with h | h
  · exact opsMessage_fresh op h
  rcases List.mem_append.mp h with h | h
  · exact opsAggregate_fresh op h
  rcases List.mem_append.mp h with h | h
  · exact opsMoments_fresh op h
  · exact opsOutput_fresh op h

/-- The fold of the whole program is the five stages' folds, one after the other. -/
theorem after_ops (V : Valuation τ sig (Elt F)) :
    after ops V = after opsOutput (after opsMoments (after opsAggregate (after opsMessage (after opsGather V)))) := by
  show after (opsGather ++ (opsMessage ++ (opsAggregate ++ (opsMoments ++ opsOutput)))) V = _
  rw [StableHlo.after_append, StableHlo.after_append, StableHlo.after_append, StableHlo.after_append]

/-- At the compiled mesh, for any float values, from any memory with zero counters: every weakly fair execution of
    the program terminates, and every final state has each buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.RefSide

end
-- ==== Proof.RefTerms.lean ====
/-
  The reference program's stages as whole-array terms at the ideal values: the operations of each stage composed,
  over variables of the arrays' literal types. The integer and index part (the two rows of the edge list, the
  normalised index columns, the two gathers, the scatter-add) is kept as the program prints it; the float stages
  are the terms that are read at an index elsewhere.
-/
import proofs.«116415_j44418551775904_1_alg».proof.Proof.Gen.ReferenceIdeal
import Idealize.ShloMosaic.PureOps.Ideal

noncomputable section

namespace Cert.RefSide

open Cert.ReferenceIdeal Cert.ReferenceIdeal.Gen Idealize.ShloMosaic

/-- The source row of the edge list: row 0, as a vector. -/
def src (EI : IVec S2x3200000 32) : IVec S3200000 32 :=
  shapeCast S3200000 (extractStridedSlice S1x3200000 ![0, 0] EI slices_S2x3200000_S1x3200000_0_0) shapeCasts_S1x3200000_S3200000

/-- The target row of the edge list: row 1, as a vector. -/
def dst (EI : IVec S2x3200000 32) : IVec S3200000 32 :=
  shapeCast S3200000 (extractStridedSlice S1x3200000 ![1, 0] EI slices_S2x3200000_S1x3200000_1_0) shapeCasts_S1x3200000_S3200000

/-- An index vector normalised into range (a negative index counts from the end) and made a column. -/
def normCol (v : IVec S3200000 32) : IVec S3200000x1 32 :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 100000#32))) v)

/-- The gathered target rows. -/
def xi (X : FVec Ideal S100000x32 .f32) (EI : IVec S2x3200000 32) : FVec Ideal S3200000x32 .f32 :=
  Host.gather gather_S100000x32_S3200000x1_S3200000x32_1_0_n_n_0_1_132 X (normCol (dst EI))

/-- The gathered source rows. -/
def xj (X : FVec Ideal S100000x32 .f32) (EI : IVec S2x3200000 32) : FVec Ideal S3200000x32 .f32 :=
  Host.gather gather_S100000x32_S3200000x1_S3200000x32_1_0_n_n_0_1_132 X (normCol (src EI))

/-- The 80 concatenated features of every edge: target row, source row, attributes. -/
def cat (X : FVec Ideal S100000x32 .f32) (EI : IVec S2x3200000 32) (EA : FVec Ideal S3200000x16 .f32) : FVec Ideal S3200000x80 .f32 :=
  concatenate S3200000x80 1 [⟨S3200000x32, xi X EI⟩, ⟨S3200000x32, xj X EI⟩, ⟨S3200000x16, EA⟩]
    concatenates_S3200000x32_S3200000x32_S3200000x16_S3200000x80_d1

/-- An affine map of the concatenated features: the product with an 80×32 matrix plus the bias row. -/
def linT (C : FVec Ideal S3200000x80 .f32) (Wt : FVec Ideal S80x32 .f32) (b : FVec Ideal S32 .f32) : FVec Ideal S3200000x32 .f32 :=
  addf (Host.dotGeneral dot_S3200000x80_S80x32_S3200000x32_1_0_0_1_n_n none C Wt)
    (broadcastInDim S3200000x32 ![0, 1] bcast_S1x32_S3200000x32_0_1 (broadcastInDim S1x32 ![1] bcast_S32_S1x32_1 b))

/-- The logistic gate, spelt 1 / (1 + exp(−z)). -/
def gateT (z : FVec Ideal S3200000x32 .f32) : FVec Ideal S3200000x32 .f32 :=
  Host.divf (broadcastInDim S3200000x32 ![] bcast_S_S3200000x32 (constant (F := Ideal) S_ .f32 0x3F800000#32))
    (addf (broadcastInDim S3200000x32 ![] bcast_S_S3200000x32 (constant (F := Ideal) S_ .f32 0x3F800000#32)) (Host.exp (Host.negf z)))

/-- The zero array of the edge-by-feature shape. -/
def zeroE : FVec Ideal S3200000x32 .f32 :=
  broadcastInDim S3200000x32 ![] bcast_S_S3200000x32 (constant (F := Ideal) S_ .f32 0x00000000#32)

/-- The softplus as the program spells it: a not-a-number guard around max(z, 0) + log1p(exp(−|z − 0|)). -/
def softplusT (z : FVec Ideal S3200000x32 .f32) : FVec Ideal S3200000x32 .f32 :=
  select (cmpf .une (subf z zeroE) (subf z zeroE)) (addf z zeroE)
    (addf (maximumf z zeroE) (Host.log1p (Host.exp (Host.negf (Host.absf (subf z zeroE))))))

/-- The messages: edge weight times gate times softplus. -/
def msgT (C : FVec Ideal S3200000x80 .f32) (EW : FVec Ideal S3200000 .f32) (WF : FVec Ideal S80x32 .f32) (BF : FVec Ideal S32 .f32)
    (WS : FVec Ideal S80x32 .f32) (BS : FVec Ideal S32 .f32) : FVec Ideal S3200000x32 .f32 :=
  mulf (mulf (broadcastInDim S3200000x32 ![0, 1] bcast_S3200000x1_S3200000x32_0_1 (broadcastInDim S3200000x1 ![0] bcast_S3200000_S3200000x1_0 EW))
      (gateT (linT C WF BF)))
    (softplusT (linT C WS BS))

/-- The scatter-add of an array of per-edge rows into the zero array, at the raw target column. -/
def scatterT (EI : IVec S2x3200000 32) (M : FVec Ideal S3200000x32 .f32) : FVec Ideal S100000x32 .f32 :=
  Host.scatterAdd scatter_S100000x32_S3200000x1_S3200000x32_1_0_0_1
    (broadcastInDim S100000x32 ![] bcast_S_S100000x32 (constant (F := Ideal) S_ .f32 0x00000000#32))
    (broadcastInDim S3200000x1 ![0] bcast_S3200000_S3200000x1_0 (dst EI)) M

/-- The row means, as a column. -/
def meanT (h : FVec Ideal S100000x32 .f32) : FVec Ideal S100000x1 .f32 :=
  Host.divf (broadcastInDim S100000x1 ![0] bcast_S100000_S100000x1_0
      (Host.reduceAdd h (constant (F := Ideal) S_ .f32 0x00000000#32) reducesTo_S100000x32_S100000_d1 h_S_))
    (broadcastInDim S100000x1 ![] bcast_S_S100000x1 (constant (F := Ideal) S_ .f32 0x42000000#32))

/-- The variance's denominator: 32 less the correction, here the integer 0 converted. -/
def denT : FVec Ideal S_ .f32 :=
  subf (constant (F := Ideal) S_ .f32 0x42000000#32) (sitofp .f32 (constantI S_ 32 0#32))

/-- The row variances, as a column: the sum of squared deviations over the denominator where that is positive,
    the not-a-number pattern elsewhere. -/
def varT (h : FVec Ideal S100000x32 .f32) : FVec Ideal S100000x1 .f32 :=
  select (broadcastInDim S100000x1 ![] bcast_S_S100000x1 (cmpf .ogt denT (constant (F := Ideal) S_ .f32 0x00000000#32)))
    (Host.divf (broadcastInDim S100000x1 ![0] bcast_S100000_S100000x1_0
        (Host.reduceAdd
          (mulf (subf h (broadcastInDim S100000x32 ![0, 1] bcast_S100000x1_S100000x32_0_1 (meanT h)))
            (subf h (broadcastInDim S100000x32 ![0, 1] bcast_S100000x1_S100000x32_0_1 (meanT h))))
          (constant (F := Ideal) S_ .f32 0x00000000#32) reducesTo_S100000x32_S100000_d1 h_S_))
      (broadcastInDim S100000x1 ![] bcast_S_S100000x1 denT))
    (broadcastInDim S100000x1 ![] bcast_S_S100000x1 (id (constant (F := Ideal) S_ .f32 0x7FC00000#32)))

/-- The normalised rows, scaled and shifted. -/
def normT (h : FVec Ideal S100000x32 .f32) (G B : FVec Ideal S32 .f32) : FVec Ideal S100000x32 .f32 :=
  addf
    (mulf
      (mulf (subf h (broadcastInDim S100000x32 ![0, 1] bcast_S100000x1_S100000x32_0_1 (meanT h)))
        (broadcastInDim S100000x32 ![0, 1] bcast_S100000x1_S100000x32_0_1
          (Host.rsqrt (addf (varT h) (broadcastInDim S100000x1 ![] bcast_S_S100000x1 (constant (F := Ideal) S_ .f32 0x3727C5AC#32))))))
      (broadcastInDim S100000x32 ![0, 1] bcast_S1x32_S100000x32_0_1 (broadcastInDim S1x32 ![1] bcast_S32_S1x32_1 G)))
    (broadcastInDim S100000x32 ![0, 1] bcast_S1x32_S100000x32_0_1 (broadcastInDim S1x32 ![1] bcast_S32_S1x32_1 B))

/-- The zero array of the node-by-feature shape. -/
def zeroN : FVec Ideal S100000x32 .f32 :=
  broadcastInDim S100000x32 ![] bcast_S_S100000x32 (constant (F := Ideal) S_ .f32 0x00000000#32)

/-- The exponential linear unit as the program spells it. -/
def eluT (y : FVec Ideal S100000x32 .f32) : FVec Ideal S100000x32 .f32 :=
  select (cmpf .ogt y zeroN) y
    (mulf (broadcastInDim S100000x32 ![] bcast_S_S100000x32 (constant (F := Ideal) S_ .f32 0x3F800000#32))
      (Host.expm1 (select (cmpf .ogt y zeroN)
        (broadcastInDim S100000x32 ![] bcast_S_S100000x32 (id (constant (F := Ideal) S_ .f32 0x00000000#32))) y)))

/-- The node stage: normalise, one 32×32 product with bias, the residual, the unit. -/
def outT (h X : FVec Ideal S100000x32 .f32) (G B : FVec Ideal S32 .f32) (W : FVec Ideal S32x32 .f32) (LB : FVec Ideal S32 .f32) :
    FVec Ideal S100000x32 .f32 :=
  eluT (addf (addf (Host.dotGeneral dot_S100000x32_S32x32_S100000x32_1_0_0_1_n_n none (normT h G B) W)
      (broadcastInDim S100000x32 ![0, 1] bcast_S1x32_S100000x32_0_1 (broadcastInDim S1x32 ![1] bcast_S32_S1x32_1 LB))) X)

/-- The whole program as one array term of its twelve arguments. -/
def refT (X : FVec Ideal S100000x32 .f32) (EI : IVec S2x3200000 32) (EA : FVec Ideal S3200000x16 .f32) (EW : FVec Ideal S3200000 .f32)
    (WF : FVec Ideal S80x32 .f32) (BF : FVec Ideal S32 .f32) (WS : FVec Ideal S80x32 .f32) (BS : FVec Ideal S32 .f32)
    (G B : FVec Ideal S32 .f32) (W : FVec Ideal S32x32 .f32) (LB : FVec Ideal S32 .f32) : FVec Ideal S100000x32 .f32 :=
  outT (addf (scatterT EI (msgT (cat X EI EA) EW WF BF WS BS)) X) X G B W LB

end Cert.RefSide

end
-- ==== Proof.RefFold.lean ====
/-
  The reference program's fold read at the result buffer, at the ideal values.

  The fold of the 126 operations is read stage by stage over an arbitrary valuation: the gather stage leaves the
  concatenated features and the target row of the edge list, the message stage the message array, the aggregation
  stage the scatter-added messages plus the node features, and the two node stages the output array; each stage
  leaves the buffers it does not write as they were. Composed: the result buffer holds the program's whole-array
  term of the twelve arguments, and every argument's buffer what it held at launch.
-/
import proofs.«116415_j44418551775904_1_alg».proof.Proof.RefRun
import proofs.«116415_j44418551775904_1_alg».proof.Proof.RefTerms

noncomputable section

namespace Cert.RefSide

open Cert.ReferenceIdeal Cert.ReferenceIdeal.Gen Idealize.ShloMosaic Idealize.ShloMosaic.TcCoe Idealize.SL.Sem Idealize.ShloMosaic.StableHlo

/-- A three-operand operation over a literal family of references reads each operand at its own reference. -/
theorem nary3_result' {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Reads a stage's fold at a buffer: each operation's result at its own buffer is its function's value, at any
    other buffer what was there. -/
local macro "read_fold" : tactic =>
  `(tactic| simp (disch := decide) only [after_cons, after_nil,
      nullary_result', unary_result', binary_result', ternary_result', reshape_result', nary3_result',
      nullary_result_ne', unary_result_ne', binary_result_ne', ternary_result_ne', reshape_result_ne', nary_result_ne'])

variable (V : Valuation τ sig (Elt Ideal))

/-! ### The gather stage -/

attribute [local irreducible] Host.gather concatenate in
theorem gather_v18 :
    after (opsGather (F := Ideal)) V (main_v18 : DevRef τ sig)
      = cat (V (main_arg0 : DevRef τ sig)) (V (main_arg1 : DevRef τ sig)) (V (main_arg2 : DevRef τ sig)) := by
  read_fold
  rfl

theorem gather_v3 : after (opsGather (F := Ideal)) V (main_v3 : DevRef τ sig) = dst (V (main_arg1 : DevRef τ sig)) := by
  read_fold
  rfl

/-! ### The message stage -/

theorem message_v37 :
    after (opsMessage (F := Ideal)) V (main_v37 : DevRef τ sig)
      = msgT (V (main_v18 : DevRef τ sig)) (V (main_arg3 : DevRef τ sig)) (V (main_arg4 : DevRef τ sig)) (V (main_arg5 : DevRef τ sig))
          (V (main_arg6 : DevRef τ sig)) (V (main_arg7 : DevRef τ sig)) := by
  read_fold
  rfl

/-! ### The aggregation stage -/

attribute [local irreducible] Host.scatterAdd in
theorem aggregate_v41 :
    after (opsAggregate (F := Ideal)) V (main_v41 : DevRef τ sig)
      = addf (Host.scatterAdd scatter_S100000x32_S3200000x1_S3200000x32_1_0_0_1
            (broadcastInDim S100000x32 ![] bcast_S_S100000x32 (constant (F := Ideal) S_ .f32 0x00000000#32))
            (broadcastInDim S3200000x1 ![0] bcast_S3200000_S3200000x1_0 (V (main_v3 : DevRef τ sig))) (V (main_v37 : DevRef τ sig)))
          (V (main_arg0 : DevRef τ sig)) := by
  read_fold

/-! ### The node stages -/

attribute [local irreducible] Host.reduceAdd in
set_option maxRecDepth 65536 in
theorem node_v65 :
    after (opsOutput (F := Ideal)) (after (opsMoments (F := Ideal)) V) (main_v65 : DevRef τ sig)
      = outT (V (main_v41 : DevRef τ sig)) (V (main_arg0 : DevRef τ sig)) (V (main_arg8 : DevRef τ sig)) (V (main_arg9 : DevRef τ sig))
          (V (main_arg10 : DevRef τ sig)) (V (main_arg11 : DevRef τ sig)) := by
  read_fold
  rfl

/-! ### What each stage leaves untouched -/

theorem gather_arg0 : after (opsGather (F := Ideal)) V (main_arg0 : DevRef τ sig) = V (main_arg0 : DevRef τ sig) := by read_fold
theorem gather_arg3 : after (opsGather (F := Ideal)) V (main_arg3 : DevRef τ sig) = V (main_arg3 : DevRef τ sig) := by read_fold
theorem gather_arg4 : after (opsGather (F := Ideal)) V (main_arg4 : DevRef τ sig) = V (main_arg4 : DevRef τ sig) := by read_fold
theorem gather_arg5 : after (opsGather (F := Ideal)) V (main_arg5 : DevRef τ sig) = V (main_arg5 : DevRef τ sig) := by read_fold
theorem gather_arg6 : after (opsGather (F := Ideal)) V (main_arg6 : DevRef τ sig) = V (main_arg6 : DevRef τ sig) := by read_fold
theorem gather_arg7 : after (opsGather (F := Ideal)) V (main_arg7 : DevRef τ sig) = V (main_arg7 : DevRef τ sig) := by read_fold
theorem gather_arg8 : after (opsGather (F := Ideal)) V (main_arg8 : DevRef τ sig) = V (main_arg8 : DevRef τ sig) := by read_fold
theorem gather_arg9 : after (opsGather (F := Ideal)) V (main_arg9 : DevRef τ sig) = V (main_arg9 : DevRef τ sig) := by read_fold
theorem gather_arg10 : after (opsGather (F := Ideal)) V (main_arg10 : DevRef τ sig) = V (main_arg10 : DevRef τ sig) := by read_fold
theorem gather_arg11 : after (opsGather (F := Ideal)) V (main_arg11 : DevRef τ sig) = V (main_arg11 : DevRef τ sig) := by read_fold
theorem message_v3 : after (opsMessage (F := Ideal)) V (main_v3 : DevRef τ sig) = V (main_v3 : DevRef τ sig) := by read_fold
theorem message_arg0 : after (opsMessage (F := Ideal)) V (main_arg0 : DevRef τ sig) = V (main_arg0 : DevRef τ sig) := by read_fold
theorem message_arg8 : after (opsMessage (F := Ideal)) V (main_arg8 : DevRef τ sig) = V (main_arg8 : DevRef τ sig) := by read_fold
theorem message_arg9 : after (opsMessage (F := Ideal)) V (main_arg9 : DevRef τ sig) = V (main_arg9 : DevRef τ sig) := by read_fold
theorem message_arg10 : after (opsMessage (F := Ideal)) V (main_arg10 : DevRef τ sig) = V (main_arg10 : DevRef τ sig) := by read_fold
theorem message_arg11 : after (opsMessage (F := Ideal)) V (main_arg11 : DevRef τ sig) = V (main_arg11 : DevRef τ sig) := by read_fold
theorem aggregate_arg0 : after (opsAggregate (F := Ideal)) V (main_arg0 : DevRef τ sig) = V (main_arg0 : DevRef τ sig) := by read_fold
theorem aggregate_arg8 : after (opsAggregate (F := Ideal)) V (main_arg8 : DevRef τ sig) = V (main_arg8 : DevRef τ sig) := by read_fold
theorem aggregate_arg9 : after (opsAggregate (F := Ideal)) V (main_arg9 : DevRef τ sig) = V (main_arg9 : DevRef τ sig) := by read_fold
theorem aggregate_arg10 : after (opsAggregate (F := Ideal)) V (main_arg10 : DevRef τ sig) = V (main_arg10 : DevRef τ sig) := by read_fold
theorem aggregate_arg11 : after (opsAggregate (F := Ideal)) V (main_arg11 : DevRef τ sig) = V (main_arg11 : DevRef τ sig) := by read_fold

/-! ### The whole fold -/

/-- The result buffer after the whole program: the program's array term of the twelve arguments. -/
theorem fold_v65 :
    after (ops (F := Ideal)) V (main_v65 : DevRef τ sig)
      = refT (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) (V (main_arg11 : DevRef τ sig)) := by
  rw [after_ops, node_v65, aggregate_v41, aggregate_arg0, aggregate_arg8, aggregate_arg9, aggregate_arg10, aggregate_arg11,
    message_v37, message_v3, message_arg0, message_arg8, message_arg9, message_arg10, message_arg11,
    gather_v18, gather_v3, gather_arg0, gather_arg3, gather_arg4, gather_arg5, gather_arg6, gather_arg7,
    gather_arg8, gather_arg9, gather_arg10, gather_arg11]
  rfl

/-- No operation writes an argument: each argument's buffer ends as it began. -/
theorem fold_arg0 : after (ops (F := Ideal)) V (main_arg0 : DevRef τ sig) = V (main_arg0 : DevRef τ sig) := by rw [after_ops]; read_fold
theorem fold_arg1 : after (ops (F := Ideal)) V (main_arg1 : DevRef τ sig) = V (main_arg1 : DevRef τ sig) := by rw [after_ops]; read_fold
theorem fold_arg2 : after (ops (F := Ideal)) V (main_arg2 : DevRef τ sig) = V (main_arg2 : DevRef τ sig) := by rw [after_ops]; read_fold
theorem fold_arg3 : after (ops (F := Ideal)) V (main_arg3 : DevRef τ sig) = V (main_arg3 : DevRef τ sig) := by rw [after_ops]; read_fold
theorem fold_arg4 : after (ops (F := Ideal)) V (main_arg4 : DevRef τ sig) = V (main_arg4 : DevRef τ sig) := by rw [after_ops]; read_fold
theorem fold_arg5 : after (ops (F := Ideal)) V (main_arg5 : DevRef τ sig) = V (main_arg5 : DevRef τ sig) := by rw [after_ops]; read_fold
theorem fold_arg6 : after (ops (F := Ideal)) V (main_arg6 : DevRef τ sig) = V (main_arg6 : DevRef τ sig) := by rw [after_ops]; read_fold
theorem fold_arg7 : after (ops (F := Ideal)) V (main_arg7 : DevRef τ sig) = V (main_arg7 : DevRef τ sig) := by rw [after_ops]; read_fold
theorem fold_arg8 : after (ops (F := Ideal)) V (main_arg8 : DevRef τ sig) = V (main_arg8 : DevRef τ sig) := by rw [after_ops]; read_fold
theorem fold_arg9 : after (ops (F := Ideal)) V (main_arg9 : DevRef τ sig) = V (main_arg9 : DevRef τ sig) := by rw [after_ops]; read_fold
theorem fold_arg10 : after (ops (F := Ideal)) V (main_arg10 : DevRef τ sig) = V (main_arg10 : DevRef τ sig) := by rw [after_ops]; read_fold
theorem fold_arg11 : after (ops (F := Ideal)) V (main_arg11 : DevRef τ sig) = V (main_arg11 : DevRef τ sig) := by rw [after_ops]; read_fold

end Cert.RefSide

end
-- ==== Proof.RefEdge.lean ====
/-
  The edge stage of the reference program read at an index.

  For an edge e and a column j: the two broadcasts of the stage (a bias row over the edges, the edge weight over
  the columns) read the row at j and the weight at e; the product of the 80 concatenated features with an 80×32
  matrix is the sum over the 80 features; the concatenation is the gathered target row on columns 0 … 31, the
  gathered source row on 32 … 63 and the edge attributes on 64 … 79, so the affine map is the specification's three
  partial dot products and bias; 1 / (1 + exp(−z)) is the logistic function and the program's softplus the
  specification's. Together: the program's message array is the specification's message, edge by edge and column
  by column.
-/
import proofs.«116415_j44418551775904_1_alg».proof.Proof.RefTerms
import proofs.«116415_j44418551775904_1_alg».proof.Proof.Spec
import Idealize.ShloMosaic.Lib.Pipeline.Value
import Idealize.ShloMosaic.PureOps.Ideal.Laws
import Idealize.ShloMosaic.Lib.ValueIdx

noncomputable section

namespace Cert.RefSide

open Cert.ReferenceIdeal Cert.ReferenceIdeal.Gen Idealize.ShloMosaic Idealize.ShloMosaic.ValueIdx

/-! ## The edge stage at an index

Every array of the edge stage is read at an index (e, j): edge e, column j. -/

section Edge

variable (X : FVec Ideal S100000x32 .f32) (EI : IVec S2x3200000 32) (EA : FVec Ideal S3200000x16 .f32) (EW : FVec Ideal S3200000 .f32)
variable (e : Fin 3200000) (j : Fin 32)

/-- A row of 32 made a 1×32 array and repeated over the edges reads, at (e, j), the row at j. -/
theorem bcast_rowE (b : FVec Ideal S32 .f32) :
    broadcastInDim S3200000x32 ![0, 1] bcast_S1x32_S3200000x32_0_1 (broadcastInDim S1x32 ![1] bcast_S32_S1x32_1 b) (ix2 e j) = b (ix1 j) :=
  (broadcastInDim_apply _ _ _ (ix2 e j) (ix2 (0 : Fin 1) j) fun a => by match a with | ⟨0, _⟩ => rfl | ⟨1, _⟩ => rfl).trans
    (broadcastInDim_apply _ _ b (ix2 (0 : Fin 1) j) (ix1 j) fun a => by match a with | ⟨0, _⟩ => rfl)

/-- A per-edge vector made a column and repeated over the 32 columns reads, at (e, j), the vector at e. -/
theorem bcast_colE (w : FVec Ideal S3200000 .f32) :
    broadcastInDim S3200000x32 ![0, 1] bcast_S3200000x1_S3200000x32_0_1 (broadcastInDim S3200000x1 ![0] bcast_S3200000_S3200000x1_0 w) (ix2 e j)
      = w (ix1 e) :=
  (broadcastInDim_apply _ _ _ (ix2 e j) (ix2 e (0 : Fin 1)) fun a => by match a with | ⟨0, _⟩ => rfl | ⟨1, _⟩ => rfl).trans
    (broadcastInDim_apply _ _ w (ix2 e (0 : Fin 1)) (ix1 e) fun a => by match a with | ⟨0, _⟩ => rfl)

/-! ### The product with an 80×32 matrix -/

theorem dotE_lhs0 (i : S3200000x32.Idx) (q : dot_S3200000x80_S80x32_S3200000x32_1_0_0_1_n_n.contr.Idx) :
    (dot_S3200000x80_S80x32_S3200000x32_1_0_0_1_n_n.lhsIdx i q 0).val = (i 0).val := by
  unfold DotDims.lhsIdx
  rw [dif_neg (show ¬(0 : Fin S3200000x80.rank) ∈ dot_S3200000x80_S80x32_S3200000x32_1_0_0_1_n_n.lhsBatch by decide),
    dif_pos (show (0 : Fin S3200000x80.rank) ∈ dot_S3200000x80_S80x32_S3200000x32_1_0_0_1_n_n.lhsNonContracting by decide)]
  rfl
theorem dotE_lhs1 (i : S3200000x32.Idx) (q : dot_S3200000x80_S80x32_S3200000x32_1_0_0_1_n_n.contr.Idx) :
    (dot_S3200000x80_S80x32_S3200000x32_1_0_0_1_n_n.lhsIdx i q 1).val = (q ⟨0, by decide⟩).val :=
  dot_S3200000x80_S80x32_S3200000x32_1_0_0_1_n_n.lhsIdx_val_of_single rfl i q
theorem dotE_rhs0 (i : S3200000x32.Idx) (q : dot_S3200000x80_S80x32_S3200000x32_1_0_0_1_n_n.contr.Idx) :
    (dot_S3200000x80_S80x32_S3200000x32_1_0_0_1_n_n.rhsIdx i q 0).val = (q ⟨0, by decide⟩).val :=
  dot_S3200000x80_S80x32_S3200000x32_1_0_0_1_n_n.rhsIdx_val_of_single rfl i q
theorem dotE_rhs1 (i : S3200000x32.Idx) (q : dot_S3200000x80_S80x32_S3200000x32_1_0_0_1_n_n.contr.Idx) :
    (dot_S3200000x80_S80x32_S3200000x32_1_0_0_1_n_n.rhsIdx i q 1).val = (i 1).val := by
  unfold DotDims.rhsIdx
  rw [dif_neg (show ¬(1 : Fin S80x32.rank) ∈ dot_S3200000x80_S80x32_S3200000x32_1_0_0_1_n_n.rhsBatch by decide),
    dif_pos (show (1 : Fin S80x32.rank) ∈ dot_S3200000x80_S80x32_S3200000x32_1_0_0_1_n_n.rhsNonContracting by decide)]
  rfl

/-- The product of the edge features with an 80×32 matrix, at (e, j): the sum over the 80 features. -/
theorem dotE_apply (C : FVec Ideal S3200000x80 .f32) (Wt : FVec Ideal S80x32 .f32) :
    Host.dotGeneral dot_S3200000x80_S80x32_S3200000x32_1_0_0_1_n_n none C Wt (ix2 e j) = ∑ k : Fin 80, C (ix2 e k) * Wt (ix2 k j) := by
  simp only [Host.dotGeneral]
  rw [Ideal.dotGeneral_apply,
    ← Equiv.sum_comp (ValueIdx.contrEquiv1 dot_S3200000x80_S80x32_S3200000x32_1_0_0_1_n_n 80 rfl rfl).symm]
  refine Finset.sum_congr rfl fun k _ => ?_
  have hk := ValueIdx.contrEquiv1_symm_val dot_S3200000x80_S80x32_S3200000x32_1_0_0_1_n_n 80 rfl rfl k
  have el : dot_S3200000x80_S80x32_S3200000x32_1_0_0_1_n_n.lhsIdx (ix2 e j)
      ((ValueIdx.contrEquiv1 dot_S3200000x80_S80x32_S3200000x32_1_0_0_1_n_n 80 rfl rfl).symm k) = ix2 e k :=
    funext fun a => Fin.ext (by
      match a with
      | ⟨0, _⟩ => exact dotE_lhs0 _ _
      | ⟨1, _⟩ => exact (dotE_lhs1 _ _).trans hk)
  have er : dot_S3200000x80_S80x32_S3200000x32_1_0_0_1_n_n.rhsIdx (ix2 e j)
      ((ValueIdx.contrEquiv1 dot_S3200000x80_S80x32_S3200000x32_1_0_0_1_n_n 80 rfl rfl).symm k) = ix2 k j :=
    funext fun a => Fin.ext (by
      match a with
      | ⟨0, _⟩ => exact (dotE_rhs0 _ _).trans hk
      | ⟨1, _⟩ => exact dotE_rhs1 _ _)
  rw [el, er]

/-- An affine map of the concatenated features at (e, j). -/
theorem linT_apply (C : FVec Ideal S3200000x80 .f32) (Wt : FVec Ideal S80x32 .f32) (b : FVec Ideal S32 .f32) :
    linT C Wt b (ix2 e j) = (∑ k : Fin 80, C (ix2 e k) * Wt (ix2 k j)) + b (ix1 j) := by
  unfold linT
  rw [addf_apply, dotE_apply, bcast_rowE]

/-! ### The concatenation, by stretch -/

/-- Columns 0 … 31 of the concatenation are the gathered target row. -/
theorem cat_left (k : Fin 32) : cat X EI EA (ix2 e ⟨k.val, by omega⟩) = xi X EI (ix2 e k) := by
  unfold cat
  exact concatenate_apply_piece (t := S3200000x80) 1 [⟨S3200000x32, xi X EI⟩, ⟨S3200000x32, xj X EI⟩, ⟨S3200000x16, EA⟩]
    concatenates_S3200000x32_S3200000x32_S3200000x16_S3200000x80_d1 (ix2 e (⟨k.val, by omega⟩ : Fin 80)) 0 (by show (0 : Nat) < 3; omega)
    S3200000x32 (xi X EI) rfl rfl 0 rfl (ix2 e k)
    (fun b hb => by match b with | ⟨0, _⟩ => rfl | ⟨1, _⟩ => exact absurd rfl hb) (Nat.zero_add _)

/-- Columns 32 … 63 are the gathered source row. -/
theorem cat_mid (k : Fin 32) : cat X EI EA (ix2 e ⟨32 + k.val, by omega⟩) = xj X EI (ix2 e k) := by
  unfold cat
  exact concatenate_apply_piece (t := S3200000x80) 1 [⟨S3200000x32, xi X EI⟩, ⟨S3200000x32, xj X EI⟩, ⟨S3200000x16, EA⟩]
    concatenates_S3200000x32_S3200000x32_S3200000x16_S3200000x80_d1 (ix2 e (⟨32 + k.val, by omega⟩ : Fin 80)) 1 (by show (1 : Nat) < 3; omega)
    S3200000x32 (xj X EI) rfl rfl 32 rfl (ix2 e k)
    (fun b hb => by match b with | ⟨0, _⟩ => rfl | ⟨1, _⟩ => exact absurd rfl hb) rfl

/-- Columns 64 … 79 are the edge attributes. -/
theorem cat_right (k : Fin 16) : cat X EI EA (ix2 e ⟨64 + k.val, by omega⟩) = EA (ix2 e k) := by
  unfold cat
  exact concatenate_apply_piece (t := S3200000x80) 1 [⟨S3200000x32, xi X EI⟩, ⟨S3200000x32, xj X EI⟩, ⟨S3200000x16, EA⟩]
    concatenates_S3200000x32_S3200000x32_S3200000x16_S3200000x80_d1 (ix2 e (⟨64 + k.val, by omega⟩ : Fin 80)) 2 (by show (2 : Nat) < 3; omega)
    S3200000x16 EA rfl rfl 64 rfl (ix2 e k)
    (fun b hb => by match b with | ⟨0, _⟩ => rfl | ⟨1, _⟩ => exact absurd rfl hb) rfl

/-- An affine map of the concatenation is the specification's: three partial dot products and the bias. -/
theorem linT_cat (Wt : FVec Ideal S80x32 .f32) (b : FVec Ideal S32 .f32) :
    linT (cat X EI EA) Wt b (ix2 e j)
      = Cert.Spec.lin (fun k => xi X EI (ix2 e k)) (fun k => xj X EI (ix2 e k)) (fun k => EA (ix2 e k))
          (fun k a => Wt (ix2 ⟨k.val, by omega⟩ a)) (fun k a => Wt (ix2 ⟨32 + k.val, by omega⟩ a)) (fun k a => Wt (ix2 ⟨64 + k.val, by omega⟩ a))
          (fun a => b (ix1 a)) j := by
  rw [linT_apply, Cert.Spec.sum_80]
  unfold Cert.Spec.lin
  refine congrArg (· + b (ix1 j)) (congrArg₂ (· + ·) (congrArg₂ (· + ·) ?_ ?_) ?_)
  · exact Finset.sum_congr rfl fun k _ => congrArg (· * Wt (ix2 ⟨k.val, by omega⟩ j)) (cat_left X EI EA e k)
  · exact Finset.sum_congr rfl fun k _ => congrArg (· * Wt (ix2 ⟨32 + k.val, by omega⟩ j)) (cat_mid X EI EA e k)
  · exact Finset.sum_congr rfl fun k _ => congrArg (· * Wt (ix2 ⟨64 + k.val, by omega⟩ j)) (cat_right X EI EA e k)

/-! ### Gate, softplus, message -/

/-- 1 / (1 + exp(−z)) is the logistic function. -/
theorem gateT_apply (z : FVec Ideal S3200000x32 .f32) (i : S3200000x32.Idx) : gateT z i = Ideal.logistic (z i) := by
  show Ideal.div Cert.Spec.one (Cert.Spec.one + Ideal.exp (-(z i))) = Ideal.logistic (z i)
  rw [Cert.Spec.one_eq]; rfl

/-- The program's softplus is the specification's. -/
theorem softplusT_apply (z : FVec Ideal S3200000x32 .f32) (i : S3200000x32.Idx) : softplusT z i = Cert.Spec.softplus (z i) :=
  Cert.Spec.softplus_ref (z i)

/-- The messages as a function of the edge and the column, in the specification's words. -/
def msgArr (X : FVec Ideal S100000x32 .f32) (EI : IVec S2x3200000 32) (EA : FVec Ideal S3200000x16 .f32) (EW : FVec Ideal S3200000 .f32)
    (WF : FVec Ideal S80x32 .f32) (BF : FVec Ideal S32 .f32) (WS : FVec Ideal S80x32 .f32) (BS : FVec Ideal S32 .f32) :
    S3200000x32.Idx → EReal := fun i =>
  Cert.Spec.msg (fun k => xi X EI (ix2 (i 0) k)) (fun k => xj X EI (ix2 (i 0) k)) (fun k => EA (ix2 (i 0) k)) (EW (ix1 (i 0)))
    (fun k a => WF (ix2 ⟨k.val, by omega⟩ a)) (fun k a => WF (ix2 ⟨32 + k.val, by omega⟩ a)) (fun k a => WF (ix2 ⟨64 + k.val, by omega⟩ a))
    (fun a => BF (ix1 a))
    (fun k a => WS (ix2 ⟨k.val, by omega⟩ a)) (fun k a => WS (ix2 ⟨32 + k.val, by omega⟩ a)) (fun k a => WS (ix2 ⟨64 + k.val, by omega⟩ a))
    (fun a => BS (ix1 a)) (i 1)

/-- The program's messages are the specification's, edge by edge and column by column. -/
theorem msgT_eq (WF : FVec Ideal S80x32 .f32) (BF : FVec Ideal S32 .f32) (WS : FVec Ideal S80x32 .f32) (BS : FVec Ideal S32 .f32) :
    msgT (cat X EI EA) EW WF BF WS BS = msgArr X EI EA EW WF BF WS BS := by
  funext i
  obtain ⟨e, j, rfl⟩ : ∃ (e : Fin 3200000) (j : Fin 32), i = ix2 e j := ⟨i 0, i 1, eq_ix2 i⟩
  unfold msgT
  rw [mulf_apply, mulf_apply, bcast_colE, gateT_apply, softplusT_apply, linT_cat, linT_cat]
  rfl

end Edge

end Cert.RefSide

end
-- ==== Proof.RefNode.lean ====
/-
  The node half of the reference read at an entry.

  For the row h = agg + x of a node the reference takes the mean and the variance as columns [100000, 1] (a host
  sum over the 32 features, broadcast back along the features), normalises with the reciprocal root of the
  variance shifted by the layer's epsilon, scales and shifts by the two parameter rows, multiplies by the 32×32
  weight, adds the bias row and the residual, and applies the exponential linear unit. The variance divides by
  32 less a correction that is the integer 0, under a guard "the denominator is positive" that always holds; so
  entry (r, j) of the result is the specification's `out` of row r at column j.

  Each stage is read at an index over literal coordinates: the broadcasts by naming the operand's index, the host
  sum as the sum over the row, the product as the sum over the 32 contracted features.
-/
import proofs.«116415_j44418551775904_1_alg».proof.Proof.RefTerms
import proofs.«116415_j44418551775904_1_alg».proof.Proof.Spec
import Idealize.ShloMosaic.Lib.Pipeline.Value
import Idealize.ShloMosaic.PureOps.Ideal.Laws
import Idealize.ShloMosaic.Lib.ValueIdx
import Idealize.ShloMosaic.Lib.IdealHost

noncomputable section

namespace Cert.RefSide

open Cert.ReferenceIdeal Cert.ReferenceIdeal.Gen Idealize.ShloMosaic Idealize.ShloMosaic.ValueIdx

/-! ## The broadcasts at an index -/

/-- A vector of 100000 entries made a column reads, at `(r, u)`, its entry `r`. -/
theorem col_apply (v : FVec Ideal S100000 .f32) (r : Fin 100000) (u : Fin 1) :
    broadcastInDim S100000x1 ![0] bcast_S100000_S100000x1_0 v (ix2 r u) = v (ix1 r) :=
  broadcastInDim_apply ![0] bcast_S100000_S100000x1_0 v (ix2 r u) (ix1 r) fun a => by
    match a with
    | ⟨0, _⟩ => rfl

/-- A column broadcast along the 32 features reads, at `(r, j)`, the column's entry of row `r`. -/
theorem colBcast_apply (col : FVec Ideal S100000x1 .f32) (r : Fin 100000) (j : Fin 32) :
    broadcastInDim S100000x32 ![0, 1] bcast_S100000x1_S100000x32_0_1 col (ix2 r j) = col (ix2 r (0 : Fin 1)) :=
  broadcastInDim_apply ![0, 1] bcast_S100000x1_S100000x32_0_1 col (ix2 r j) (ix2 r (0 : Fin 1)) fun a => by
    match a with
    | ⟨0, _⟩ => rfl
    | ⟨1, _⟩ => rfl

/-- A parameter vector made a row and broadcast along the nodes reads, at `(r, j)`, its entry `j`. -/
theorem rowBcast_apply (b : FVec Ideal S32 .f32) (r : Fin 100000) (j : Fin 32) :
    broadcastInDim S100000x32 ![0, 1] bcast_S1x32_S100000x32_0_1 (broadcastInDim S1x32 ![1] bcast_S32_S1x32_1 b) (ix2 r j)
      = b (ix1 j) :=
  (broadcastInDim_apply ![0, 1] bcast_S1x32_S100000x32_0_1 _ (ix2 r j) (ix2 (0 : Fin 1) j) fun a => by
    match a with
    | ⟨0, _⟩ => rfl
    | ⟨1, _⟩ => rfl).trans
  (broadcastInDim_apply ![1] bcast_S32_S1x32_1 b (ix2 (0 : Fin 1) j) (ix1 j) fun a => by
    match a with
    | ⟨0, _⟩ => rfl)

/-! ## The host sum over a row, and the constants -/

/-- The host sum over the features from the zero pattern, read at row `r`: the sum of the row's 32 entries. -/
theorem hostRowSum_apply (h : FVec Ideal S100000x32 .f32) (r : Fin 100000) :
    Host.reduceAdd h (constant (F := Ideal) S_ .f32 0x00000000#32) reducesTo_S100000x32_S100000_d1 h_S_ (ix1 r)
      = ∑ k : Fin 32, h (ix2 r k) := by
  have hR : S100000x32.Reduces [1] S100000 := by decide
  show Ideal.hostReduceAdd reducesTo_S100000x32_S100000_d1 h (Ideal.ofBits .f32 0x00000000#32) (ix1 r) = _
  rw [Ideal.hostReduceAdd_single reducesTo_S100000x32_S100000_d1 hR, Ideal.ofBits_zero_f32, zero_add]
  exact Finset.sum_congr rfl fun k _ => congrArg h (funext fun a => Fin.ext (by
    match a with
    | ⟨0, _⟩ => rfl
    | ⟨1, _⟩ => rfl))

/-- The pattern of 32.0 is the real 32. -/
theorem c32_eq : Cert.Spec.c32 = ((32 : ℝ) : EReal) := by
  show Ideal.ofBits .f32 0x42000000#32 = _
  simp [Ideal.ofBits, Ideal.ieee, -EReal.coe_mul]; norm_num

/-- The variance's denominator: 32 less the integer 0 converted is 32. -/
theorem den_eq : Cert.Spec.c32 - (((0#32 : BitVec 32).toInt : ℝ) : EReal) = Cert.Spec.c32 := by
  rw [show (0#32 : BitVec 32).toInt = 0 from rfl]
  simp only [Int.cast_zero, EReal.coe_zero, sub_zero]

/-- The guard "the denominator is positive" holds. -/
theorem guard_eq : Ideal.cmp .ogt Cert.Spec.c32 Cert.Spec.z0 = 1#1 := by
  rw [Cert.Spec.cmp_ogt, if_pos]
  rw [c32_eq]
  exact EReal.coe_pos.mpr (by norm_num)

/-! ## The stages at an index -/

/-- The reference's row mean is the specification's. -/
theorem meanT_apply (h : FVec Ideal S100000x32 .f32) (r : Fin 100000) (u : Fin 1) :
    meanT h (ix2 r u) = Cert.Spec.mean (fun a => h (ix2 r a)) :=
  congrArg (fun s => Ideal.div s Cert.Spec.c32) ((col_apply _ r u).trans (hostRowSum_apply h r))

/-- The row less its mean, at an entry. -/
theorem centered_apply (h : FVec Ideal S100000x32 .f32) (r : Fin 100000) (j : Fin 32) :
    subf h (broadcastInDim S100000x32 ![0, 1] bcast_S100000x1_S100000x32_0_1 (meanT h)) (ix2 r j)
      = h (ix2 r j) - Cert.Spec.mean (fun a => h (ix2 r a)) :=
  congrArg (fun s => h (ix2 r j) - s) ((colBcast_apply (meanT h) r j).trans (meanT_apply h r 0))

/-- The variance's denominator, wherever it is read, is 32. -/
theorem denT_apply (i : S_.Idx) : denT i = Cert.Spec.c32 := den_eq

theorem denB_apply (j : S100000x1.Idx) :
    broadcastInDim S100000x1 ![] bcast_S_S100000x1 denT j = Cert.Spec.c32 := by
  rw [broadcastInDim_scalar_apply, denT_apply]

/-- The guard "the denominator is positive", broadcast over the column, is the bit 1 everywhere. -/
theorem guardT_apply (j : S100000x1.Idx) :
    broadcastInDim S100000x1 ![] bcast_S_S100000x1
      (cmpf .ogt denT (constant (F := Ideal) S_ .f32 0x00000000#32)) j = 1#1 := by
  rw [broadcastInDim_scalar_apply, cmpf_apply, Ideal.cmpf_def, denT_apply, constant_apply]
  exact guard_eq

/-- The reference's row variance is the specification's: the guard holds, the denominator is 32. -/
theorem varT_apply (h : FVec Ideal S100000x32 .f32) (r : Fin 100000) (u : Fin 1) :
    varT h (ix2 r u) = Cert.Spec.var (fun a => h (ix2 r a)) := by
  unfold varT
  rw [select_apply, guardT_apply, select_one, hostDivf_apply, denB_apply, col_apply, hostRowSum_apply]
  unfold Cert.Spec.var
  refine congrArg (fun s => Ideal.div s Cert.Spec.c32) (Finset.sum_congr rfl fun k _ => ?_)
  rw [mulf_apply, centered_apply]

/-- The normalised, scaled and shifted row, at an entry. -/
theorem normT_apply (h : FVec Ideal S100000x32 .f32) (G B : FVec Ideal S32 .f32) (r : Fin 100000) (j : Fin 32) :
    normT h G B (ix2 r j)
      = Cert.Spec.norm (fun a => h (ix2 r a)) (fun a => G (ix1 a)) (fun a => B (ix1 a)) j := by
  unfold normT Cert.Spec.norm
  rw [addf_apply, mulf_apply, mulf_apply, centered_apply, colBcast_apply, rowBcast_apply, rowBcast_apply]
  show _ * Ideal.rsqrt (varT h (ix2 r 0) + Cert.Spec.eps) * _ + _ = _
  rw [varT_apply]

/-! ## The 32×32 product at an index -/

theorem dot_lhs0 (i : S100000x32.Idx) (q : dot_S100000x32_S32x32_S100000x32_1_0_0_1_n_n.contr.Idx) :
    (dot_S100000x32_S32x32_S100000x32_1_0_0_1_n_n.lhsIdx i q 0).val = (i 0).val := by
  unfold DotDims.lhsIdx
  rw [dif_neg (show ¬(0 : Fin S100000x32.rank) ∈ dot_S100000x32_S32x32_S100000x32_1_0_0_1_n_n.lhsBatch by decide),
    dif_pos (show (0 : Fin S100000x32.rank) ∈ dot_S100000x32_S32x32_S100000x32_1_0_0_1_n_n.lhsNonContracting by decide)]
  rfl
theorem dot_lhs1 (i : S100000x32.Idx) (q : dot_S100000x32_S32x32_S100000x32_1_0_0_1_n_n.contr.Idx) :
    (dot_S100000x32_S32x32_S100000x32_1_0_0_1_n_n.lhsIdx i q 1).val = (q ⟨0, by decide⟩).val :=
  dot_S100000x32_S32x32_S100000x32_1_0_0_1_n_n.lhsIdx_val_of_single rfl i q
theorem dot_rhs0 (i : S100000x32.Idx) (q : dot_S100000x32_S32x32_S100000x32_1_0_0_1_n_n.contr.Idx) :
    (dot_S100000x32_S32x32_S100000x32_1_0_0_1_n_n.rhsIdx i q 0).val = (q ⟨0, by decide⟩).val :=
  dot_S100000x32_S32x32_S100000x32_1_0_0_1_n_n.rhsIdx_val_of_single rfl i q
theorem dot_rhs1 (i : S100000x32.Idx) (q : dot_S100000x32_S32x32_S100000x32_1_0_0_1_n_n.contr.Idx) :
    (dot_S100000x32_S32x32_S100000x32_1_0_0_1_n_n.rhsIdx i q 1).val = (i 1).val := by
  unfold DotDims.rhsIdx
  rw [dif_neg (show ¬(1 : Fin S32x32.rank) ∈ dot_S100000x32_S32x32_S100000x32_1_0_0_1_n_n.rhsBatch by decide),
    dif_pos (show (1 : Fin S32x32.rank) ∈ dot_S100000x32_S32x32_S100000x32_1_0_0_1_n_n.rhsNonContracting by decide)]
  rfl

/-- The host product read at `(r, j)`: row `r` of the left operand against column `j` of the weight. -/
theorem refDot_apply (N : FVec Ideal S100000x32 .f32) (W : FVec Ideal S32x32 .f32) (r : Fin 100000) (j : Fin 32) :
    Host.dotGeneral dot_S100000x32_S32x32_S100000x32_1_0_0_1_n_n none N W (ix2 r j) = ∑ k : Fin 32, N (ix2 r k) * W (ix2 k j) := by
  simp only [Host.dotGeneral]
  rw [Ideal.dotGeneral_apply, ← Equiv.sum_comp (contrEquiv1 dot_S100000x32_S32x32_S100000x32_1_0_0_1_n_n 32 rfl rfl).symm]
  refine Finset.sum_congr rfl fun k _ => ?_
  have hk := contrEquiv1_symm_val dot_S100000x32_S32x32_S100000x32_1_0_0_1_n_n 32 rfl rfl k
  have el : dot_S100000x32_S32x32_S100000x32_1_0_0_1_n_n.lhsIdx (ix2 r j) ((contrEquiv1 dot_S100000x32_S32x32_S100000x32_1_0_0_1_n_n 32 rfl rfl).symm k) = ix2 r k :=
    funext fun a => Fin.ext (by
      match a with
      | ⟨0, _⟩ => exact dot_lhs0 _ _
      | ⟨1, _⟩ => exact (dot_lhs1 _ _).trans hk)
  have er : dot_S100000x32_S32x32_S100000x32_1_0_0_1_n_n.rhsIdx (ix2 r j) ((contrEquiv1 dot_S100000x32_S32x32_S100000x32_1_0_0_1_n_n 32 rfl rfl).symm k) = ix2 k j :=
    funext fun a => Fin.ext (by
      match a with
      | ⟨0, _⟩ => exact (dot_rhs0 _ _).trans hk
      | ⟨1, _⟩ => exact dot_rhs1 _ _)
  rw [el, er]

/-! ## The unit and the node stage -/

/-- The reference's exponential linear unit at an entry is the specification's. -/
theorem eluT_apply (y : FVec Ideal S100000x32 .f32) (i : S100000x32.Idx) : eluT y i = Cert.Spec.elu (y i) :=
  Cert.Spec.elu_ref (y i)

/-- THE NODE STAGE: every row of the reference's result is the specification's output of that row of the
    aggregated messages and of the features. -/
theorem outT_eq (AGG X : FVec Ideal S100000x32 .f32) (G B : FVec Ideal S32 .f32) (W : FVec Ideal S32x32 .f32)
    (LB : FVec Ideal S32 .f32) :
    outT (addf AGG X) X G B W LB
      = fun i => Cert.Spec.out (fun a => AGG (ix2 (i 0) a)) (fun a => X (ix2 (i 0) a)) (fun a => G (ix1 a))
          (fun a => B (ix1 a)) (fun k a => W (ix2 k a)) (fun a => LB (ix1 a)) (i 1) := by
  funext i
  obtain ⟨r, j, rfl⟩ : ∃ (r : Fin 100000) (j : Fin 32), i = ix2 r j := ⟨i 0, i 1, eq_ix2 i⟩
  unfold outT
  rw [eluT_apply, addf_apply, addf_apply, refDot_apply, rowBcast_apply]
  show _ = Cert.Spec.out (fun a => AGG (ix2 r a)) (fun a => X (ix2 r a)) (fun a => G (ix1 a))
      (fun a => B (ix1 a)) (fun k a => W (ix2 k a)) (fun a => LB (ix1 a)) j
  unfold Cert.Spec.out
  refine congrArg Cert.Spec.elu (congrArg (· + X (ix2 r j)) (congrArg (· + LB (ix1 j))
    (Finset.sum_congr rfl fun k _ => ?_)))
  rw [normT_apply]
  rfl

end Cert.RefSide

end
-- ==== Proof.RefValue.lean ====
/-
  The value the reference program computes, in the specification's words.

  The program's whole-array term has the specification's messages under the scatter-add (the edge stage, index by
  index) and is the specification's output of the aggregated messages and the node features (the node stage, row
  by row). With the run of the program this gives: every execution ends with the result buffer at that function
  of the twelve arguments' launch contents, the arguments unchanged.
-/
import proofs.«116415_j44418551775904_1_alg».proof.Proof.RefFold
import proofs.«116415_j44418551775904_1_alg».proof.Proof.RefEdge
import proofs.«116415_j44418551775904_1_alg».proof.Proof.RefNode

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx

/-! ## The value of the result buffer -/

/-- The aggregated messages: the specification's messages scatter-added into the zero array at the raw target
    column. -/
def agg (X : FVec Ideal S100000x32 .f32) (EI : IVec S2x3200000 32) (EA : FVec Ideal S3200000x16 .f32) (EW : FVec Ideal S3200000 .f32)
    (WF : FVec Ideal S80x32 .f32) (BF : FVec Ideal S32 .f32) (WS : FVec Ideal S80x32 .f32) (BS : FVec Ideal S32 .f32) :
    FVec Ideal S100000x32 .f32 :=
  Host.scatterAdd scatter_S100000x32_S3200000x1_S3200000x32_1_0_0_1
    (broadcastInDim S100000x32 ![] bcast_S_S100000x32 (constant (F := Ideal) S_ .f32 0x00000000#32))
    (broadcastInDim S3200000x1 ![0] bcast_S3200000_S3200000x1_0 (dst EI)) (msgArr X EI EA EW WF BF WS BS)

/-- What the program computes: at node r and column j, the specification's output of the aggregated messages
    of r and the features of r. -/
def result (X : FVec Ideal S100000x32 .f32) (EI : IVec S2x3200000 32) (EA : FVec Ideal S3200000x16 .f32) (EW : FVec Ideal S3200000 .f32)
    (WF : FVec Ideal S80x32 .f32) (BF : FVec Ideal S32 .f32) (WS : FVec Ideal S80x32 .f32) (BS : FVec Ideal S32 .f32)
    (G B : FVec Ideal S32 .f32) (W : FVec Ideal S32x32 .f32) (LB : FVec Ideal S32 .f32) : S100000x32.Idx → EReal := fun i =>
  Cert.Spec.out (fun a => agg X EI EA EW WF BF WS BS (ix2 (i 0) a)) (fun a => X (ix2 (i 0) a)) (fun a => G (ix1 a)) (fun a => B (ix1 a))
    (fun k a => W (ix2 k a)) (fun a => LB (ix1 a)) (i 1)

/-- The program's array term is that function: the messages are the specification's edge by edge, and the node
    stage is the specification's output row by row. -/
theorem refT_eq (X : FVec Ideal S100000x32 .f32) (EI : IVec S2x3200000 32) (EA : FVec Ideal S3200000x16 .f32) (EW : FVec Ideal S3200000 .f32)
    (WF : FVec Ideal S80x32 .f32) (BF : FVec Ideal S32 .f32) (WS : FVec Ideal S80x32 .f32) (BS : FVec Ideal S32 .f32)
    (G B : FVec Ideal S32 .f32) (W : FVec Ideal S32x32 .f32) (LB : FVec Ideal S32 .f32) :
    refT X EI EA EW WF BF WS BS G B W LB = result X EI EA EW WF BF WS BS G B W LB := by
  unfold refT scatterT
  rw [msgT_eq, outT_eq]
  rfl

/-- On every device, from any memory with zero counters: every weakly fair execution of the reference program
    terminates with the result buffer at the specification's output of the twelve arguments' launch contents,
    and the arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65)
          = result (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
              (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
      ⟨(h c main_v65).trans ((fold_v65 (launchContents m c)).trans (refT_eq _ _ _ _ _ _ _ _ _ _ _ _)),
        (h c main_arg0).trans (fold_arg0 _), (h c main_arg1).trans (fold_arg1 _), (h c main_arg2).trans (fold_arg2 _),
        (h c main_arg3).trans (fold_arg3 _), (h c main_arg4).trans (fold_arg4 _), (h c main_arg5).trans (fold_arg5 _),
        (h c main_arg6).trans (fold_arg6 _), (h c main_arg7).trans (fold_arg7 _), (h c main_arg8).trans (fold_arg8 _),
        (h c main_arg9).trans (fold_arg9 _), (h c main_arg10).trans (fold_arg10 _), (h c main_arg11).trans (fold_arg11 _)⟩)
    (run_main m ρ)

end Cert.RefSide

end
-- ==== Proof.lean ====
/-
  One message-passing layer of a graph network: the kernel against its jnp reference, on the extended reals.

  Both programs compute, for every edge, the message ew · logistic(lin_f z) · softplus(lin_s z) of the
  concatenated features z = (x[target], x[source], edge attributes); add the messages of each target node;
  and give each node elu(layernorm(agg + x) · W + b + x). The reference forms z and applies each 80-row weight
  matrix in one product; the kernel gathers the two node rows on the host, and inside its first region takes
  the three partial products against the matrix's three row stretches and adds them — the same sum, cut into
  its three stretches. The reference writes the logistic as 1 / (1 + exp(−z)) and softplus's exponent as a
  negation where the kernel has the logistic operation and 0 − |z|; the reference's elu takes exp(y) − 1 of
  the row with its positive entries zeroed and multiplies by one, the kernel takes exp(y) − 1 directly; the
  reference's variance divides by 32 − 0. None of this needs the inputs to be finite: the two sides are the
  same function of the arguments, entry by entry.

  The kernel's run: the launch of its four segments, the message array after the first region and the
  output array after the second each read as one whole-array function through the blocks that tile it, and
  the host operations between them read back to the launch memory. The reference's run: its operations in
  order, with the called functions' bodies in place of the calls, folded from the launch memory and read
  entry by entry. Both results are the specification's output of the same arrays: the gathers and the
  scatter-add are the same host operations on both sides and are never opened.
-/
import proofs.«116415_j44418551775904_1_alg».proof.Defs
import proofs.«116415_j44418551775904_1_alg».proof.Proof.Gen.Kernel
import proofs.«116415_j44418551775904_1_alg».proof.Proof.Gen.Kernel.Skeleton
import proofs.«116415_j44418551775904_1_alg».proof.Proof.Gen.Kernel.Launch
import proofs.«116415_j44418551775904_1_alg».proof.Proof.Gen.Kernel.Points
import proofs.«116415_j44418551775904_1_alg».proof.Proof.Gen.Kernel.Frame
import proofs.«116415_j44418551775904_1_alg».proof.Proof.Gen.KernelIdeal
import proofs.«116415_j44418551775904_1_alg».proof.Proof.Gen.KernelIdeal.Skeleton
import proofs.«116415_j44418551775904_1_alg».proof.Proof.Gen.KernelIdeal.Launch
import proofs.«116415_j44418551775904_1_alg».proof.Proof.Gen.KernelIdeal.Points
import proofs.«116415_j44418551775904_1_alg».proof.Proof.Gen.KernelIdeal.Frame
import proofs.«116415_j44418551775904_1_alg».proof.Proof.Gen.ReferenceIdeal
import proofs.«116415_j44418551775904_1_alg».proof.Proof.Gen.Pre_finite_inputs
import proofs.«116415_j44418551775904_1_alg».proof.Proof.KerValue
import proofs.«116415_j44418551775904_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.RefSide.run_value m ρ)

/-- The ideal pass rewrote nothing. -/
theorem preserves : Cert.preserves_Kernel_KernelIdeal := trivial

/-- The two results as functions of the arguments are one function: the same host gathers and scatter-add around
    the same specification, the kernel's conversion of x to the narrow format the identity on the extended reals. -/
theorem result_eq (X : Cert.KernelIdeal.S100000x32.Idx → EReal) (EI : IVec Cert.KernelIdeal.S2x3200000 32)
    (EA : Cert.KernelIdeal.S3200000x16.Idx → EReal) (EW : Cert.KernelIdeal.S3200000.Idx → EReal)
    (WF : Cert.KernelIdeal.S80x32.Idx → EReal) (BF : Cert.KernelIdeal.S32.Idx → EReal)
    (WS : Cert.KernelIdeal.S80x32.Idx → EReal) (BS : Cert.KernelIdeal.S32.Idx → EReal)
    (G B : Cert.KernelIdeal.S32.Idx → EReal) (W : Cert.KernelIdeal.S32x32.Idx → EReal) (LB : Cert.KernelIdeal.S32.Idx → EReal) :
    Cert.RefSide.result X EI EA EW WF BF WS BS G B W LB = Cert.KerSide.result X EI EA EW WF BF WS BS G B W LB := rfl

/-- From memories agreeing on the arguments the two idealized programs end with equal results, entry by entry. -/
theorem algebraic : Cert.algebraic_KernelIdeal_ReferenceIdeal := by
  intro m ρ m' ρ' _ hagree
  refine ⟨fun c => Cert.KerSide.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => (m ((c.tc : Thread Cert.KernelIdeal.nD Cert.KernelIdeal.τ).loc Cert.KernelIdeal.main_arg1)), fun c => (m ((c.tc : Thread Cert.KernelIdeal.nD Cert.KernelIdeal.τ).loc Cert.KernelIdeal.main_arg2)), fun c => (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KerSide.ker_value m ρ c), (h c).2.2.1, (h c).2.2.2.1, (h c).2.2.2.2.1, (h c).2⟩)
      (Cert.KerSide.run_result m ρ)
  · refine (θ_run Cert.ReferenceIdeal.defs _ _).mono (fun r h c => ?_) (Cert.RefSide.run_value m' ρ')
    obtain ⟨a0, a1, a2, a3, a4, a5, a6, a7, a8, a9, a10, a11⟩ := hagree c
    refine ⟨(h c).1.trans ?_, (h c).2.2.1.trans a1, (h c).2.2.2.1.trans a2, (h c).2.2.2.2.1.trans a3, (h c).2⟩
    rw [a0, a1, a2, a3, a4, a5, a6, a7, a8, a9, a10, a11]
    exact result_eq _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
